-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v16_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v16_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_v109) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S4x1024x1024 : Shape := ⟨3, ![4, 1024, 1024]⟩
abbrev S4x1024 : Shape := ⟨2, ![4, 1024]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S4x1024x1024 : S_.BroadcastsInDim S4x1024x1024 (![] : Fin 0 → Fin S4x1024x1024.rank)
  reducesTo_S4x1024x1024_S_d0_1_2 : S4x1024x1024.ReducesTo [0, 1, 2] S_
  bcast_S_S4x1024 : S_.BroadcastsInDim S4x1024 (![] : Fin 0 → Fin S4x1024.rank)
  reducesTo_S4x1024_S_d0_1 : S4x1024.ReducesTo [0, 1] S_

variable [Facts]

def fn_part3 {F : FTy → Type} [FloatOps F] (main_v48 : IVec S_ 1) (main_v49 : FVec F S4x1024 .f32) (main_v50 : FVec F S4x1024 .f32) : IVec S_ 1 :=
  let main_v51 : IVec S4x1024 1 := cmpf .olt main_v49 main_v50
  let main_c_19 : IVec S_ 1 := constantI S_ 1 1#1
  let main_v52 : IVec S_ 1 := (fun x v => Host.reduce IntOp.andi x v reducesTo_S4x1024_S_d0_1 h_S_) main_v51 main_c_19
  let main_v53 : IVec S_ 1 := andi main_v48 main_v52
  main_v53

def fn_part2 {F : FTy → Type} [FloatOps F] (main_arg7 : FVec F S4x1024x1024 .f32) (main_arg8 : FVec F S4x1024x1024 .f32) (main_arg9 : FVec F S4x1024 .f32) (main_arg10 : FVec F S4x1024 .f32) (main_v33 : IVec S_ 1) : IVec S_ 1 :=
  let main_v34 : FVec F S4x1024x1024 .f32 := Host.absf main_arg7
  let main_cst_12 : FVec F S_ .f32 := constant S_ .f32 0x7F800000#32
  let main_v35 : FVec F S4x1024x1024 .f32 := broadcastInDim S4x1024x1024 ![] bcast_S_S4x1024x1024 main_cst_12
  let main_v36 : IVec S4x1024x1024 1 := cmpf .olt main_v34 main_v35
  let main_c_13 : IVec S_ 1 := constantI S_ 1 1#1
  let main_v37 : IVec S_ 1 := (fun x v => Host.reduce IntOp.andi x v reducesTo_S4x1024x1024_S_d0_1_2 h_S_) main_v36 main_c_13
  let main_v38 : IVec S_ 1 := andi main_v33 main_v37
  let main_v39 : FVec F S4x1024x1024 .f32 := Host.absf main_arg8
  let main_cst_14 : FVec F S_ .f32 := constant S_ .f32 0x7F800000#32
  let main_v40 : FVec F S4x1024x1024 .f32 := broadcastInDim S4x1024x1024 ![] bcast_S_S4x1024x1024 main_cst_14
  let main_v41 : IVec S4x1024x1024 1 := cmpf .olt main_v39 main_v40
  let main_c_15 : IVec S_ 1 := constantI S_ 1 1#1
  let main_v42 : IVec S_ 1 := (fun x v => Host.reduce IntOp.andi x v reducesTo_S4x1024x1024_S_d0_1_2 h_S_) main_v41 main_c_15
  let main_v43 : IVec S_ 1 := andi main_v38 main_v42
  let main_v44 : FVec F S4x1024 .f32 := Host.absf main_arg9
  let main_cst_16 : FVec F S_ .f32 := constant S_ .f32 0x7F800000#32
  let main_v45 : FVec F S4x1024 .f32 := broadcastInDim S4x1024 ![] bcast_S_S4x1024 main_cst_16
  let main_v46 : IVec S4x1024 1 := cmpf .olt main_v44 main_v45
  let main_c_17 : IVec S_ 1 := constantI S_ 1 1#1
  let main_v47 : IVec S_ 1 := (fun x v => Host.reduce IntOp.andi x v reducesTo_S4x1024_S_d0_1 h_S_) main_v46 main_c_17
  let main_v48 : IVec S_ 1 := andi main_v43 main_v47
  let main_v49 : FVec F S4x1024 .f32 := Host.absf main_arg10
  let main_cst_18 : FVec F S_ .f32 := constant S_ .f32 0x7F800000#32
  let main_v50 : FVec F S4x1024 .f32 := broadcastInDim S4x1024 ![] bcast_S_S4x1024 main_cst_18
  fn_part3 (F := F) main_v48 main_v49 main_v50

def fn_part1 {F : FTy → Type} [FloatOps F] (main_arg4 : FVec F S4x1024x1024 .f32) (main_arg5 : FVec F S4x1024 .f32) (main_arg6 : FVec F S4x1024 .f32) (main_arg7 : FVec F S4x1024x1024 .f32) (main_arg8 : FVec F S4x1024x1024 .f32) (main_arg9 : FVec F S4x1024 .f32) (main_arg10 : FVec F S4x1024 .f32) (main_v13 : IVec S_ 1) (main_v16 : IVec S4x1024x1024 1) : IVec S_ 1 :=
  let main_c_5 : IVec S_ 1 := constantI S_ 1 1#1
  let main_v17 : IVec S_ 1 := (fun x v => Host.reduce IntOp.andi x v reducesTo_S4x1024x1024_S_d0_1_2 h_S_) main_v16 main_c_5
  let main_v18 : IVec S_ 1 := andi main_v13 main_v17
  let main_v19 : FVec F S4x1024x1024 .f32 := Host.absf main_arg4
  let main_cst_6 : FVec F S_ .f32 := constant S_ .f32 0x7F800000#32
  let main_v20 : FVec F S4x1024x1024 .f32 := broadcastInDim S4x1024x1024 ![] bcast_S_S4x1024x1024 main_cst_6
  let main_v21 : IVec S4x1024x1024 1 := cmpf .olt main_v19 main_v20
  let main_c_7 : IVec S_ 1 := constantI S_ 1 1#1
  let main_v22 : IVec S_ 1 := (fun x v => Host.reduce IntOp.andi x v reducesTo_S4x1024x1024_S_d0_1_2 h_S_) main_v21 main_c_7
  let main_v23 : IVec S_ 1 := andi main_v18 main_v22
  let main_v24 : FVec F S4x1024 .f32 := Host.absf main_arg5
  let main_cst_8 : FVec F S_ .f32 := constant S_ .f32 0x7F800000#32
  let main_v25 : FVec F S4x1024 .f32 := broadcastInDim S4x1024 ![] bcast_S_S4x1024 main_cst_8
  let main_v26 : IVec S4x1024 1 := cmpf .olt main_v24 main_v25
  let main_c_9 : IVec S_ 1 := constantI S_ 1 1#1
  let main_v27 : IVec S_ 1 := (fun x v => Host.reduce IntOp.andi x v reducesTo_S4x1024_S_d0_1 h_S_) main_v26 main_c_9
  let main_v28 : IVec S_ 1 := andi main_v23 main_v27
  let main_v29 : FVec F S4x1024 .f32 := Host.absf main_arg6
  let main_cst_10 : FVec F S_ .f32 := constant S_ .f32 0x7F800000#32
  let main_v30 : FVec F S4x1024 .f32 := broadcastInDim S4x1024 ![] bcast_S_S4x1024 main_cst_10
  let main_v31 : IVec S4x1024 1 := cmpf .olt main_v29 main_v30
  let main_c_11 : IVec S_ 1 := constantI S_ 1 1#1
  let main_v32 : IVec S_ 1 := (fun x v => Host.reduce IntOp.andi x v reducesTo_S4x1024_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S4096x2048 .f32) (main_arg1 : FVec F S4096x2048 .f32) (main_arg2 : FVec F S4096x2048 .f32) (main_arg3 : FVec F S4x1024x1024 .f32) (main_arg4 : FVec F S4x1024x1024 .f32) (main_arg5 : FVec F S4x1024 .f32) (main_arg6 : FVec F S4x1024 .f32) (main_arg7 : FVec F S4x1024x1024 .f32) (main_arg8 : FVec F S4x1024x1024 .f32) (main_arg9 : FVec F S4x1024 .f32) (main_arg10 : FVec F S4x1024 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S4x1024x1024 .f32 := Host.absf main_arg3
  let main_cst_4 : FVec F S_ .f32 := constant S_ .f32 0x7F800000#32
  let main_v15 : FVec F S4x1024x1024 .f32 := broadcastInDim S4x1024x1024 ![] bcast_S_S4x1024x1024 main_cst_4
  let main_v16 : IVec S4x1024x1024 1 := cmpf .olt main_v14 main_v15
  fn_part1 (F := F) main_arg4 main_arg5 main_arg6 main_arg7 main_arg8 main_arg9 main_arg10 main_v13 main_v16
-- ==== Kernel.lean ====
abbrev S4096x2048 : Shape := ⟨2, ![4096, 2048]⟩
abbrev S4x1024x1024 : Shape := ⟨3, ![4, 1024, 1024]⟩
abbrev S4x1024 : Shape := ⟨2, ![4, 1024]⟩
abbrev S1024x4x1024 : Shape := ⟨3, ![1024, 4, 1024]⟩
abbrev S1024x4096 : Shape := ⟨2, ![1024, 4096]⟩
abbrev S1x4096 : Shape := ⟨2, ![1, 4096]⟩
abbrev S64x1024 : Shape := ⟨2, ![64, 1024]⟩
abbrev S64x2048 : Shape := ⟨2, ![64, 2048]⟩
abbrev S64x4096 : Shape := ⟨2, ![64, 4096]⟩

abbrev nBuf : Space → Nat
  | .hbm => 29
  | .vmem => 22
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4x1024x1024, .f32⟩
  | .hbm, ⟨4, _⟩ => ⟨S4x1024x1024, .f32⟩
  | .hbm, ⟨5, _⟩ => ⟨S4x1024, .f32⟩
  | .hbm, ⟨6, _⟩ => ⟨S4x1024, .f32⟩
  | .hbm, ⟨7, _⟩ => ⟨S4x1024x1024, .f32⟩
  | .hbm, ⟨8, _⟩ => ⟨S4x1024x1024, .f32⟩
  | .hbm, ⟨9, _⟩ => ⟨S4x1024, .f32⟩
  | .hbm, ⟨10, _⟩ => ⟨S4x1024, .f32⟩
  | .hbm, ⟨11, _⟩ => ⟨S1024x4x1024, .f32⟩
  | .hbm, ⟨12, _⟩ => ⟨S1024x4096, .f32⟩
  | .hbm, ⟨13, _⟩ => ⟨S1024x4096, .bf16⟩
  | .hbm, ⟨14, _⟩ => ⟨S1024x4x1024, .f32⟩
  | .hbm, ⟨15, _⟩ => ⟨S1024x4096, .f32⟩
  | .hbm, ⟨16, _⟩ => ⟨S1024x4096, .bf16⟩
  | .hbm, ⟨17, _⟩ => ⟨S1024x4x1024, .f32⟩
  | .hbm, ⟨18, _⟩ => ⟨S1024x4096, .f32⟩
  | .hbm, ⟨19, _⟩ => ⟨S1024x4096, .bf16⟩
  | .hbm, ⟨20, _⟩ => ⟨S1024x4x1024, .f32⟩
  | .hbm, ⟨21, _⟩ => ⟨S1024x4096, .f32⟩
  | .hbm, ⟨22, _⟩ => ⟨S1024x4096, .bf16⟩
  | .hbm, ⟨23, _⟩ => ⟨S4x1024, .f32⟩
  | .hbm, ⟨24, _⟩ => ⟨S1x4096, .f32⟩
  | .hbm, ⟨25, _⟩ => ⟨S4x1024, .f32⟩
  | .hbm, ⟨26, _⟩ => ⟨S1x4096, .f32⟩
  | .hbm, ⟨27, _⟩ => ⟨S4096x2048, .f32⟩
  | .hbm, ⟨28, _⟩ => ⟨S4096x2048, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S1024x4096, .bf16⟩
  | .local _ .vmem, ⟨13, _⟩ => ⟨S1024x4096, .bf16⟩
  | .local _ .vmem, ⟨14, _⟩ => ⟨S1024x4096, .bf16⟩
  | .local _ .vmem, ⟨15, _⟩ => ⟨S1024x4096, .bf16⟩
  | .local _ .vmem, ⟨16, _⟩ => ⟨S1x4096, .f32⟩
  | .local _ .vmem, ⟨17, _⟩ => ⟨S1x4096, .f32⟩
  | .local _ .vmem, ⟨18, _⟩ => ⟨S64x2048, .f32⟩
  | .local _ .vmem, ⟨19, _⟩ => ⟨S64x2048, .f32⟩
  | .local _ .vmem, ⟨20, _⟩ => ⟨S64x2048, .f32⟩
  | .local _ .vmem, ⟨21, _⟩ => ⟨S64x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16_0 : Ref sig .tc := ⟨.hbm, 27, rfl⟩
abbrev main_v16_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x4096 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x4096 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x4096 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S64x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S64x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  transposes_S4x1024x1024_S1024x4x1024_2_0_1 : S4x1024x1024.Transposes [2, 0, 1] S1024x4x1024
  shapeCasts_S1024x4x1024_S1024x4096 : S1024x4x1024.ShapeCasts S1024x4096
  bitsLt_bf16_f32 : FTy.bits .bf16 < FTy.bits .f32
  shapeCasts_S4x1024_S1x4096 : S4x1024.ShapeCasts S1x4096
  inb_S64x1024_S64x1024_0_0 : ∀ a, (![0, 0] : Fin 2 → Nat) a + S64x1024.size a ≤ S64x1024.size a
  h_S64x1024 : 0 < S64x1024.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S64x4096 : S1x4096.Broadcasts S64x4096
  slices_S64x4096_o0_0_S64x1024 : S64x4096.Slices ![0, 0] S64x1024
  slices_S64x4096_o0_1024_S64x1024 : S64x4096.Slices ![0, 1024] S64x1024
  slices_S64x4096_o0_2048_S64x1024 : S64x4096.Slices ![0, 2048] S64x1024
  slices_S64x4096_o0_3072_S64x1024 : S64x4096.Slices ![0, 3072] S64x1024
  inb_S64x2048_S64x1024_0_0 : ∀ a, (![0, 0] : Fin 2 → Nat) a + S64x1024.size a ≤ S64x2048.size a
  inb_S64x2048_S64x1024_0_1024 : ∀ a, (![0, 1024] : Fin 2 → Nat) a + S64x1024.size a ≤ S64x2048.size a
  dot_S64x1024_S1024x4096_S64x4096_1_0_0_1_n_n_wf : DotDims.WF S64x1024 S1024x4096 S64x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x1024.size a ≤ S4096x2048.size a
  hwx0_0 : ∀ i : grid0.Coords, EltTy.bits .f32 = 32 ∨ (Rect.block (s := S4096x2048) S64x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x1024.size a ≤ S4096x2048.size a
  hwx0_1 : ∀ i : grid0.Coords, EltTy.bits .f32 = 32 ∨ (Rect.block (s := S4096x2048) S64x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x1024.size a ≤ S4096x2048.size a
  hwx0_2 : ∀ i : grid0.Coords, EltTy.bits .f32 = 32 ∨ (Rect.block (s := S4096x2048) S64x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x1024.size a ≤ S4096x2048.size a
  hwx0_3 : ∀ i : grid0.Coords, EltTy.bits .f32 = 32 ∨ (Rect.block (s := S4096x2048) S64x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x1024.size a ≤ S4096x2048.size a
  hwx0_4 : ∀ i : grid0.Coords, EltTy.bits .f32 = 32 ∨ (Rect.block (s := S4096x2048) S64x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x1024.size a ≤ S4096x2048.size a
  hwx0_5 : ∀ i : grid0.Coords, EltTy.bits .f32 = 32 ∨ (Rect.block (s := S4096x2048) S64x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x4096.size a ≤ S1024x4096.size a
  hwx0_6 : ∀ i : grid0.Coords, EltTy.bits .bf16 = 32 ∨ (Rect.block (s := S1024x4096) S1024x4096.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x4096.size a ≤ S1024x4096.size a
  hwx0_7 : ∀ i : grid0.Coords, EltTy.bits .bf16 = 32 ∨ (Rect.block (s := S1024x4096) S1024x4096.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024x4096.size a ≤ S1024x4096.size a
  hwx0_8 : ∀ i : grid0.Coords, EltTy.bits .bf16 = 32 ∨ (Rect.block (s := S1024x4096) S1024x4096.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024x4096.size a ≤ S1024x4096.size a
  hwx0_9 : ∀ i : grid0.Coords, EltTy.bits .bf16 = 32 ∨ (Rect.block (s := S1024x4096) S1024x4096.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x4096.size a ≤ S1x4096.size a
  hwx0_10 : ∀ i : grid0.Coords, EltTy.bits .f32 = 32 ∨ (Rect.block (s := S1x4096) S1x4096.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x4096.size a ≤ S1x4096.size a
  hwx0_11 : ∀ i : grid0.Coords, EltTy.bits .f32 = 32 ∨ (Rect.block (s := S1x4096) S1x4096.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S64x2048.size a ≤ S4096x2048.size a
  hwx0_12 : ∀ i : grid0.Coords, EltTy.bits .f32 = 32 ∨ (Rect.block (s := S4096x2048) S64x2048.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S64x2048.size a ≤ S4096x2048.size a
  hwx0_13 : ∀ i : grid0.Coords, EltTy.bits .f32 = 32 ∨ (Rect.block (s := S4096x2048) S64x2048.size (cc0_transform_13 i) (hinb0_13 i)).WholeWords (EltTy.packing .f32)

variable [Facts₀]

def dot_S64x1024_S1024x4096_S64x4096_1_0_0_1_n_n : DotDims S64x1024 S1024x4096 S64x4096 where
  lhsContracting := [1]
  rhsContracting := [0]
  lhsNonContracting := [0]
  rhsNonContracting := [1]
  lhsBatch := []
  rhsBatch := []
  wf := dot_S64x1024_S1024x4096_S64x4096_1_0_0_1_n_n_wf

abbrev win0_0 : Pipeline.Window sig grid0 :=
  Pipeline.Window.ofSpec (Memref.whole main_arg0) S64x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S64x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S64x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S64x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S64x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg2) S64x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1024x4096.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S1024x4096.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S1024x4096.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v11) S1024x4096.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v13) S1x4096.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v15) S1x4096.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v16_0) S64x2048.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v16_1) S64x2048.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S4x1024x1024 : Shape := ⟨3, ![4, 1024, 1024]⟩
abbrev S4x1024 : Shape := ⟨2, ![4, 1024]⟩
abbrev S4096x1024 : Shape := ⟨2, ![4096, 1024]⟩
abbrev S4096x4x1024 : Shape := ⟨3, ![4096, 4, 1024]⟩
abbrev S1x4x1024 : Shape := ⟨3, ![1, 4, 1024]⟩
abbrev S4096x1x1024 : Shape := ⟨3, ![4096, 1, 1024]⟩
abbrev S_ : Shape := ⟨0, ![]⟩

abbrev nBuf : Space → Nat
  | .hbm => 133
  | .vmem => 0
  | .smem => 0
  | _ => 0

abbrev hbmTy0_0 (i : Nat) : BufTy := match i % 128 with
  | 0 => ⟨S4096x2048, .f32⟩
  | 1 => ⟨S4096x2048, .f32⟩
  | 2 => ⟨S4096x2048, .f32⟩
  | 3 => ⟨S4x1024x1024, .f32⟩
  | 4 => ⟨S4x1024x1024, .f32⟩
  | 5 => ⟨S4x1024, .f32⟩
  | 6 => ⟨S4x1024, .f32⟩
  | 7 => ⟨S4x1024x1024, .f32⟩
  | 8 => ⟨S4x1024x1024, .f32⟩
  | 9 => ⟨S4x1024, .f32⟩
  | 10 => ⟨S4x1024, .f32⟩
  | 11 => ⟨S4096x1024, .f32⟩
  | 12 => ⟨S4096x1024, .f32⟩
  | 13 => ⟨S4096x1024, .f32⟩
  | 14 => ⟨S4096x1024, .f32⟩
  | 15 => ⟨S4096x1024, .f32⟩
  | 16 => ⟨S4096x1024, .f32⟩
  | 17 => ⟨S4096x4x1024, .f32⟩
  | 18 => ⟨S4096x4x1024, .f32⟩
  | 19 => ⟨S4096x4x1024, .f32⟩
  | 20 => ⟨S1x4x1024, .f32⟩
  | 21 => ⟨S4096x4x1024, .f32⟩
  | 22 => ⟨S4096x4x1024, .f32⟩
  | 23 => ⟨S4096x4x1024, .f32⟩
  | 24 => ⟨S4096x4x1024, .f32⟩
  | 25 => ⟨S4096x4x1024, .f32⟩
  | 26 => ⟨S1x4x1024, .f32⟩
  | 27 => ⟨S4096x4x1024, .f32⟩
  | 28 => ⟨S4096x4x1024, .f32⟩
  | 29 => ⟨S4096x4x1024, .f32⟩
  | 30 => ⟨S4096x4x1024, .f32⟩
  | 31 => ⟨S4096x4x1024, .f32⟩
  | 32 => ⟨S1x4x1024, .f32⟩
  | 33 => ⟨S4096x4x1024, .f32⟩
  | 34 => ⟨S4096x4x1024, .f32⟩
  | 35 => ⟨S4096x4x1024, .f32⟩
  | 36 => ⟨S4096x4x1024, .f32⟩
  | 37 => ⟨S4096x4x1024, .f32⟩
  | 38 => ⟨S1x4x1024, .f32⟩
  | 39 => ⟨S4096x4x1024, .f32⟩
  | 40 => ⟨S4096x4x1024, .f32⟩
  | 41 => ⟨S4096x4x1024, .f32⟩
  | 42 => ⟨S4096x4x1024, .f32⟩
  | 43 => ⟨S4096x1x1024, .f32⟩
  | 44 => ⟨S4096x1024, .f32⟩
  | 45 => ⟨S4096x1024, .f32⟩
  | 46 => ⟨S4096x1024, .f32⟩
  | 47 => ⟨S_, .f32⟩
  | 48 => ⟨S4096x1024, .f32⟩
  | 49 => ⟨S4096x1024, .f32⟩
  | 50 => ⟨S_, .f32⟩
  | 51 => ⟨S4096x1024, .f32⟩
  | 52 => ⟨S4096x1024, .f32⟩
  | 53 => ⟨S4096x1x1024, .f32⟩
  | 54 => ⟨S4096x1024, .f32⟩
  | 55 => ⟨S4096x1024, .f32⟩
  | 56 => ⟨S4096x1024, .f32⟩
  | 57 => ⟨S_, .f32⟩
  | 58 => ⟨S4096x1024, .f32⟩
  | 59 => ⟨S4096x1024, .f32⟩
  | 60 => ⟨S_, .f32⟩
  | 61 => ⟨S4096x1024, .f32⟩
  | 62 => ⟨S4096x1024, .f32⟩
  | 63 => ⟨S4096x1x1024, .f32⟩
  | 64 => ⟨S4096x1024, .f32⟩
  | 65 => ⟨S4096x1024, .f32⟩
  | 66 => ⟨S4096x1024, .f32⟩
  | 67 => ⟨S_, .f32⟩
  | 68 => ⟨S4096x1024, .f32⟩
  | 69 => ⟨S4096x1024, .f32⟩
  | 70 => ⟨S_, .f32⟩
  | 71 => ⟨S4096x1024, .f32⟩
  | 72 => ⟨S4096x1024, .f32⟩
  | 73 => ⟨S4096x1x1024, .f32⟩
  | 74 => ⟨S4096x1024, .f32⟩
  | 75 => ⟨S4096x1024, .f32⟩
  | 76 => ⟨S4096x1024, .f32⟩
  | 77 => ⟨S_, .f32⟩
  | 78 => ⟨S4096x1024, .f32⟩
  | 79 => ⟨S4096x1024, .f32⟩
  | 80 => ⟨S_, .f32⟩
  | 81 => ⟨S4096x1024, .f32⟩
  | 82 => ⟨S4096x1024, .f32⟩
  | 83 => ⟨S4096x1x1024, .f32⟩
  | 84 => ⟨S4096x1024, .f32⟩
  | 85 => ⟨S4096x1024, .f32⟩
  | 86 => ⟨S4096x1x1024, .f32⟩
  | 87 => ⟨S4096x1024, .f32⟩
  | 88 => ⟨S4096x1024, .f32⟩
  | 89 => ⟨S4096x1x1024, .f32⟩
  | 90 => ⟨S4096x1024, .f32⟩
  | 91 => ⟨S4096x1024, .f32⟩
  | 92 => ⟨S4096x1024, .f32⟩
  | 93 => ⟨S_, .f32⟩
  | 94 => ⟨S4096x1024, .f32⟩
  | 95 => ⟨S4096x1024, .f32⟩
  | 96 => ⟨S_, .f32⟩
  | 97 => ⟨S4096x1024, .f32⟩
  | 98 => ⟨S4096x1024, .f32⟩
  | 99 => ⟨S4096x1x1024, .f32⟩
  | 100 => ⟨S4096x1024, .f32⟩
  | 101 => ⟨S4096x1024, .f32⟩
  | 102 => ⟨S4096x1024, .f32⟩
  | 103 => ⟨S_, .f32⟩
  | 104 => ⟨S4096x1024, .f32⟩
  | 105 => ⟨S4096x1024, .f32⟩
  | 106 => ⟨S_, .f32⟩
  | 107 => ⟨S4096x1024, .f32⟩
  | 108 => ⟨S4096x1024, .f32⟩
  | 109 => ⟨S4096x1024, .f32⟩
  | 110 => ⟨S4096x1024, .f32⟩
  | 111 => ⟨S4096x1024, .f32⟩
  | 112 => ⟨S4096x1024, .f32⟩
  | 113 => ⟨S4096x1024, .f32⟩
  | 114 => ⟨S4096x1024, .f32⟩
  | 115 => ⟨S4096x1024, .f32⟩
  | 116 => ⟨S4096x1024, .f32⟩
  | 117 => ⟨S4096x1024, .f32⟩
  | 118 => ⟨S4096x1024, .f32⟩
  | 119 => ⟨S4096x1024, .f32⟩
  | 120 => ⟨S4096x1024, .f32⟩
  | 121 => ⟨S4096x1024, .f32⟩
  | 122 => ⟨S4096x1024, .f32⟩
  | 123 => ⟨S4096x1024, .f32⟩
  | 124 => ⟨S4096x1024, .f32⟩
  | 125 => ⟨S4096x1024, .f32⟩
  | 126 => ⟨S4096x1024, .f32⟩
  | 127 => ⟨S4096x1024, .f32⟩
  | _ => ⟨S4096x2048, .f32⟩

abbrev hbmTy0_1 (i : Nat) : BufTy := match i % 128 with
  | 0 => ⟨S4096x1024, .f32⟩
  | 1 => ⟨S4096x1024, .f32⟩
  | 2 => ⟨S4096x1024, .f32⟩
  | 3 => ⟨S4096x2048, .f32⟩
  | 4 => ⟨S4096x2048, .f32⟩
  | _ => ⟨S4096x2048, .f32⟩

abbrev hbmTy (i : Nat) : BufTy := match i / 128 with
  | 0 => hbmTy0_0 i
  | 1 => hbmTy0_1 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst : Ref sig .tc := ⟨.hbm, 47, rfl⟩
abbrev main_v36 : Ref sig .tc := ⟨.hbm, 48, rfl⟩
abbrev main_v37 : Ref sig .tc := ⟨.hbm, 49, rfl⟩
abbrev main_cst_0 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_1 : Ref sig .tc := ⟨.hbm, 57, rfl⟩
abbrev main_v44 : Ref sig .tc := ⟨.hbm, 58, rfl⟩
abbrev main_v45 : Ref sig .tc := ⟨.hbm, 59, rfl⟩
abbrev main_cst_2 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_3 : Ref sig .tc := ⟨.hbm, 67, rfl⟩
abbrev main_v52 : Ref sig .tc := ⟨.hbm, 68, rfl⟩
abbrev main_v53 : Ref sig .tc := ⟨.hbm, 69, rfl⟩
abbrev main_cst_4 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_5 : Ref sig .tc := ⟨.hbm, 77, rfl⟩
abbrev main_v60 : Ref sig .tc := ⟨.hbm, 78, rfl⟩
abbrev main_v61 : Ref sig .tc := ⟨.hbm, 79, rfl⟩
abbrev main_cst_6 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_cst_7 : Ref sig .tc := ⟨.hbm, 93, rfl⟩
abbrev main_v74 : Ref sig .tc := ⟨.hbm, 94, rfl⟩
abbrev main_v75 : Ref sig .tc := ⟨.hbm, 95, rfl⟩
abbrev main_cst_8 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_cst_9 : Ref sig .tc := ⟨.hbm, 103, rfl⟩
abbrev main_v82 : Ref sig .tc := ⟨.hbm, 104, rfl⟩
abbrev main_v83 : Ref sig .tc := ⟨.hbm, 105, rfl⟩
abbrev main_cst_10 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩

abbrev nD : Nat := 1
abbrev τ : Topo := Topo.v7x

variable {F : FTy → Type} [FloatOps F]

class Facts₀ : Prop where
  slices_S4096x2048_S4096x1024_0_0 : S4096x2048.Slices ![0, 0] S4096x1024
  slices_S4096x2048_S4096x1024_0_1024 : S4096x2048.Slices ![0, 1024] S4096x1024
  bcast_S4x1024_S1x4x1024_1_2 : S4x1024.BroadcastsInDim S1x4x1024 (![1, 2] : Fin 2 → Fin S1x4x1024.rank)
  bcast_S1x4x1024_S4096x4x1024_0_1_2 : S1x4x1024.BroadcastsInDim S4096x4x1024 (![0, 1, 2] : Fin 3 → Fin S4096x4x1024.rank)
  slices_S4096x4x1024_S4096x1x1024_0_0_0 : S4096x4x1024.Slices ![0, 0, 0] S4096x1x1024
  shapeCasts_S4096x1x1024_S4096x1024 : S4096x1x1024.ShapeCasts S4096x1024
  bcast_S_S4096x1024 : S_.BroadcastsInDim S4096x1024 (![] : Fin 0 → Fin S4096x1024.rank)
  slices_S4096x4x1024_S4096x1x1024_0_1_0 : S4096x4x1024.Slices ![0, 1, 0] S4096x1x1024
  slices_S4096x4x1024_S4096x1x1024_0_2_0 : S4096x4x1024.Slices ![0, 2, 0] S4096x1x1024
  slices_S4096x4x1024_S4096x1x1024_0_3_0 : S4096x4x1024.Slices ![0, 3, 0] S4096x1x1024
  concatenates_S4096x1024_S4096x1024_S4096x2048_d1 : Shape.Concatenates [S4096x1024, S4096x1024] S4096x2048 1
  dot_S4096x1024_S4x1024x1024_S4096x4x1024_1_2_0_01_n_n_wf : DotDims.WF S4096x1024 S4x1024x1024 S4096x4x1024 [1] [2] [0] [0, 1] [] []

variable [Facts₀]

def dot_S4096x1024_S4x1024x1024_S4096x4x1024_1_2_0_01_n_n : DotDims S4096x1024 S4x1024x1024 S4096x4x1024 where
  lhsContracting := [1]
  rhsContracting := [2]
  lhsNonContracting := [0]
  rhsNonContracting := [0, 1]
  lhsBatch := []
  rhsBatch := []
  wf := dot_S4096x1024_S4x1024x1024_S4096x4x1024_1_2_0_01_n_n_wf

class Facts : Prop extends Facts₀ where

variable [Facts]
-- ==== Proof.CellSpec.lean ====
/-
  One step of a complex-valued LSTM cell, as a function of its eleven argument arrays, index by index, on the
  extended reals.

  An activation array has 4096 rows (the batch) and 2048 columns: columns 0 … 1023 hold the real parts and columns
  1024 … 2047 the imaginary parts of 1024 complex numbers. A weight array is indexed (gate, output, input), a bias array
  (gate, output); the four gates are forget, input, candidate and output, in that order.

  For a row `b`, a gate `g` and an output `o` the complex pre-activation is
      z = U_g x_b + ub_g + W_g h_b + wb_g
  (complex matrix-vector products: the real part of `U x` is `Ur xr − Ui xi`, the imaginary part `Ui xr + Ur xi`), and with
  the logistic function σ and tanh applied to real and imaginary parts separately,
      f = σ z_0,  i = σ z_1,  a = tanh z_2,  out = σ z_3,
      c' = c · f + a · i,        h' = out · tanh c'          (complex products).
  The two results are `h'` and `c'`, laid out like the activations.

  The pre-activation is a sum of six terms. Two groupings of it appear below: by projection (the input side's three
  terms, then the hidden side's three), and flat (the four matrix products first, then the two biases added to each
  other). They are equal because addition of extended reals is commutative and associative and a difference is the sum
  with the negative — no term needs to be finite.
-/
import Idealize.ShloMosaic.PureOps.Ideal
import Idealize.ShloMosaic.Lib.ValueIdx

noncomputable section

open scoped BigOperators

namespace Cert.CellSpec

open Idealize.ShloMosaic Idealize.ShloMosaic.ValueIdx

/-- Activations: batch × (real half, then imaginary half). -/
abbrev Act : Shape := ⟨2, ![4096, 2048]⟩
/-- Weights: gate × output × input. -/
abbrev Wt : Shape := ⟨3, ![4, 1024, 1024]⟩
/-- Biases: gate × output. -/
abbrev Bs : Shape := ⟨2, ![4, 1024]⟩

/-- The eleven argument arrays, in the programs' order. -/
structure Args where
  x : Act.Idx → EReal
  h : Act.Idx → EReal
  c : Act.Idx → EReal
  Uwr : Wt.Idx → EReal
  Uwi : Wt.Idx → EReal
  Ubr : Bs.Idx → EReal
  Ubi : Bs.Idx → EReal
  Wwr : Wt.Idx → EReal
  Wwi : Wt.Idx → EReal
  Wbr : Bs.Idx → EReal
  Wbi : Bs.Idx → EReal

/-- Column `d` of the real half. -/
def reCol (d : Fin 1024) : Fin 2048 := ⟨d.val, by omega⟩
/-- Column `d` of the imaginary half. -/
def imCol (d : Fin 1024) : Fin 2048 := ⟨d.val + 1024, by omega⟩
/-- The position of a column within its half. -/
def lo (j : Fin 2048) : Fin 1024 := ⟨j.val % 1024, Nat.mod_lt _ (by norm_num)⟩

/-- Row `b` of one half of an activation array against row `(g, o)` of a weight array: `∑ d, A[b, col d] · W[g, o, d]`. -/
def proj (A : Act.Idx → EReal) (col : Fin 1024 → Fin 2048) (W : Wt.Idx → EReal) (b : Fin 4096) (g : Fin 4) (o : Fin 1024) : EReal :=
  ∑ d : Fin 1024, A (ix2 b (col d)) * W (ix3 g o d)

variable (a : Args)

/-- Real part of the pre-activation, grouped by projection. -/
def preRe (b : Fin 4096) (g : Fin 4) (o : Fin 1024) : EReal :=
  ((proj a.x reCol a.Uwr b g o - proj a.x imCol a.Uwi b g o) + a.Ubr (ix2 g o))
    + ((proj a.h reCol a.Wwr b g o - proj a.h imCol a.Wwi b g o) + a.Wbr (ix2 g o))

/-- Imaginary part of the pre-activation, grouped by projection. -/
def preIm (b : Fin 4096) (g : Fin 4) (o : Fin 1024) : EReal :=
  ((proj a.x reCol a.Uwi b g o + proj a.x imCol a.Uwr b g o) + a.Ubi (ix2 g o))
    + ((proj a.h reCol a.Wwi b g o + proj a.h imCol a.Wwr b g o) + a.Wbi (ix2 g o))

/-- Real part of the pre-activation, flat: the four products, then the sum of the two biases. -/
def preReFlat (b : Fin 4096) (g : Fin 4) (o : Fin 1024) : EReal :=
  ((((proj a.x reCol a.Uwr b g o - proj a.x imCol a.Uwi b g o) + proj a.h reCol a.Wwr b g o) - proj a.h imCol a.Wwi b g o)
    + (a.Ubr (ix2 g o) + a.Wbr (ix2 g o)))

/-- Imaginary part of the pre-activation, flat. -/
def preImFlat (b : Fin 4096) (g : Fin 4) (o : Fin 1024) : EReal :=
  ((((proj a.x reCol a.Uwi b g o + proj a.x imCol a.Uwr b g o) + proj a.h reCol a.Wwi b g o) + proj a.h imCol a.Wwr b g o)
    + (a.Ubi (ix2 g o) + a.Wbi (ix2 g o)))

/-- The flat grouping is the grouping by projection: commutativity and associativity of `+` alone. -/
theorem preReFlat_eq (b : Fin 4096) (g : Fin 4) (o : Fin 1024) : preReFlat a b g o = preRe a b g o := by
  unfold preReFlat preRe
  simp only [sub_eq_add_neg]
  ac_rfl

theorem preImFlat_eq (b : Fin 4096) (g : Fin 4) (o : Fin 1024) : preImFlat a b g o = preIm a b g o := by
  unfold preImFlat preIm
  ac_rfl

/-! ## The cell, from the eight pre-activations of one (row, output) and the old cell state there -/

/-- Real part of the new cell state `c · f + a · i`. -/
def cellRe (zr zi : Fin 4 → EReal) (cr ci : EReal) : EReal :=
  (cr * Ideal.logistic (zr 0) - ci * Ideal.logistic (zi 0))
    + (Ideal.tanh (zr 2) * Ideal.logistic (zr 1) - Ideal.tanh (zi 2) * Ideal.logistic (zi 1))

/-- Imaginary part of the new cell state. -/
def cellIm (zr zi : Fin 4 → EReal) (cr ci : EReal) : EReal :=
  (cr * Ideal.logistic (zi 0) + ci * Ideal.logistic (zr 0))
    + (Ideal.tanh (zr 2) * Ideal.logistic (zi 1) + Ideal.tanh (zi 2) * Ideal.logistic (zr 1))

/-- Real part of the new hidden state `out · tanh c'`. -/
def hidRe (zr zi : Fin 4 → EReal) (cr ci : EReal) : EReal :=
  Ideal.logistic (zr 3) * Ideal.tanh (cellRe zr zi cr ci) - Ideal.logistic (zi 3) * Ideal.tanh (cellIm zr zi cr ci)

/-- Imaginary part of the new hidden state. -/
def hidIm (zr zi : Fin 4 → EReal) (cr ci : EReal) : EReal :=
  Ideal.logistic (zr 3) * Ideal.tanh (cellIm zr zi cr ci) + Ideal.logistic (zi 3) * Ideal.tanh (cellRe zr zi cr ci)

/-! ## The two results -/

/-- The new cell state at row `b`, complex entry `o`: real part, imaginary part. -/
def cRe (b : Fin 4096) (o : Fin 1024) : EReal :=
  cellRe (fun g => preRe a b g o) (fun g => preIm a b g o) (a.c (ix2 b (reCol o))) (a.c (ix2 b (imCol o)))
def cIm (b : Fin 4096) (o : Fin 1024) : EReal :=
  cellIm (fun g => preRe a b g o) (fun g => preIm a b g o) (a.c (ix2 b (reCol o))) (a.c (ix2 b (imCol o)))
/-- The new hidden state at row `b`, complex entry `o`. -/
def hRe (b : Fin 4096) (o : Fin 1024) : EReal :=
  hidRe (fun g => preRe a b g o) (fun g => preIm a b g o) (a.c (ix2 b (reCol o))) (a.c (ix2 b (imCol o)))
def hIm (b : Fin 4096) (o : Fin 1024) : EReal :=
  hidIm (fun g => preRe a b g o) (fun g => preIm a b g o) (a.c (ix2 b (reCol o))) (a.c (ix2 b (imCol o)))

/-- The new hidden state as an array: real parts in the left half of each row, imaginary parts in the right half. -/
def hOut : Act.Idx → EReal := fun i =>
  if (i 1).val < 1024 then hRe a (i 0) (lo (i 1)) else hIm a (i 0) (lo (i 1))

/-- The new cell state as an array, laid out the same way. -/
def cOut : Act.Idx → EReal := fun i =>
  if (i 1).val < 1024 then cRe a (i 0) (lo (i 1)) else cIm a (i 0) (lo (i 1))

end Cert.CellSpec

end
-- ==== Proof.KernelEntry.lean ====
/-
  The region's entry. Before the grid runs, sixteen host operations prepare its operands: each of the four weight
  arrays (gate, output, input) is transposed to (input, gate, output) and flattened to a 1024 × 4096 matrix whose
  column `gate · 1024 + output` is that gate's output row, and the two pairs of bias arrays are added and flattened to
  1 × 4096 rows. None of them writes an argument array. `V` names every array as the grid finds it; `iblk` is the
  block of a window's array that grid point `t` works on. An input window's staging buffer holds that block at every
  point, whether the point fetched it or not: a point that does not fetch has the same block index as the point before,
  and the body leaves its inputs in place.
-/
import proofs.«173032_j43224550867775_2_alg».proof.Proof.Gen.Kernel.Launch
import proofs.«173032_j43224550867775_2_alg».proof.Proof.Gen.Kernel.Skeleton
import proofs.«173032_j43224550867775_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Entry

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every TensorCore array on core `c` as the grid finds it: the launch contents after the host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program is the host operations followed by the grid. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 5. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 6. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 7. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 8. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 9. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 10. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Window `w`'s block at grid point `t`, read off its array as the grid finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, for any proof data over `V` whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, for any proof data over `V` whose body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, for any proof data over `V` whose body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, for any proof data over `V` whose body leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point, for any proof data over `V` whose body leaves the block in place. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point, for any proof data over `V` whose body leaves the block in place. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds its block at every point, for any proof data over `V` whose body leaves the block in place. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's staging buffer holds its block at every point, for any proof data over `V` whose body leaves the block in place. -/
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's staging buffer holds its block at every point, for any proof data over `V` whose body leaves the block in place. -/
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's staging buffer holds its block at every point, for any proof data over `V` whose body leaves the block in place. -/
theorem before9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's staging buffer holds its block at every point, for any proof data over `V` whose body leaves the block in place. -/
theorem before10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's staging buffer holds its block at every point, for any proof data over `V` whose body leaves the block in place. -/
theorem before11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

end Cert.Kernel.Entry

end
-- ==== Proof.KernelBody.lean ====
/-
  One grid point's work, on the staging buffers. The body reads twelve blocks — 64 rows of the real and imaginary
  halves of the input, the hidden state and the cell state; the four stacked weight matrices; the two bias rows — and
  writes two 64 × 2048 blocks, each by two stores: the real parts into columns 0 … 1023, then the imaginary parts into
  columns 1024 … 2047. The two column ranges tile the block, so after the body each output block is determined by the
  twelve input blocks alone, whatever it held before: `hidBlock` (the new hidden state) and `cellBlock` (the new cell
  state). The inputs are left as they were.
-/
import proofs.«173032_j43224550867775_2_alg».proof.Proof.KernelEntry

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- A whole 64 × 1024 block of activations. -/
abbrev rAct : Rect S64x1024 := Rect.unit (s := S64x1024) ![0, 0] S64x1024.size inb_S64x1024_S64x1024_0_0
/-- A whole stacked weight matrix. -/
abbrev rWt : Rect S1024x4096 := Rect.unit (s := S1024x4096) ![0, 0] S1024x4096.size inb_S1024x4096_S1024x4096_0_0
/-- A whole bias row. -/
abbrev rBias : Rect S1x4096 := Rect.unit (s := S1x4096) ![0, 0] S1x4096.size inb_S1x4096_S1x4096_0_0
/-- The left half of an output block: the real parts. -/
abbrev rLeft : Rect S64x2048 := Rect.unit (s := S64x2048) ![0, 0] S64x1024.size inb_S64x2048_S64x1024_0_0
/-- The right half of an output block: the imaginary parts. -/
abbrev rRight : Rect S64x2048 := Rect.unit (s := S64x2048) ![0, 1024] S64x1024.size inb_S64x2048_S64x1024_0_1024

/-- The new hidden state's block: imaginary parts on the right half, real parts on the left (the later store first). -/
def hidBlock (x0 x1 x2 x3 x4 x5 : Vec F S64x1024 .f32) (x6 x7 x8 x9 : Vec F S1024x4096 .bf16) (x10 x11 : Vec F S1x4096 .f32) : Vec F S64x2048 .f32 :=
  View.canon [⟨rRight, k0_pay25 (k0_pay1 (View.ld x0 rAct)) (k0_pay2 (View.ld x1 rAct)) (k0_pay3 (View.ld x2 rAct)) (k0_pay4 (View.ld x3 rAct)) (View.ld x4 rAct) (View.ld x5 rAct) (k0_pay5 (View.ld x6 rWt)) (k0_pay6 (View.ld x7 rWt)) (k0_pay7 (View.ld x8 rWt)) (k0_pay8 (View.ld x9 rWt)) (k0_pay9 (View.ld x11 rBias)) (k0_pay10 (View.ld x0 rAct) (View.ld x1 rAct) (View.ld x2 rAct) (View.ld x3 rAct) (View.ld x6 rWt) (View.ld x7 rWt) (View.ld x8 rWt) (View.ld x9 rWt) (View.ld x10 rBias))⟩,
    ⟨rLeft, k0_pay24 (k0_pay1 (View.ld x0 rAct)) (k0_pay2 (View.ld x1 rAct)) (k0_pay3 (View.ld x2 rAct)) (k0_pay4 (View.ld x3 rAct)) (View.ld x4 rAct) (View.ld x5 rAct) (k0_pay5 (View.ld x6 rWt)) (k0_pay6 (View.ld x7 rWt)) (k0_pay7 (View.ld x8 rWt)) (k0_pay8 (View.ld x9 rWt)) (k0_pay9 (View.ld x11 rBias)) (k0_pay10 (View.ld x0 rAct) (View.ld x1 rAct) (View.ld x2 rAct) (View.ld x3 rAct) (View.ld x6 rWt) (View.ld x7 rWt) (View.ld x8 rWt) (View.ld x9 rWt) (View.ld x10 rBias))⟩]

/-- The new cell state's block, laid out the same way. -/
def cellBlock (x0 x1 x2 x3 x4 x5 : Vec F S64x1024 .f32) (x6 x7 x8 x9 : Vec F S1024x4096 .bf16) (x10 x11 : Vec F S1x4096 .f32) : Vec F S64x2048 .f32 :=
  View.canon [⟨rRight, k0_pay21 (k0_pay1 (View.ld x0 rAct)) (k0_pay2 (View.ld x1 rAct)) (k0_pay3 (View.ld x2 rAct)) (k0_pay4 (View.ld x3 rAct)) (View.ld x4 rAct) (View.ld x5 rAct) (k0_pay5 (View.ld x6 rWt)) (k0_pay6 (View.ld x7 rWt)) (k0_pay7 (View.ld x8 rWt)) (k0_pay8 (View.ld x9 rWt)) (k0_pay9 (View.ld x11 rBias)) (k0_pay10 (View.ld x0 rAct) (View.ld x1 rAct) (View.ld x2 rAct) (View.ld x3 rAct) (View.ld x6 rWt) (View.ld x7 rWt) (View.ld x8 rWt) (View.ld x9 rWt) (View.ld x10 rBias))⟩,
    ⟨rLeft, k0_pay20 (k0_pay1 (View.ld x0 rAct)) (k0_pay2 (View.ld x1 rAct)) (k0_pay3 (View.ld x2 rAct)) (k0_pay4 (View.ld x3 rAct)) (View.ld x4 rAct) (View.ld x5 rAct) (k0_pay5 (View.ld x6 rWt)) (k0_pay6 (View.ld x7 rWt)) (k0_pay7 (View.ld x8 rWt)) (k0_pay8 (View.ld x9 rWt)) (k0_pay9 (View.ld x11 rBias)) (k0_pay10 (View.ld x0 rAct) (View.ld x1 rAct) (View.ld x2 rAct) (View.ld x3 rAct) (View.ld x6 rWt) (View.ld x7 rWt) (View.ld x8 rWt) (View.ld x9 rWt) (View.ld x10 rBias))⟩]

/-- The two halves tile the block. -/
theorem cover_out (p0 p1 : Vec F S64x1024 .f32) (y : S64x2048.Idx) :
    ∃ pc ∈ ([⟨rRight, p0⟩, ⟨rLeft, p1⟩] : List (View.Piece (Elt F) S64x2048 .f32)), y ∈ pc.1.set :=
  View.cover_of_tiled [⟨rRight, p0⟩, ⟨rLeft, p1⟩] S64x1024.size (by rfl) y

set_option maxHeartbeats 4000000 in
/-- The body, run on whole staging buffers holding the twelve input blocks and anything in the two output buffers,
    ends with the inputs as they were and the outputs at `hidBlock` and `cellBlock` of the inputs. -/
theorem sound_kernel (c : Dev nD) (E : Set ℕ) (i : grid0.Coords) (arg1 : Memref sig .tc .vmem S64x1024 .f32) (harg1 : arg1.IsWhole) (arg2 : Memref sig .tc .vmem S64x1024 .f32) (harg2 : arg2.IsWhole) (arg3 : Memref sig .tc .vmem S64x1024 .f32) (harg3 : arg3.IsWhole) (arg4 : Memref sig .tc .vmem S64x1024 .f32) (harg4 : arg4.IsWhole) (arg5 : Memref sig .tc .vmem S64x1024 .f32) (harg5 : arg5.IsWhole) (arg6 : Memref sig .tc .vmem S64x1024 .f32) (harg6 : arg6.IsWhole) (arg7 : Memref sig .tc .vmem S1024x4096 .bf16) (harg7 : arg7.IsWhole) (arg8 : Memref sig .tc .vmem S1024x4096 .bf16) (harg8 : arg8.IsWhole) (arg9 : Memref sig .tc .vmem S1024x4096 .bf16) (harg9 : arg9.IsWhole) (arg10 : Memref sig .tc .vmem S1024x4096 .bf16) (harg10 : arg10.IsWhole) (arg11 : Memref sig .tc .vmem S1x4096 .f32) (harg11 : arg11.IsWhole) (arg12 : Memref sig .tc .vmem S1x4096 .f32) (harg12 : arg12.IsWhole) (arg13 : Memref sig .tc .vmem S64x2048 .f32) (harg13 : arg13.IsWhole) (arg14 : Memref sig .tc .vmem S64x2048 .f32) (harg14 : arg14.IsWhole)
    (x0 x1 x2 x3 x4 x5 : Vec F S64x1024 .f32) (x6 x7 x8 x9 : Vec F S1024x4096 .bf16) (x10 x11 : Vec F S1x4096 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (hidBlock x0 x1 x2 x3 x4 x5 x6 x7 x8 x9 x10 x11) ∗ owns (c : Thread nD τ) arg14 fullShare (cellBlock x0 x1 x2 x3 x4 x5 x6 x7 x8 x9 x10 x11)) -∗ K ⟨⟩))
      ⊢ wp frame (wpE (defs₀ (F := F)) Variants.none c none) E (cc0__clstm_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__clstm_kernel_eq_skeleton]; unfold cc0__clstm_kernel_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, Hk⟩
  subst hf0 hf1 hf2 hf3 hf4 hf5 hf6 hf7 hf8 hf9 hf10 hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    try dsimp only
    exact View.read_writes_eq_canon _ _ _ (cover_out _ _)
  iexists _; isplitr
  swap; · iexact H13
  ipureintro
  try dsimp only
  exact View.read_writes_eq_canon _ _ _ (cover_out _ _)

end Cert.Kernel.Body

end
-- ==== Proof.KernelRun.lean ====
/-
  The grid's run. Sixty-four points, each working on 64 rows; the twelve input windows are read only, the two output
  windows are written whole at every point and written back after it. The input, hidden-state and cell-state arrays are
  each read through TWO windows (the real half and the imaginary half of the same rows), so each of those arrays is held
  by halves of the full share, one half per window; every other array is held whole by its one window. The body leaves
  its inputs in place and its outputs at `hidBlock` / `cellBlock` of the input blocks; nothing is carried from point to
  point. The run ends with every windowed array at what the write-backs make of it and every other array as the grid
  found it.
-/
import proofs.«173032_j43224550867775_2_alg».proof.Proof.KernelBody

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Cert.Kernel.Entry Cert.Kernel.Body

variable (m : (ℓ : Loc nD τ sig) → Buf (Elt F) ℓ) (ρ : Dev nD → PrngReg)

/-- The proof data on core `c`: the arrays as the grid finds them; after the body at point `t` each input's buffer at
    its block and each output's at the body's result on the input blocks; the two windows of a shared array hold the
    two halves of its full share; the invariant is the core's remaining scoped buffers (there are none). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => hidBlock (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    | ⟨13, _⟩ => cellBlock (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare.left
    | ⟨3, _⟩ => fullShare.right
    | ⟨4, _⟩ => fullShare.left
    | ⟨5, _⟩ => fullShare.right
    | ⟨6, _⟩ => fullShare
    | ⟨7, _⟩ => fullShare
    | ⟨8, _⟩ => fullShare
    | ⟨9, _⟩ => fullShare
    | ⟨10, _⟩ => fullShare
    | ⟨11, _⟩ => fullShare
    | ⟨12, _⟩ => fullShare
    | ⟨13, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = hidBlock (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]
theorem after13 (c : Dev nD) (t : Fin cfg0.N) : (dats m 0 c).after 13 t = cellBlock (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d
theorem before9 (c : Dev nD) (t : Fin cfg0.N) (d) : (dats m 0 c).before 9 t d = iblk m c 9 t :=
  before9_of m (dats m 0 c) (A_eq m c 9) (after9 m c) t d
theorem before10 (c : Dev nD) (t : Fin cfg0.N) (d) : (dats m 0 c).before 10 t d = iblk m c 10 t :=
  before10_of m (dats m 0 c) (A_eq m c 10) (after10 m c) t d
theorem before11 (c : Dev nD) (t : Fin cfg0.N) (d) : (dats m 0 c).before 11 t d = iblk m c 11 t :=
  before11_of m (dats m 0 c) (A_eq m c 11) (after11 m c) t d

theorem share0 (c : Dev nD) : (dats m 0 c).share (0 : Fin 14) = fullShare.left := by unfold Dat.share; rfl
theorem share1 (c : Dev nD) : (dats m 0 c).share (1 : Fin 14) = fullShare.right := by unfold Dat.share; rfl
theorem share2 (c : Dev nD) : (dats m 0 c).share (2 : Fin 14) = fullShare.left := by unfold Dat.share; rfl
theorem share3 (c : Dev nD) : (dats m 0 c).share (3 : Fin 14) = fullShare.right := by unfold Dat.share; rfl
theorem share4 (c : Dev nD) : (dats m 0 c).share (4 : Fin 14) = fullShare.left := by unfold Dat.share; rfl
theorem share5 (c : Dev nD) : (dats m 0 c).share (5 : Fin 14) = fullShare.right := by unfold Dat.share; rfl
theorem share6 (c : Dev nD) : (dats m 0 c).share (6 : Fin 14) = fullShare := by unfold Dat.share; rfl
theorem share7 (c : Dev nD) : (dats m 0 c).share (7 : Fin 14) = fullShare := by unfold Dat.share; rfl
theorem share8 (c : Dev nD) : (dats m 0 c).share (8 : Fin 14) = fullShare := by unfold Dat.share; rfl
theorem share9 (c : Dev nD) : (dats m 0 c).share (9 : Fin 14) = fullShare := by unfold Dat.share; rfl
theorem share10 (c : Dev nD) : (dats m 0 c).share (10 : Fin 14) = fullShare := by unfold Dat.share; rfl
theorem share11 (c : Dev nD) : (dats m 0 c).share (11 : Fin 14) = fullShare := by unfold Dat.share; rfl
theorem share12 (c : Dev nD) : (dats m 0 c).share (12 : Fin 14) = fullShare := by unfold Dat.share; rfl
theorem share13 (c : Dev nD) : (dats m 0 c).share (13 : Fin 14) = fullShare := by unfold Dat.share; rfl

/-! ## One point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t))

set_option maxHeartbeats 2000000 in
/-- The body at any point: every input buffer holds its block, so the body's triple applies; the invariant and what the
    core owes pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel c Set.univ (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem body_obligation (c : Dev nD) : BodyObligation (dats (F := F) m 0 c) (defs₀ (F := F)) Variants.none () Set.univ := fun t => by
  rw [bigSep_W0, bigSep_W0]
  exact sound_body m c t

/-! ## The shared arrays, by halves -/

/-- An array held whole is held by the two halves of the full share. -/
theorem halve (c : Dev nD) (b : Ref sig .tc) (f : Buf (Elt F) ((c.tc : Thread nD τ).loc b)) :
    ((((c.tc : Thread nD τ).loc b) ↦{fullShare} f) : sProp 𝕄)
      ⊢ iprop((((c.tc : Thread nD τ).loc b) ↦{fullShare.left} f) ∗ (((c.tc : Thread nD τ).loc b) ↦{fullShare.right} f)) :=
  (pointsTo_share (PosShare.mem_left_op_right fullShare)).1

/-- The core's remaining scoped buffers pass into the grid and out of it unchanged. -/
theorem rest_in (c : Dev nD) :
    (iprop(BI.emp ∗ Pipeline.scopedRest (Ix := Unit) (Name := ℕ) (U := UR sig nD τ) (Lvl := ℕ) (Val := Elt F) spec0 c) : sProp 𝕄)
      ⊢ Pipeline.scopedRest (Ix := Unit) (Name := ℕ) (U := UR sig nD τ) (Lvl := ℕ) (Val := Elt F) spec0 c := by
  iintro ⟨-, H⟩
  iexact H

theorem rest_out (c : Dev nD) :
    (Pipeline.scopedRest (Ix := Unit) (Name := ℕ) (U := UR sig nD τ) (Lvl := ℕ) (Val := Elt F) spec0 c : sProp 𝕄)
      ⊢ iprop(BI.emp ∗ Pipeline.scopedRest (Ix := Unit) (Name := ℕ) (U := UR sig nD τ) (Lvl := ℕ) (Val := Elt F) spec0 c) := by
  iintro H
  isplitr [H]; · iempintro
  iexact H

/-- The eleven distinct arrays behind the fourteen windows, each held whole, give every window its share of its array:
    an array read through two windows is split into the two halves of the full share. -/
theorem split_chain (c : Dev nD) :
    (iprop((((c.tc : Thread nD τ).loc main_arg0) ↦{fullShare} V m c main_arg0) ∗ (((c.tc : Thread nD τ).loc main_arg1) ↦{fullShare} V m c main_arg1) ∗ (((c.tc : Thread nD τ).loc main_arg2) ↦{fullShare} V m c main_arg2) ∗ (((c.tc : Thread nD τ).loc main_v2) ↦{fullShare} V m c main_v2) ∗ (((c.tc : Thread nD τ).loc main_v5) ↦{fullShare} V m c main_v5) ∗ (((c.tc : Thread nD τ).loc main_v8) ↦{fullShare} V m c main_v8) ∗ (((c.tc : Thread nD τ).loc main_v11) ↦{fullShare} V m c main_v11) ∗ (((c.tc : Thread nD τ).loc main_v13) ↦{fullShare} V m c main_v13) ∗ (((c.tc : Thread nD τ).loc main_v15) ↦{fullShare} V m c main_v15) ∗ (((c.tc : Thread nD τ).loc main_v16_0) ↦{fullShare} V m c main_v16_0) ∗ (((c.tc : Thread nD τ).loc main_v16_1) ↦{fullShare} V m c main_v16_1)) : sProp 𝕄)
      ⊢ iprop((((c.tc : Thread nD τ).loc main_arg0) ↦{fullShare.left} V m c main_arg0) ∗ (((c.tc : Thread nD τ).loc main_arg0) ↦{fullShare.right} V m c main_arg0) ∗ (((c.tc : Thread nD τ).loc main_arg1) ↦{fullShare.left} V m c main_arg1) ∗ (((c.tc : Thread nD τ).loc main_arg1) ↦{fullShare.right} V m c main_arg1) ∗ (((c.tc : Thread nD τ).loc main_arg2) ↦{fullShare.left} V m c main_arg2) ∗ (((c.tc : Thread nD τ).loc main_arg2) ↦{fullShare.right} V m c main_arg2) ∗ (((c.tc : Thread nD τ).loc main_v2) ↦{fullShare} V m c main_v2) ∗ (((c.tc : Thread nD τ).loc main_v5) ↦{fullShare} V m c main_v5) ∗ (((c.tc : Thread nD τ).loc main_v8) ↦{fullShare} V m c main_v8) ∗ (((c.tc : Thread nD τ).loc main_v11) ↦{fullShare} V m c main_v11) ∗ (((c.tc : Thread nD τ).loc main_v13) ↦{fullShare} V m c main_v13) ∗ (((c.tc : Thread nD τ).loc main_v15) ↦{fullShare} V m c main_v15) ∗ (((c.tc : Thread nD τ).loc main_v16_0) ↦{fullShare} V m c main_v16_0) ∗ (((c.tc : Thread nD τ).loc main_v16_1) ↦{fullShare} V m c main_v16_1)) := by
  iintro ⟨H0, H1, H2, H6, H7, H8, H9, H10, H11, H12, H13⟩
  ihave S0 := (halve c main_arg0 (V m c main_arg0)) $$ H0
  ihave S1 := (halve c main_arg1 (V m c main_arg1)) $$ H1
  ihave S2 := (halve c main_arg2 (V m c main_arg2)) $$ H2
  icases S0 with ⟨A0, B0⟩
  icases S1 with ⟨A1, B1⟩
  icases S2 with ⟨A2, B2⟩
  isplitl [A0]; · iexact A0
  isplitl [B0]; · iexact B0
  isplitl [A1]; · iexact A1
  isplitl [B1]; · iexact B1
  isplitl [A2]; · iexact A2
  isplitl [B2]; · iexact B2
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem hsplit (c : Dev nD) : (Pipeline.arrBufs spec0 c (V m c) : sProp 𝕄) ⊢ (dats m 0 c).arrays ((dats m 0 c).arrAt · 0) := by
  have harr : (dats m 0 c).arrays ((dats m 0 c).arrAt · 0)
      = bigSep Finset.univ fun w : Fin 14 => ((((c.tc : Thread nD τ).loc (Pipeline.arrRef spec0 w)) ↦{(dats m 0 c).share w} V m c (Pipeline.arrRef spec0 w)) : sProp 𝕄) := by
    unfold Dat.arrays
    exact bigSep_congr fun w _ => by rw [(arr_whole0 w).set_eq_univ]; rfl
  rw [harr, bigSep_W0]
  simp only [share0, share1, share2, share3, share4, share5, share6, share7, share8, share9, share10, share11, share12, share13]
  unfold Pipeline.arrBufs
  rw [BI.bigSep_eq_bigSepL_of_eq [main_arg0, main_arg1, main_arg2, main_v2, main_v5, main_v8, main_v11, main_v13, main_v15, main_v16_0, main_v16_1] (by decide) (by decide)]
  exact split_chain m c

/-! ## The launch -/

set_option backward.isDefEq.respectTransparency.types false in
/-- Every weakly fair execution of the program terminates without a fault, every windowed array ends at what the
    write-backs make of it, and every other array ends as the grid found it. -/
theorem run_main : θ_run defs (onTc (τ := τ) (main (F := F))) ⟨m, fun _ => 0, ρ⟩ (Pipeline.FramePost cfgs (dats m) 0 (V m)) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj))
    (hu₀ := .rfl)
    (V := V m) (hmain := hmain m Variants.none)
    (hsplit := hsplit m)
    (X := fun _ => BI.emp) (Y := fun _ => BI.emp) (Z := fun c => Pipeline.unscopedRest spec0 c (V m c))
    (hX := fun c => by
      iintro H
      isplitr [H]; · iempintro
      iexact H)
    (hin := fun c => rest_in c)
    (hout := fun c => rest_out c)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-! ## The arguments end as they began -/

theorem kept_arg0 (r : PUnit × MemSt nD τ sig (Elt F)) (h : Pipeline.FramePost cfgs (dats m) 0 (V m) r) (c : Dev nD) :
    r.2.mem ((c.tc : Thread nD τ).loc main_arg0) = m ((c.tc : Thread nD τ).loc main_arg0) :=
  ((h c).1 0).trans (((dats m 0 c).arrAt_in 0 rfl _).trans ((A_eq m c 0).trans (V_main_arg0 m c)))
theorem kept_arg1 (r : PUnit × MemSt nD τ sig (Elt F)) (h : Pipeline.FramePost cfgs (dats m) 0 (V m) r) (c : Dev nD) :
    r.2.mem ((c.tc : Thread nD τ).loc main_arg1) = m ((c.tc : Thread nD τ).loc main_arg1) :=
  ((h c).1 2).trans (((dats m 0 c).arrAt_in 2 rfl _).trans ((A_eq m c 2).trans (V_main_arg1 m c)))
theorem kept_arg2 (r : PUnit × MemSt nD τ sig (Elt F)) (h : Pipeline.FramePost cfgs (dats m) 0 (V m) r) (c : Dev nD) :
    r.2.mem ((c.tc : Thread nD τ).loc main_arg2) = m ((c.tc : Thread nD τ).loc main_arg2) :=
  ((h c).1 4).trans (((dats m 0 c).arrAt_in 4 rfl _).trans ((A_eq m c 4).trans (V_main_arg2 m c)))
theorem kept_arg3 (r : PUnit × MemSt nD τ sig (Elt F)) (h : Pipeline.FramePost cfgs (dats m) 0 (V m) r) (c : Dev nD) :
    r.2.mem ((c.tc : Thread nD τ).loc main_arg3) = m ((c.tc : Thread nD τ).loc main_arg3) :=
  ((h c).2 main_arg3 (Pipeline.mem_restRefs_of main_arg3 (by decide) (by decide))).trans (V_main_arg3 m c)
theorem kept_arg4 (r : PUnit × MemSt nD τ sig (Elt F)) (h : Pipeline.FramePost cfgs (dats m) 0 (V m) r) (c : Dev nD) :
    r.2.mem ((c.tc : Thread nD τ).loc main_arg4) = m ((c.tc : Thread nD τ).loc main_arg4) :=
  ((h c).2 main_arg4 (Pipeline.mem_restRefs_of main_arg4 (by decide) (by decide))).trans (V_main_arg4 m c)
theorem kept_arg5 (r : PUnit × MemSt nD τ sig (Elt F)) (h : Pipeline.FramePost cfgs (dats m) 0 (V m) r) (c : Dev nD) :
    r.2.mem ((c.tc : Thread nD τ).loc main_arg5) = m ((c.tc : Thread nD τ).loc main_arg5) :=
  ((h c).2 main_arg5 (Pipeline.mem_restRefs_of main_arg5 (by decide) (by decide))).trans (V_main_arg5 m c)
theorem kept_arg6 (r : PUnit × MemSt nD τ sig (Elt F)) (h : Pipeline.FramePost cfgs (dats m) 0 (V m) r) (c : Dev nD) :
    r.2.mem ((c.tc : Thread nD τ).loc main_arg6) = m ((c.tc : Thread nD τ).loc main_arg6) :=
  ((h c).2 main_arg6 (Pipeline.mem_restRefs_of main_arg6 (by decide) (by decide))).trans (V_main_arg6 m c)
theorem kept_arg7 (r : PUnit × MemSt nD τ sig (Elt F)) (h : Pipeline.FramePost cfgs (dats m) 0 (V m) r) (c : Dev nD) :
    r.2.mem ((c.tc : Thread nD τ).loc main_arg7) = m ((c.tc : Thread nD τ).loc main_arg7) :=
  ((h c).2 main_arg7 (Pipeline.mem_restRefs_of main_arg7 (by decide) (by decide))).trans (V_main_arg7 m c)
theorem kept_arg8 (r : PUnit × MemSt nD τ sig (Elt F)) (h : Pipeline.FramePost cfgs (dats m) 0 (V m) r) (c : Dev nD) :
    r.2.mem ((c.tc : Thread nD τ).loc main_arg8) = m ((c.tc : Thread nD τ).loc main_arg8) :=
  ((h c).2 main_arg8 (Pipeline.mem_restRefs_of main_arg8 (by decide) (by decide))).trans (V_main_arg8 m c)
theorem kept_arg9 (r : PUnit × MemSt nD τ sig (Elt F)) (h : Pipeline.FramePost cfgs (dats m) 0 (V m) r) (c : Dev nD) :
    r.2.mem ((c.tc : Thread nD τ).loc main_arg9) = m ((c.tc : Thread nD τ).loc main_arg9) :=
  ((h c).2 main_arg9 (Pipeline.mem_restRefs_of main_arg9 (by decide) (by decide))).trans (V_main_arg9 m c)
theorem kept_arg10 (r : PUnit × MemSt nD τ sig (Elt F)) (h : Pipeline.FramePost cfgs (dats m) 0 (V m) r) (c : Dev nD) :
    r.2.mem ((c.tc : Thread nD τ).loc main_arg10) = m ((c.tc : Thread nD τ).loc main_arg10) :=
  ((h c).2 main_arg10 (Pipeline.mem_restRefs_of main_arg10 (by decide) (by decide))).trans (V_main_arg10 m c)

/-- The program runs to the end, faults nowhere, and leaves its eleven argument arrays unchanged: an argument read
    through windows is never written back, and an argument no window reads bypasses the grid. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨kept_arg0 m r h c, kept_arg1 m r h c, kept_arg2 m r h c, kept_arg3 m r h c, kept_arg4 m r h c, kept_arg5 m r h c, kept_arg6 m r h c, kept_arg7 m r h c, kept_arg8 m r h c, kept_arg9 m r h c, kept_arg10 m r h c⟩) (run_main m ρ)

end Cert.Kernel.Run

end
-- ==== Proof.KernelIdealEntry.lean ====
/-
  The region's entry. Before the grid runs, sixteen host operations prepare its operands: each of the four weight
  arrays (gate, output, input) is transposed to (input, gate, output) and flattened to a 1024 × 4096 matrix whose
  column `gate · 1024 + output` is that gate's output row, and the two pairs of bias arrays are added and flattened to
  1 × 4096 rows. None of them writes an argument array. `V` names every array as the grid finds it; `iblk` is the
  block of a window's array that grid point `t` works on. An input window's staging buffer holds that block at every
  point, whether the point fetched it or not: a point that does not fetch has the same block index as the point before,
  and the body leaves its inputs in place.
-/
import proofs.«173032_j43224550867775_2_alg».proof.Proof.Gen.KernelIdeal.Launch
import proofs.«173032_j43224550867775_2_alg».proof.Proof.Gen.KernelIdeal.Skeleton
import proofs.«173032_j43224550867775_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Entry

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every TensorCore array on core `c` as the grid finds it: the launch contents after the host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program is the host operations followed by the grid. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 5. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 6. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 7. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 8. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 9. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 10. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Window `w`'s block at grid point `t`, read off its array as the grid finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, for any proof data over `V` whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, for any proof data over `V` whose body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, for any proof data over `V` whose body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, for any proof data over `V` whose body leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point, for any proof data over `V` whose body leaves the block in place. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point, for any proof data over `V` whose body leaves the block in place. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds its block at every point, for any proof data over `V` whose body leaves the block in place. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's staging buffer holds its block at every point, for any proof data over `V` whose body leaves the block in place. -/
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's staging buffer holds its block at every point, for any proof data over `V` whose body leaves the block in place. -/
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's staging buffer holds its block at every point, for any proof data over `V` whose body leaves the block in place. -/
theorem before9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's staging buffer holds its block at every point, for any proof data over `V` whose body leaves the block in place. -/
theorem before10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's staging buffer holds its block at every point, for any proof data over `V` whose body leaves the block in place. -/
theorem before11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

end Cert.KernelIdeal.Entry

end
-- ==== Proof.KernelIdealBody.lean ====
/-
  One grid point's work, on the staging buffers. The body reads twelve blocks — 64 rows of the real and imaginary
  halves of the input, the hidden state and the cell state; the four stacked weight matrices; the two bias rows — and
  writes two 64 × 2048 blocks, each by two stores: the real parts into columns 0 … 1023, then the imaginary parts into
  columns 1024 … 2047. The two column ranges tile the block, so after the body each output block is determined by the
  twelve input blocks alone, whatever it held before: `hidBlock` (the new hidden state) and `cellBlock` (the new cell
  state). The inputs are left as they were.
-/
import proofs.«173032_j43224550867775_2_alg».proof.Proof.KernelIdealEntry

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- A whole 64 × 1024 block of activations. -/
abbrev rAct : Rect S64x1024 := Rect.unit (s := S64x1024) ![0, 0] S64x1024.size inb_S64x1024_S64x1024_0_0
/-- A whole stacked weight matrix. -/
abbrev rWt : Rect S1024x4096 := Rect.unit (s := S1024x4096) ![0, 0] S1024x4096.size inb_S1024x4096_S1024x4096_0_0
/-- A whole bias row. -/
abbrev rBias : Rect S1x4096 := Rect.unit (s := S1x4096) ![0, 0] S1x4096.size inb_S1x4096_S1x4096_0_0
/-- The left half of an output block: the real parts. -/
abbrev rLeft : Rect S64x2048 := Rect.unit (s := S64x2048) ![0, 0] S64x1024.size inb_S64x2048_S64x1024_0_0
/-- The right half of an output block: the imaginary parts. -/
abbrev rRight : Rect S64x2048 := Rect.unit (s := S64x2048) ![0, 1024] S64x1024.size inb_S64x2048_S64x1024_0_1024

/-- The new hidden state's block: imaginary parts on the right half, real parts on the left (the later store first). -/
def hidBlock (x0 x1 x2 x3 x4 x5 : Vec F S64x1024 .f32) (x6 x7 x8 x9 : Vec F S1024x4096 .bf16) (x10 x11 : Vec F S1x4096 .f32) : Vec F S64x2048 .f32 :=
  View.canon [⟨rRight, k0_pay25 (k0_pay1 (View.ld x0 rAct)) (k0_pay2 (View.ld x1 rAct)) (k0_pay3 (View.ld x2 rAct)) (k0_pay4 (View.ld x3 rAct)) (View.ld x4 rAct) (View.ld x5 rAct) (k0_pay5 (View.ld x6 rWt)) (k0_pay6 (View.ld x7 rWt)) (k0_pay7 (View.ld x8 rWt)) (k0_pay8 (View.ld x9 rWt)) (k0_pay9 (View.ld x11 rBias)) (k0_pay10 (View.ld x0 rAct) (View.ld x1 rAct) (View.ld x2 rAct) (View.ld x3 rAct) (View.ld x6 rWt) (View.ld x7 rWt) (View.ld x8 rWt) (View.ld x9 rWt) (View.ld x10 rBias))⟩,
    ⟨rLeft, k0_pay24 (k0_pay1 (View.ld x0 rAct)) (k0_pay2 (View.ld x1 rAct)) (k0_pay3 (View.ld x2 rAct)) (k0_pay4 (View.ld x3 rAct)) (View.ld x4 rAct) (View.ld x5 rAct) (k0_pay5 (View.ld x6 rWt)) (k0_pay6 (View.ld x7 rWt)) (k0_pay7 (View.ld x8 rWt)) (k0_pay8 (View.ld x9 rWt)) (k0_pay9 (View.ld x11 rBias)) (k0_pay10 (View.ld x0 rAct) (View.ld x1 rAct) (View.ld x2 rAct) (View.ld x3 rAct) (View.ld x6 rWt) (View.ld x7 rWt) (View.ld x8 rWt) (View.ld x9 rWt) (View.ld x10 rBias))⟩]

/-- The new cell state's block, laid out the same way. -/
def cellBlock (x0 x1 x2 x3 x4 x5 : Vec F S64x1024 .f32) (x6 x7 x8 x9 : Vec F S1024x4096 .bf16) (x10 x11 : Vec F S1x4096 .f32) : Vec F S64x2048 .f32 :=
  View.canon [⟨rRight, k0_pay21 (k0_pay1 (View.ld x0 rAct)) (k0_pay2 (View.ld x1 rAct)) (k0_pay3 (View.ld x2 rAct)) (k0_pay4 (View.ld x3 rAct)) (View.ld x4 rAct) (View.ld x5 rAct) (k0_pay5 (View.ld x6 rWt)) (k0_pay6 (View.ld x7 rWt)) (k0_pay7 (View.ld x8 rWt)) (k0_pay8 (View.ld x9 rWt)) (k0_pay9 (View.ld x11 rBias)) (k0_pay10 (View.ld x0 rAct) (View.ld x1 rAct) (View.ld x2 rAct) (View.ld x3 rAct) (View.ld x6 rWt) (View.ld x7 rWt) (View.ld x8 rWt) (View.ld x9 rWt) (View.ld x10 rBias))⟩,
    ⟨rLeft, k0_pay20 (k0_pay1 (View.ld x0 rAct)) (k0_pay2 (View.ld x1 rAct)) (k0_pay3 (View.ld x2 rAct)) (k0_pay4 (View.ld x3 rAct)) (View.ld x4 rAct) (View.ld x5 rAct) (k0_pay5 (View.ld x6 rWt)) (k0_pay6 (View.ld x7 rWt)) (k0_pay7 (View.ld x8 rWt)) (k0_pay8 (View.ld x9 rWt)) (k0_pay9 (View.ld x11 rBias)) (k0_pay10 (View.ld x0 rAct) (View.ld x1 rAct) (View.ld x2 rAct) (View.ld x3 rAct) (View.ld x6 rWt) (View.ld x7 rWt) (View.ld x8 rWt) (View.ld x9 rWt) (View.ld x10 rBias))⟩]

/-- The two halves tile the block. -/
theorem cover_out (p0 p1 : Vec F S64x1024 .f32) (y : S64x2048.Idx) :
    ∃ pc ∈ ([⟨rRight, p0⟩, ⟨rLeft, p1⟩] : List (View.Piece (Elt F) S64x2048 .f32)), y ∈ pc.1.set :=
  View.cover_of_tiled [⟨rRight, p0⟩, ⟨rLeft, p1⟩] S64x1024.size (by rfl) y

set_option maxHeartbeats 4000000 in
/-- The body, run on whole staging buffers holding the twelve input blocks and anything in the two output buffers,
    ends with the inputs as they were and the outputs at `hidBlock` and `cellBlock` of the inputs. -/
theorem sound_kernel (c : Dev nD) (E : Set ℕ) (i : grid0.Coords) (arg1 : Memref sig .tc .vmem S64x1024 .f32) (harg1 : arg1.IsWhole) (arg2 : Memref sig .tc .vmem S64x1024 .f32) (harg2 : arg2.IsWhole) (arg3 : Memref sig .tc .vmem S64x1024 .f32) (harg3 : arg3.IsWhole) (arg4 : Memref sig .tc .vmem S64x1024 .f32) (harg4 : arg4.IsWhole) (arg5 : Memref sig .tc .vmem S64x1024 .f32) (harg5 : arg5.IsWhole) (arg6 : Memref sig .tc .vmem S64x1024 .f32) (harg6 : arg6.IsWhole) (arg7 : Memref sig .tc .vmem S1024x4096 .bf16) (harg7 : arg7.IsWhole) (arg8 : Memref sig .tc .vmem S1024x4096 .bf16) (harg8 : arg8.IsWhole) (arg9 : Memref sig .tc .vmem S1024x4096 .bf16) (harg9 : arg9.IsWhole) (arg10 : Memref sig .tc .vmem S1024x4096 .bf16) (harg10 : arg10.IsWhole) (arg11 : Memref sig .tc .vmem S1x4096 .f32) (harg11 : arg11.IsWhole) (arg12 : Memref sig .tc .vmem S1x4096 .f32) (harg12 : arg12.IsWhole) (arg13 : Memref sig .tc .vmem S64x2048 .f32) (harg13 : arg13.IsWhole) (arg14 : Memref sig .tc .vmem S64x2048 .f32) (harg14 : arg14.IsWhole)
    (x0 x1 x2 x3 x4 x5 : Vec F S64x1024 .f32) (x6 x7 x8 x9 : Vec F S1024x4096 .bf16) (x10 x11 : Vec F S1x4096 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (hidBlock x0 x1 x2 x3 x4 x5 x6 x7 x8 x9 x10 x11) ∗ owns (c : Thread nD τ) arg14 fullShare (cellBlock x0 x1 x2 x3 x4 x5 x6 x7 x8 x9 x10 x11)) -∗ K ⟨⟩))
      ⊢ wp frame (wpE (defs₀ (F := F)) Variants.none c none) E (cc0__clstm_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__clstm_kernel_eq_skeleton]; unfold cc0__clstm_kernel_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, Hk⟩
  subst hf0 hf1 hf2 hf3 hf4 hf5 hf6 hf7 hf8 hf9 hf10 hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    try dsimp only
    exact View.read_writes_eq_canon _ _ _ (cover_out _ _)
  iexists _; isplitr
  swap; · iexact H13
  ipureintro
  try dsimp only
  exact View.read_writes_eq_canon _ _ _ (cover_out _ _)

end Cert.KernelIdeal.Body

end
-- ==== Proof.KernelIdealRun.lean ====
/-
  The grid's run. Sixty-four points, each working on 64 rows; the twelve input windows are read only, the two output
  windows are written whole at every point and written back after it. The input, hidden-state and cell-state arrays are
  each read through TWO windows (the real half and the imaginary half of the same rows), so each of those arrays is held
  by halves of the full share, one half per window; every other array is held whole by its one window. The body leaves
  its inputs in place and its outputs at `hidBlock` / `cellBlock` of the input blocks; nothing is carried from point to
  point. The run ends with every windowed array at what the write-backs make of it and every other array as the grid
  found it.
-/
import proofs.«173032_j43224550867775_2_alg».proof.Proof.KernelIdealBody

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Cert.KernelIdeal.Entry Cert.KernelIdeal.Body

variable (m : (ℓ : Loc nD τ sig) → Buf (Elt F) ℓ) (ρ : Dev nD → PrngReg)

/-- The proof data on core `c`: the arrays as the grid finds them; after the body at point `t` each input's buffer at
    its block and each output's at the body's result on the input blocks; the two windows of a shared array hold the
    two halves of its full share; the invariant is the core's remaining scoped buffers (there are none). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => hidBlock (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    | ⟨13, _⟩ => cellBlock (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare.left
    | ⟨3, _⟩ => fullShare.right
    | ⟨4, _⟩ => fullShare.left
    | ⟨5, _⟩ => fullShare.right
    | ⟨6, _⟩ => fullShare
    | ⟨7, _⟩ => fullShare
    | ⟨8, _⟩ => fullShare
    | ⟨9, _⟩ => fullShare
    | ⟨10, _⟩ => fullShare
    | ⟨11, _⟩ => fullShare
    | ⟨12, _⟩ => fullShare
    | ⟨13, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = hidBlock (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]
theorem after13 (c : Dev nD) (t : Fin cfg0.N) : (dats m 0 c).after 13 t = cellBlock (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d
theorem before9 (c : Dev nD) (t : Fin cfg0.N) (d) : (dats m 0 c).before 9 t d = iblk m c 9 t :=
  before9_of m (dats m 0 c) (A_eq m c 9) (after9 m c) t d
theorem before10 (c : Dev nD) (t : Fin cfg0.N) (d) : (dats m 0 c).before 10 t d = iblk m c 10 t :=
  before10_of m (dats m 0 c) (A_eq m c 10) (after10 m c) t d
theorem before11 (c : Dev nD) (t : Fin cfg0.N) (d) : (dats m 0 c).before 11 t d = iblk m c 11 t :=
  before11_of m (dats m 0 c) (A_eq m c 11) (after11 m c) t d

theorem share0 (c : Dev nD) : (dats m 0 c).share (0 : Fin 14) = fullShare.left := by unfold Dat.share; rfl
theorem share1 (c : Dev nD) : (dats m 0 c).share (1 : Fin 14) = fullShare.right := by unfold Dat.share; rfl
theorem share2 (c : Dev nD) : (dats m 0 c).share (2 : Fin 14) = fullShare.left := by unfold Dat.share; rfl
theorem share3 (c : Dev nD) : (dats m 0 c).share (3 : Fin 14) = fullShare.right := by unfold Dat.share; rfl
theorem share4 (c : Dev nD) : (dats m 0 c).share (4 : Fin 14) = fullShare.left := by unfold Dat.share; rfl
theorem share5 (c : Dev nD) : (dats m 0 c).share (5 : Fin 14) = fullShare.right := by unfold Dat.share; rfl
theorem share6 (c : Dev nD) : (dats m 0 c).share (6 : Fin 14) = fullShare := by unfold Dat.share; rfl
theorem share7 (c : Dev nD) : (dats m 0 c).share (7 : Fin 14) = fullShare := by unfold Dat.share; rfl
theorem share8 (c : Dev nD) : (dats m 0 c).share (8 : Fin 14) = fullShare := by unfold Dat.share; rfl
theorem share9 (c : Dev nD) : (dats m 0 c).share (9 : Fin 14) = fullShare := by unfold Dat.share; rfl
theorem share10 (c : Dev nD) : (dats m 0 c).share (10 : Fin 14) = fullShare := by unfold Dat.share; rfl
theorem share11 (c : Dev nD) : (dats m 0 c).share (11 : Fin 14) = fullShare := by unfold Dat.share; rfl
theorem share12 (c : Dev nD) : (dats m 0 c).share (12 : Fin 14) = fullShare := by unfold Dat.share; rfl
theorem share13 (c : Dev nD) : (dats m 0 c).share (13 : Fin 14) = fullShare := by unfold Dat.share; rfl

/-! ## One point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t))

set_option maxHeartbeats 2000000 in
/-- The body at any point: every input buffer holds its block, so the body's triple applies; the invariant and what the
    core owes pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel c Set.univ (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem body_obligation (c : Dev nD) : BodyObligation (dats (F := F) m 0 c) (defs₀ (F := F)) Variants.none () Set.univ := fun t => by
  rw [bigSep_W0, bigSep_W0]
  exact sound_body m c t

/-! ## The shared arrays, by halves -/

/-- An array held whole is held by the two halves of the full share. -/
theorem halve (c : Dev nD) (b : Ref sig .tc) (f : Buf (Elt F) ((c.tc : Thread nD τ).loc b)) :
    ((((c.tc : Thread nD τ).loc b) ↦{fullShare} f) : sProp 𝕄)
      ⊢ iprop((((c.tc : Thread nD τ).loc b) ↦{fullShare.left} f) ∗ (((c.tc : Thread nD τ).loc b) ↦{fullShare.right} f)) :=
  (pointsTo_share (PosShare.mem_left_op_right fullShare)).1

/-- The core's remaining scoped buffers pass into the grid and out of it unchanged. -/
theorem rest_in (c : Dev nD) :
    (iprop(BI.emp ∗ Pipeline.scopedRest (Ix := Unit) (Name := ℕ) (U := UR sig nD τ) (Lvl := ℕ) (Val := Elt F) spec0 c) : sProp 𝕄)
      ⊢ Pipeline.scopedRest (Ix := Unit) (Name := ℕ) (U := UR sig nD τ) (Lvl := ℕ) (Val := Elt F) spec0 c := by
  iintro ⟨-, H⟩
  iexact H

theorem rest_out (c : Dev nD) :
    (Pipeline.scopedRest (Ix := Unit) (Name := ℕ) (U := UR sig nD τ) (Lvl := ℕ) (Val := Elt F) spec0 c : sProp 𝕄)
      ⊢ iprop(BI.emp ∗ Pipeline.scopedRest (Ix := Unit) (Name := ℕ) (U := UR sig nD τ) (Lvl := ℕ) (Val := Elt F) spec0 c) := by
  iintro H
  isplitr [H]; · iempintro
  iexact H

/-- The eleven distinct arrays behind the fourteen windows, each held whole, give every window its share of its array:
    an array read through two windows is split into the two halves of the full share. -/
theorem split_chain (c : Dev nD) :
    (iprop((((c.tc : Thread nD τ).loc main_arg0) ↦{fullShare} V m c main_arg0) ∗ (((c.tc : Thread nD τ).loc main_arg1) ↦{fullShare} V m c main_arg1) ∗ (((c.tc : Thread nD τ).loc main_arg2) ↦{fullShare} V m c main_arg2) ∗ (((c.tc : Thread nD τ).loc main_v2) ↦{fullShare} V m c main_v2) ∗ (((c.tc : Thread nD τ).loc main_v5) ↦{fullShare} V m c main_v5) ∗ (((c.tc : Thread nD τ).loc main_v8) ↦{fullShare} V m c main_v8) ∗ (((c.tc : Thread nD τ).loc main_v11) ↦{fullShare} V m c main_v11) ∗ (((c.tc : Thread nD τ).loc main_v13) ↦{fullShare} V m c main_v13) ∗ (((c.tc : Thread nD τ).loc main_v15) ↦{fullShare} V m c main_v15) ∗ (((c.tc : Thread nD τ).loc main_v16_0) ↦{fullShare} V m c main_v16_0) ∗ (((c.tc : Thread nD τ).loc main_v16_1) ↦{fullShare} V m c main_v16_1)) : sProp 𝕄)
      ⊢ iprop((((c.tc : Thread nD τ).loc main_arg0) ↦{fullShare.left} V m c main_arg0) ∗ (((c.tc : Thread nD τ).loc main_arg0) ↦{fullShare.right} V m c main_arg0) ∗ (((c.tc : Thread nD τ).loc main_arg1) ↦{fullShare.left} V m c main_arg1) ∗ (((c.tc : Thread nD τ).loc main_arg1) ↦{fullShare.right} V m c main_arg1) ∗ (((c.tc : Thread nD τ).loc main_arg2) ↦{fullShare.left} V m c main_arg2) ∗ (((c.tc : Thread nD τ).loc main_arg2) ↦{fullShare.right} V m c main_arg2) ∗ (((c.tc : Thread nD τ).loc main_v2) ↦{fullShare} V m c main_v2) ∗ (((c.tc : Thread nD τ).loc main_v5) ↦{fullShare} V m c main_v5) ∗ (((c.tc : Thread nD τ).loc main_v8) ↦{fullShare} V m c main_v8) ∗ (((c.tc : Thread nD τ).loc main_v11) ↦{fullShare} V m c main_v11) ∗ (((c.tc : Thread nD τ).loc main_v13) ↦{fullShare} V m c main_v13) ∗ (((c.tc : Thread nD τ).loc main_v15) ↦{fullShare} V m c main_v15) ∗ (((c.tc : Thread nD τ).loc main_v16_0) ↦{fullShare} V m c main_v16_0) ∗ (((c.tc : Thread nD τ).loc main_v16_1) ↦{fullShare} V m c main_v16_1)) := by
  iintro ⟨H0, H1, H2, H6, H7, H8, H9, H10, H11, H12, H13⟩
  ihave S0 := (halve c main_arg0 (V m c main_arg0)) $$ H0
  ihave S1 := (halve c main_arg1 (V m c main_arg1)) $$ H1
  ihave S2 := (halve c main_arg2 (V m c main_arg2)) $$ H2
  icases S0 with ⟨A0, B0⟩
  icases S1 with ⟨A1, B1⟩
  icases S2 with ⟨A2, B2⟩
  isplitl [A0]; · iexact A0
  isplitl [B0]; · iexact B0
  isplitl [A1]; · iexact A1
  isplitl [B1]; · iexact B1
  isplitl [A2]; · iexact A2
  isplitl [B2]; · iexact B2
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem hsplit (c : Dev nD) : (Pipeline.arrBufs spec0 c (V m c) : sProp 𝕄) ⊢ (dats m 0 c).arrays ((dats m 0 c).arrAt · 0) := by
  have harr : (dats m 0 c).arrays ((dats m 0 c).arrAt · 0)
      = bigSep Finset.univ fun w : Fin 14 => ((((c.tc : Thread nD τ).loc (Pipeline.arrRef spec0 w)) ↦{(dats m 0 c).share w} V m c (Pipeline.arrRef spec0 w)) : sProp 𝕄) := by
    unfold Dat.arrays
    exact bigSep_congr fun w _ => by rw [(arr_whole0 w).set_eq_univ]; rfl
  rw [harr, bigSep_W0]
  simp only [share0, share1, share2, share3, share4, share5, share6, share7, share8, share9, share10, share11, share12, share13]
  unfold Pipeline.arrBufs
  rw [BI.bigSep_eq_bigSepL_of_eq [main_arg0, main_arg1, main_arg2, main_v2, main_v5, main_v8, main_v11, main_v13, main_v15, main_v16_0, main_v16_1] (by decide) (by decide)]
  exact split_chain m c

/-! ## The launch -/

set_option backward.isDefEq.respectTransparency.types false in
/-- Every weakly fair execution of the program terminates without a fault, every windowed array ends at what the
    write-backs make of it, and every other array ends as the grid found it. -/
theorem run_main : θ_run defs (onTc (τ := τ) (main (F := F))) ⟨m, fun _ => 0, ρ⟩ (Pipeline.FramePost cfgs (dats m) 0 (V m)) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj))
    (hu₀ := .rfl)
    (V := V m) (hmain := hmain m Variants.none)
    (hsplit := hsplit m)
    (X := fun _ => BI.emp) (Y := fun _ => BI.emp) (Z := fun c => Pipeline.unscopedRest spec0 c (V m c))
    (hX := fun c => by
      iintro H
      isplitr [H]; · iempintro
      iexact H)
    (hin := fun c => rest_in c)
    (hout := fun c => rest_out c)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-! ## The arguments end as they began -/

theorem kept_arg0 (r : PUnit × MemSt nD τ sig (Elt F)) (h : Pipeline.FramePost cfgs (dats m) 0 (V m) r) (c : Dev nD) :
    r.2.mem ((c.tc : Thread nD τ).loc main_arg0) = m ((c.tc : Thread nD τ).loc main_arg0) :=
  ((h c).1 0).trans (((dats m 0 c).arrAt_in 0 rfl _).trans ((A_eq m c 0).trans (V_main_arg0 m c)))
theorem kept_arg1 (r : PUnit × MemSt nD τ sig (Elt F)) (h : Pipeline.FramePost cfgs (dats m) 0 (V m) r) (c : Dev nD) :
    r.2.mem ((c.tc : Thread nD τ).loc main_arg1) = m ((c.tc : Thread nD τ).loc main_arg1) :=
  ((h c).1 2).trans (((dats m 0 c).arrAt_in 2 rfl _).trans ((A_eq m c 2).trans (V_main_arg1 m c)))
theorem kept_arg2 (r : PUnit × MemSt nD τ sig (Elt F)) (h : Pipeline.FramePost cfgs (dats m) 0 (V m) r) (c : Dev nD) :
    r.2.mem ((c.tc : Thread nD τ).loc main_arg2) = m ((c.tc : Thread nD τ).loc main_arg2) :=
  ((h c).1 4).trans (((dats m 0 c).arrAt_in 4 rfl _).trans ((A_eq m c 4).trans (V_main_arg2 m c)))
theorem kept_arg3 (r : PUnit × MemSt nD τ sig (Elt F)) (h : Pipeline.FramePost cfgs (dats m) 0 (V m) r) (c : Dev nD) :
    r.2.mem ((c.tc : Thread nD τ).loc main_arg3) = m ((c.tc : Thread nD τ).loc main_arg3) :=
  ((h c).2 main_arg3 (Pipeline.mem_restRefs_of main_arg3 (by decide) (by decide))).trans (V_main_arg3 m c)
theorem kept_arg4 (r : PUnit × MemSt nD τ sig (Elt F)) (h : Pipeline.FramePost cfgs (dats m) 0 (V m) r) (c : Dev nD) :
    r.2.mem ((c.tc : Thread nD τ).loc main_arg4) = m ((c.tc : Thread nD τ).loc main_arg4) :=
  ((h c).2 main_arg4 (Pipeline.mem_restRefs_of main_arg4 (by decide) (by decide))).trans (V_main_arg4 m c)
theorem kept_arg5 (r : PUnit × MemSt nD τ sig (Elt F)) (h : Pipeline.FramePost cfgs (dats m) 0 (V m) r) (c : Dev nD) :
    r.2.mem ((c.tc : Thread nD τ).loc main_arg5) = m ((c.tc : Thread nD τ).loc main_arg5) :=
  ((h c).2 main_arg5 (Pipeline.mem_restRefs_of main_arg5 (by decide) (by decide))).trans (V_main_arg5 m c)
theorem kept_arg6 (r : PUnit × MemSt nD τ sig (Elt F)) (h : Pipeline.FramePost cfgs (dats m) 0 (V m) r) (c : Dev nD) :
    r.2.mem ((c.tc : Thread nD τ).loc main_arg6) = m ((c.tc : Thread nD τ).loc main_arg6) :=
  ((h c).2 main_arg6 (Pipeline.mem_restRefs_of main_arg6 (by decide) (by decide))).trans (V_main_arg6 m c)
theorem kept_arg7 (r : PUnit × MemSt nD τ sig (Elt F)) (h : Pipeline.FramePost cfgs (dats m) 0 (V m) r) (c : Dev nD) :
    r.2.mem ((c.tc : Thread nD τ).loc main_arg7) = m ((c.tc : Thread nD τ).loc main_arg7) :=
  ((h c).2 main_arg7 (Pipeline.mem_restRefs_of main_arg7 (by decide) (by decide))).trans (V_main_arg7 m c)
theorem kept_arg8 (r : PUnit × MemSt nD τ sig (Elt F)) (h : Pipeline.FramePost cfgs (dats m) 0 (V m) r) (c : Dev nD) :
    r.2.mem ((c.tc : Thread nD τ).loc main_arg8) = m ((c.tc : Thread nD τ).loc main_arg8) :=
  ((h c).2 main_arg8 (Pipeline.mem_restRefs_of main_arg8 (by decide) (by decide))).trans (V_main_arg8 m c)
theorem kept_arg9 (r : PUnit × MemSt nD τ sig (Elt F)) (h : Pipeline.FramePost cfgs (dats m) 0 (V m) r) (c : Dev nD) :
    r.2.mem ((c.tc : Thread nD τ).loc main_arg9) = m ((c.tc : Thread nD τ).loc main_arg9) :=
  ((h c).2 main_arg9 (Pipeline.mem_restRefs_of main_arg9 (by decide) (by decide))).trans (V_main_arg9 m c)
theorem kept_arg10 (r : PUnit × MemSt nD τ sig (Elt F)) (h : Pipeline.FramePost cfgs (dats m) 0 (V m) r) (c : Dev nD) :
    r.2.mem ((c.tc : Thread nD τ).loc main_arg10) = m ((c.tc : Thread nD τ).loc main_arg10) :=
  ((h c).2 main_arg10 (Pipeline.mem_restRefs_of main_arg10 (by decide) (by decide))).trans (V_main_arg10 m c)

/-- The program runs to the end, faults nowhere, and leaves its eleven argument arrays unchanged: an argument read
    through windows is never written back, and an argument no window reads bypasses the grid. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨kept_arg0 m r h c, kept_arg1 m r h c, kept_arg2 m r h c, kept_arg3 m r h c, kept_arg4 m r h c, kept_arg5 m r h c, kept_arg6 m r h c, kept_arg7 m r h c, kept_arg8 m r h c, kept_arg9 m r h c, kept_arg10 m r h c⟩) (run_main m ρ)

end Cert.KernelIdeal.Run

end
-- ==== Proof.KernelIdealBlockAt.lean ====
/-
  An output block at an index. The body fills a 64 × 2048 block by two stores, columns 0 … 1023 and columns
  1024 … 2047; so the block's entry in row `p`, column `q` of the left half is the first store's value at `(p, q)`, and
  its entry in column `q` of the right half is the second store's value at `(p, q)`. A load through the rectangle that
  is the whole buffer reads the buffer's contents.
-/
import proofs.«173032_j43224550867775_2_alg».proof.Proof.KernelIdealBody
import Idealize.ShloMosaic.Lib.Pipeline.Value
import Idealize.ShloMosaic.Lib.ValueIdx

set_option maxRecDepth 16384

noncomputable section

namespace Cert.KernelIdeal.BlockAt

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Cert.KernelIdeal.Body Idealize.ShloMosaic.ValueIdx

theorem hz : (![0, 0] : Fin 2 → Nat) = fun _ => 0 := funext fun a => by fin_cases a <;> rfl

/-- Column `q` of the left half of a block. -/
def lcol (q : Fin 1024) : Fin 2048 := ⟨q.val, by omega⟩
/-- Column `q` of the right half of a block. -/
def rcol (q : Fin 1024) : Fin 2048 := ⟨q.val + 1024, by omega⟩

theorem left_emb (p : Fin 64) (q : Fin 1024) : (ix2 p (lcol q) : S64x2048.Idx) = rLeft.emb (ix2 p q) := by
  funext a; apply Fin.ext
  match a with
  | ⟨0, _⟩ => show p.val = 0 + 1 * p.val; omega
  | ⟨1, _⟩ => show q.val = 0 + 1 * q.val; omega

theorem right_emb (p : Fin 64) (q : Fin 1024) : (ix2 p (rcol q) : S64x2048.Idx) = rRight.emb (ix2 p q) := by
  funext a; apply Fin.ext
  match a with
  | ⟨0, _⟩ => show p.val = 0 + 1 * p.val; omega
  | ⟨1, _⟩ => show q.val + 1024 = 1024 + 1 * q.val; omega

/-- A column of the left half is not in the right half. -/
theorem left_not_right (p : Fin 64) (q : Fin 1024) : (ix2 p (lcol q) : S64x2048.Idx) ∉ rRight.set := by
  rw [Rect.mem_set_unit]
  intro h
  have h1 : (1024 : ℕ) ≤ q.val := (h 1).1
  have := q.isLt
  omega

/-- Of two stores that fill the left and the right half, an entry of the left half is the left store's. -/
theorem two_left (p0 p1 : Vec F S64x1024 .f32) (p : Fin 64) (q : Fin 1024) :
    View.canon [(⟨rRight, p0⟩ : View.Piece (Elt F) S64x2048 .f32), ⟨rLeft, p1⟩] (ix2 p (lcol q)) = p1 (ix2 p q) := by
  rw [View.canon_cons_of_not_mem (⟨rRight, p0⟩ : View.Piece (Elt F) S64x2048 .f32) [⟨rLeft, p1⟩] (left_not_right p q), left_emb]
  exact View.canon_cons_emb rLeft p1 [] (ix2 p q)

/-- An entry of the right half is the right store's. -/
theorem two_right (p0 p1 : Vec F S64x1024 .f32) (p : Fin 64) (q : Fin 1024) :
    View.canon [(⟨rRight, p0⟩ : View.Piece (Elt F) S64x2048 .f32), ⟨rLeft, p1⟩] (ix2 p (rcol q)) = p0 (ix2 p q) := by
  rw [right_emb]
  exact View.canon_cons_emb rRight p0 [⟨rLeft, p1⟩] (ix2 p q)

variable (x0 x1 x2 x3 x4 x5 : Vec F S64x1024 .f32) (x6 x7 x8 x9 : Vec F S1024x4096 .bf16) (x10 x11 : Vec F S1x4096 .f32)

theorem hidBlock_left (p : Fin 64) (q : Fin 1024) :
    hidBlock x0 x1 x2 x3 x4 x5 x6 x7 x8 x9 x10 x11 (ix2 p (lcol q)) = k0_pay24 (k0_pay1 x0) (k0_pay2 x1) (k0_pay3 x2) (k0_pay4 x3) x4 x5 (k0_pay5 x6) (k0_pay6 x7) (k0_pay7 x8) (k0_pay8 x9) (k0_pay9 x11) (k0_pay10 x0 x1 x2 x3 x6 x7 x8 x9 x10) (ix2 p q) := by
  unfold hidBlock
  simp only [View.ld_unit_zero (S := S64x1024) hz, View.ld_unit_zero (S := S1024x4096) hz, View.ld_unit_zero (S := S1x4096) hz]
  exact two_left _ _ p q

theorem hidBlock_right (p : Fin 64) (q : Fin 1024) :
    hidBlock x0 x1 x2 x3 x4 x5 x6 x7 x8 x9 x10 x11 (ix2 p (rcol q)) = k0_pay25 (k0_pay1 x0) (k0_pay2 x1) (k0_pay3 x2) (k0_pay4 x3) x4 x5 (k0_pay5 x6) (k0_pay6 x7) (k0_pay7 x8) (k0_pay8 x9) (k0_pay9 x11) (k0_pay10 x0 x1 x2 x3 x6 x7 x8 x9 x10) (ix2 p q) := by
  unfold hidBlock
  simp only [View.ld_unit_zero (S := S64x1024) hz, View.ld_unit_zero (S := S1024x4096) hz, View.ld_unit_zero (S := S1x4096) hz]
  exact two_right _ _ p q

theorem cellBlock_left (p : Fin 64) (q : Fin 1024) :
    cellBlock x0 x1 x2 x3 x4 x5 x6 x7 x8 x9 x10 x11 (ix2 p (lcol q)) = k0_pay20 (k0_pay1 x0) (k0_pay2 x1) (k0_pay3 x2) (k0_pay4 x3) x4 x5 (k0_pay5 x6) (k0_pay6 x7) (k0_pay7 x8) (k0_pay8 x9) (k0_pay9 x11) (k0_pay10 x0 x1 x2 x3 x6 x7 x8 x9 x10) (ix2 p q) := by
  unfold cellBlock
  simp only [View.ld_unit_zero (S := S64x1024) hz, View.ld_unit_zero (S := S1024x4096) hz, View.ld_unit_zero (S := S1x4096) hz]
  exact two_left _ _ p q

theorem cellBlock_right (p : Fin 64) (q : Fin 1024) :
    cellBlock x0 x1 x2 x3 x4 x5 x6 x7 x8 x9 x10 x11 (ix2 p (rcol q)) = k0_pay21 (k0_pay1 x0) (k0_pay2 x1) (k0_pay3 x2) (k0_pay4 x3) x4 x5 (k0_pay5 x6) (k0_pay6 x7) (k0_pay7 x8) (k0_pay8 x9) (k0_pay9 x11) (k0_pay10 x0 x1 x2 x3 x6 x7 x8 x9 x10) (ix2 p q) := by
  unfold cellBlock
  simp only [View.ld_unit_zero (S := S64x1024) hz, View.ld_unit_zero (S := S1024x4096) hz, View.ld_unit_zero (S := S1x4096) hz]
  exact two_right _ _ p q

end Cert.KernelIdeal.BlockAt

end
-- ==== Proof.KernelIdealRows.lean ====
/-
  Grid point `t` works on rows `64 t … 64 t + 63` of the batch: `row t p` is row `p` of its block. `args` collects the
  eleven argument arrays of the program on one core.
-/
import proofs.«173032_j43224550867775_2_alg».proof.Proof.Gen.KernelIdeal.Launch
import proofs.«173032_j43224550867775_2_alg».proof.Proof.CellSpec

noncomputable section

namespace Cert.KernelIdeal.Rows

open Idealize.ShloMosaic Idealize.ShloMosaic.TcCoe Idealize.SL.Sem
open Cert.KernelIdeal Cert.KernelIdeal.Gen

/-- The grid has 64 points. -/
theorem point_lt (t : Fin cfg0.N) : t.val < 64 := lt_of_lt_of_eq t.isLt N_0

/-- Row `p` of grid point `t`'s block of rows. -/
def row (t : Fin cfg0.N) (p : Fin 64) : Fin 4096 := ⟨t.val * 64 + p.val, by have := point_lt t; omega⟩

theorem row_val (t : Fin cfg0.N) (p : Fin 64) : (row t p).val = t.val * 64 + p.val := rfl

/-- The eleven argument arrays on core `c`. -/
def args (m : (ℓ : Loc nD τ sig) → Buf (Elt Ideal) ℓ) (c : Dev nD) : Cert.CellSpec.Args :=
  ⟨m ((c.tc : Thread nD τ).loc main_arg0), m ((c.tc : Thread nD τ).loc main_arg1), m ((c.tc : Thread nD τ).loc main_arg2),
   m ((c.tc : Thread nD τ).loc main_arg3), m ((c.tc : Thread nD τ).loc main_arg4), m ((c.tc : Thread nD τ).loc main_arg5),
   m ((c.tc : Thread nD τ).loc main_arg6), m ((c.tc : Thread nD τ).loc main_arg7), m ((c.tc : Thread nD τ).loc main_arg8),
   m ((c.tc : Thread nD τ).loc main_arg9), m ((c.tc : Thread nD τ).loc main_arg10)⟩

end Cert.KernelIdeal.Rows

end
-- ==== Proof.KernelArith.lean ====
/-
  The kernel body's arithmetic, index by index, on the extended reals.

  The body reads twelve blocks — 64 rows of the six activation halves (input, hidden and cell state, real and imaginary
  part each), the four weight matrices stacked as 1024 × 4096 (row: input coordinate; column: gate · 1024 + output), and
  the two stacked bias rows — and writes four: the two halves of the new hidden state and of the new cell state.

  On the extended reals a change of format and a cast of a shape to itself are the identity, a block product into a zero
  accumulator is the sum over the contracted coordinate, and the bias row is added to every row. So the two stacked
  pre-activations at row `p`, stacked column `j` are `zRe` and `zIm` below (four sums of 1024 products, combined from
  the left, plus the bias), a gate's pre-activation is the stacked one at column `col g q`, and the four stored blocks at
  `(p, q)` are the cell's gate arithmetic (`Cert.CellSpec.cellRe` … `hidIm`) on those eight numbers and the old cell
  state there.
-/
import proofs.«173032_j43224550867775_2_alg».proof.Proof.Gen.KernelIdeal.Skeleton
import proofs.«173032_j43224550867775_2_alg».proof.Proof.CellSpec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Arith

open Cert.KernelIdeal Cert.KernelIdeal.Gen Idealize.ShloMosaic Idealize.ShloMosaic.ValueIdx

/-! ## The block product at an index -/

theorem lhs_row (i : S64x4096.Idx) (q : dot_S64x1024_S1024x4096_S64x4096_1_0_0_1_n_n.contr.Idx) :
    (dot_S64x1024_S1024x4096_S64x4096_1_0_0_1_n_n.lhsIdx i q 0).val = (i 0).val := by
  unfold DotDims.lhsIdx
  rw [dif_neg (show ¬(0 : Fin S64x1024.rank) ∈ dot_S64x1024_S1024x4096_S64x4096_1_0_0_1_n_n.lhsBatch by decide), dif_pos (show (0 : Fin S64x1024.rank) ∈ dot_S64x1024_S1024x4096_S64x4096_1_0_0_1_n_n.lhsNonContracting by decide)]
  rfl

theorem lhs_col (i : S64x4096.Idx) (q : dot_S64x1024_S1024x4096_S64x4096_1_0_0_1_n_n.contr.Idx) :
    (dot_S64x1024_S1024x4096_S64x4096_1_0_0_1_n_n.lhsIdx i q 1).val = (q ⟨0, by decide⟩).val :=
  dot_S64x1024_S1024x4096_S64x4096_1_0_0_1_n_n.lhsIdx_val_of_single rfl i q

theorem rhs_row (i : S64x4096.Idx) (q : dot_S64x1024_S1024x4096_S64x4096_1_0_0_1_n_n.contr.Idx) :
    (dot_S64x1024_S1024x4096_S64x4096_1_0_0_1_n_n.rhsIdx i q 0).val = (q ⟨0, by decide⟩).val :=
  dot_S64x1024_S1024x4096_S64x4096_1_0_0_1_n_n.rhsIdx_val_of_single rfl i q

theorem rhs_col (i : S64x4096.Idx) (q : dot_S64x1024_S1024x4096_S64x4096_1_0_0_1_n_n.contr.Idx) :
    (dot_S64x1024_S1024x4096_S64x4096_1_0_0_1_n_n.rhsIdx i q 1).val = (i 1).val := by
  unfold DotDims.rhsIdx
  rw [dif_neg (show ¬(1 : Fin S1024x4096.rank) ∈ dot_S64x1024_S1024x4096_S64x4096_1_0_0_1_n_n.rhsBatch by decide), dif_pos (show (1 : Fin S1024x4096.rank) ∈ dot_S64x1024_S1024x4096_S64x4096_1_0_0_1_n_n.rhsNonContracting by decide)]
  rfl

/-- A 64×1024 block times a 1024×4096 block, accumulated into zero, read at `(p, j)`: the sum over the
    contracted coordinate of the products. -/
theorem matmul_zero_apply (a : FVec Ideal S64x1024 .bf16) (w : FVec Ideal S1024x4096 .bf16) (p : Fin 64) (j : Fin 4096) :
    matmul (F := Ideal) dot_S64x1024_S1024x4096_S64x4096_1_0_0_1_n_n none a w (constant (F := Ideal) S64x4096 .f32 0x00000000#32) (ix2 p j)
      = ∑ k : Fin 1024, a (ix2 p k) * w (ix2 k j) := by
  simp only [matmul]
  rw [Ideal.matmul_constant_zero_apply, ← Equiv.sum_comp (contrEquiv1 dot_S64x1024_S1024x4096_S64x4096_1_0_0_1_n_n 1024 rfl rfl).symm]
  refine Finset.sum_congr rfl fun k _ => ?_
  have hk := contrEquiv1_symm_val dot_S64x1024_S1024x4096_S64x4096_1_0_0_1_n_n 1024 rfl rfl k
  have el : dot_S64x1024_S1024x4096_S64x4096_1_0_0_1_n_n.lhsIdx (ix2 p j) ((contrEquiv1 dot_S64x1024_S1024x4096_S64x4096_1_0_0_1_n_n 1024 rfl rfl).symm k) = ix2 p k := funext fun a => Fin.ext (by
    match a with
    | ⟨0, _⟩ => exact lhs_row _ _
    | ⟨1, _⟩ => exact (lhs_col _ _).trans hk)
  have er : dot_S64x1024_S1024x4096_S64x4096_1_0_0_1_n_n.rhsIdx (ix2 p j) ((contrEquiv1 dot_S64x1024_S1024x4096_S64x4096_1_0_0_1_n_n 1024 rfl rfl).symm k) = ix2 k j := funext fun a => Fin.ext (by
    match a with
    | ⟨0, _⟩ => exact (rhs_row _ _).trans hk
    | ⟨1, _⟩ => exact rhs_col _ _)
  rw [el, er]

/-! ## The two stacked pre-activations at an index -/

/-- Column `q` of gate `g` in the stacked layout: gate-major, 1024 columns per gate. -/
def col (g : Fin 4) (q : Fin 1024) : Fin 4096 := ⟨g.val * 1024 + q.val, by omega⟩

/-- Real part of the stacked pre-activation at row `p`, stacked column `j`:
    `xr·Ar − xi·Ai + hr·Br − hi·Bi + b`, associated to the left. -/
def zRe (x0 x1 x2 x3 : S64x1024.Idx → EReal) (w6 w7 w8 w9 : S1024x4096.Idx → EReal) (b10 : S1x4096.Idx → EReal)
    (p : Fin 64) (j : Fin 4096) : EReal :=
  ((((∑ k : Fin 1024, x0 (ix2 p k) * w6 (ix2 k j)) - (∑ k : Fin 1024, x1 (ix2 p k) * w7 (ix2 k j)))
      + (∑ k : Fin 1024, x2 (ix2 p k) * w8 (ix2 k j))) - (∑ k : Fin 1024, x3 (ix2 p k) * w9 (ix2 k j)))
    + b10 (ix2 0 j)

/-- Imaginary part of the stacked pre-activation: `xr·Ai + xi·Ar + hr·Bi + hi·Br + b`, associated to the left. -/
def zIm (x0 x1 x2 x3 : S64x1024.Idx → EReal) (w6 w7 w8 w9 : S1024x4096.Idx → EReal) (b11 : S1x4096.Idx → EReal)
    (p : Fin 64) (j : Fin 4096) : EReal :=
  ((((∑ k : Fin 1024, x0 (ix2 p k) * w7 (ix2 k j)) + (∑ k : Fin 1024, x1 (ix2 p k) * w6 (ix2 k j)))
      + (∑ k : Fin 1024, x2 (ix2 p k) * w9 (ix2 k j))) + (∑ k : Fin 1024, x3 (ix2 p k) * w8 (ix2 k j)))
    + b11 (ix2 0 j)

/-- Rounding an activation block to the narrower format is the identity on the extended reals. -/
theorem pay1_eq (x : Vec Ideal S64x1024 .f32) : Gen.k0_pay1 (F := Ideal) x = x := rfl
theorem pay2_eq (x : Vec Ideal S64x1024 .f32) : Gen.k0_pay2 (F := Ideal) x = x := rfl
theorem pay3_eq (x : Vec Ideal S64x1024 .f32) : Gen.k0_pay3 (F := Ideal) x = x := rfl
theorem pay4_eq (x : Vec Ideal S64x1024 .f32) : Gen.k0_pay4 (F := Ideal) x = x := rfl

/-- A shape cast of a shape to itself is the identity. -/
theorem pay5_eq (w : Vec Ideal S1024x4096 .bf16) : Gen.k0_pay5 (F := Ideal) w = w := shapeCast_self _ _
theorem pay6_eq (w : Vec Ideal S1024x4096 .bf16) : Gen.k0_pay6 (F := Ideal) w = w := shapeCast_self _ _
theorem pay7_eq (w : Vec Ideal S1024x4096 .bf16) : Gen.k0_pay7 (F := Ideal) w = w := shapeCast_self _ _
theorem pay8_eq (w : Vec Ideal S1024x4096 .bf16) : Gen.k0_pay8 (F := Ideal) w = w := shapeCast_self _ _
theorem pay9_eq (b : Vec Ideal S1x4096 .f32) : Gen.k0_pay9 (F := Ideal) b = b := shapeCast_self _ _

/-- The one-row bias, cast to its own shape and broadcast over the 64 rows, read at `(p, j)`. -/
theorem bias_apply (b : FVec Ideal S1x4096 .f32) (p : Fin 64) (j : Fin 4096) :
    broadcastTo S64x4096 b broadcasts_S1x4096_S64x4096 (ix2 p j) = b (ix2 0 j) :=
  broadcastTo_1b_ab_apply b broadcasts_S1x4096_S64x4096 p j

theorem pay10_apply (x0 x1 x2 x3 : Vec Ideal S64x1024 .f32) (w6 w7 w8 w9 : Vec Ideal S1024x4096 .bf16) (b10 : Vec Ideal S1x4096 .f32) (p : Fin 64) (j : Fin 4096) :
    Gen.k0_pay10 (F := Ideal) x0 x1 x2 x3 w6 w7 w8 w9 b10 (ix2 p j) = zRe x0 x1 x2 x3 w6 w7 w8 w9 b10 p j := by
  unfold Gen.k0_pay10 zRe
  rw [shapeCast_self, pay1_eq, pay2_eq, pay3_eq, pay4_eq, pay5_eq, pay6_eq, pay7_eq, pay8_eq]
  rw [addf_apply, subf_apply, addf_apply, subf_apply, bias_apply,
    matmul_zero_apply, matmul_zero_apply, matmul_zero_apply, matmul_zero_apply]

theorem pay11_raw (v1 v3 v5 v7 : FVec Ideal S64x1024 .bf16) (v11 v13 v15 v17 : FVec Ideal S1024x4096 .bf16)
    (v21 : FVec Ideal S1x4096 .f32) (p : Fin 64) (j : Fin 4096) :
    Gen.k0_pay11 (F := Ideal) v1 v3 v5 v7 v11 v13 v15 v17 v21 (ix2 p j) = zIm v1 v3 v5 v7 v11 v13 v15 v17 v21 p j := by
  unfold Gen.k0_pay11 zIm
  rw [addf_apply, addf_apply, addf_apply, addf_apply, bias_apply,
    matmul_zero_apply, matmul_zero_apply, matmul_zero_apply, matmul_zero_apply]

theorem pay11_apply (x0 x1 x2 x3 : Vec Ideal S64x1024 .f32) (w6 w7 w8 w9 : Vec Ideal S1024x4096 .bf16) (b11 : Vec Ideal S1x4096 .f32) (p : Fin 64) (j : Fin 4096) :
    Gen.k0_pay11 (F := Ideal) (Gen.k0_pay1 x0) (Gen.k0_pay2 x1) (Gen.k0_pay3 x2) (Gen.k0_pay4 x3)
        (Gen.k0_pay5 w6) (Gen.k0_pay6 w7) (Gen.k0_pay7 w8) (Gen.k0_pay8 w9) (Gen.k0_pay9 b11) (ix2 p j)
      = zIm x0 x1 x2 x3 w6 w7 w8 w9 b11 p j := by
  rw [pay1_eq, pay2_eq, pay3_eq, pay4_eq, pay5_eq, pay6_eq, pay7_eq, pay8_eq, pay9_eq]
  exact pay11_raw x0 x1 x2 x3 w6 w7 w8 w9 b11 p j

/-! ## The gates: a column slice of a stacked pre-activation, then the logistic function or tanh -/

/-- The 1024 columns of gate 0 cut out of the 4096 stacked ones, read at `(p, q)`. -/
theorem slice0_apply (z : FVec Ideal S64x4096 .f32) (p : Fin 64) (q : Fin 1024) :
    extractStridedSlice S64x1024 ![0, 0] z slices_S64x4096_o0_0_S64x1024 (ix2 p q) = z (ix2 p (col 0 q)) :=
  slice2_axis1_apply 0 z slices_S64x4096_o0_0_S64x1024 p q (col 0 q) (by show 0 * 1024 + q.val = 0 + q.val; omega)

/-- The 1024 columns of gate 1 cut out of the 4096 stacked ones, read at `(p, q)`. -/
theorem slice1_apply (z : FVec Ideal S64x4096 .f32) (p : Fin 64) (q : Fin 1024) :
    extractStridedSlice S64x1024 ![0, 1024] z slices_S64x4096_o0_1024_S64x1024 (ix2 p q) = z (ix2 p (col 1 q)) :=
  slice2_axis1_apply 1024 z slices_S64x4096_o0_1024_S64x1024 p q (col 1 q) (by show 1 * 1024 + q.val = 1024 + q.val; omega)

/-- The 1024 columns of gate 2 cut out of the 4096 stacked ones, read at `(p, q)`. -/
theorem slice2_apply (z : FVec Ideal S64x4096 .f32) (p : Fin 64) (q : Fin 1024) :
    extractStridedSlice S64x1024 ![0, 2048] z slices_S64x4096_o0_2048_S64x1024 (ix2 p q) = z (ix2 p (col 2 q)) :=
  slice2_axis1_apply 2048 z slices_S64x4096_o0_2048_S64x1024 p q (col 2 q) (by show 2 * 1024 + q.val = 2048 + q.val; omega)

/-- The 1024 columns of gate 3 cut out of the 4096 stacked ones, read at `(p, q)`. -/
theorem slice3_apply (z : FVec Ideal S64x4096 .f32) (p : Fin 64) (q : Fin 1024) :
    extractStridedSlice S64x1024 ![0, 3072] z slices_S64x4096_o0_3072_S64x1024 (ix2 p q) = z (ix2 p (col 3 q)) :=
  slice2_axis1_apply 3072 z slices_S64x4096_o0_3072_S64x1024 p q (col 3 q) (by show 3 * 1024 + q.val = 3072 + q.val; omega)

theorem pay12_apply (v30 : FVec Ideal S64x4096 .f32) (p : Fin 64) (q : Fin 1024) :
    Gen.k0_pay12 (F := Ideal) v30 (ix2 p q) = Ideal.logistic (v30 (ix2 p (col 0 q))) := by
  unfold Gen.k0_pay12
  exact congrArg Ideal.logistic (slice0_apply v30 p q)

theorem pay13_apply (v1 v3 v5 v7 : FVec Ideal S64x1024 .bf16) (v11 v13 v15 v17 : FVec Ideal S1024x4096 .bf16) (v21 : FVec Ideal S1x4096 .f32) (p : Fin 64) (q : Fin 1024) :
    Gen.k0_pay13 (F := Ideal) v1 v3 v5 v7 v11 v13 v15 v17 v21 (ix2 p q) = Ideal.logistic (Gen.k0_pay11 (F := Ideal) v1 v3 v5 v7 v11 v13 v15 v17 v21 (ix2 p (col 0 q))) := by
  unfold Gen.k0_pay13
  exact congrArg Ideal.logistic (slice0_apply _ p q)

theorem pay14_apply (v30 : FVec Ideal S64x4096 .f32) (p : Fin 64) (q : Fin 1024) :
    Gen.k0_pay14 (F := Ideal) v30 (ix2 p q) = Ideal.logistic (v30 (ix2 p (col 1 q))) := by
  unfold Gen.k0_pay14
  exact congrArg Ideal.logistic (slice1_apply v30 p q)

theorem pay15_apply (v1 v3 v5 v7 : FVec Ideal S64x1024 .bf16) (v11 v13 v15 v17 : FVec Ideal S1024x4096 .bf16) (v21 : FVec Ideal S1x4096 .f32) (p : Fin 64) (q : Fin 1024) :
    Gen.k0_pay15 (F := Ideal) v1 v3 v5 v7 v11 v13 v15 v17 v21 (ix2 p q) = Ideal.logistic (Gen.k0_pay11 (F := Ideal) v1 v3 v5 v7 v11 v13 v15 v17 v21 (ix2 p (col 1 q))) := by
  unfold Gen.k0_pay15
  exact congrArg Ideal.logistic (slice1_apply _ p q)

theorem pay16_apply (v30 : FVec Ideal S64x4096 .f32) (p : Fin 64) (q : Fin 1024) :
    Gen.k0_pay16 (F := Ideal) v30 (ix2 p q) = Ideal.tanh (v30 (ix2 p (col 2 q))) := by
  unfold Gen.k0_pay16
  exact congrArg Ideal.tanh (slice2_apply v30 p q)

theorem pay17_apply (v1 v3 v5 v7 : FVec Ideal S64x1024 .bf16) (v11 v13 v15 v17 : FVec Ideal S1024x4096 .bf16) (v21 : FVec Ideal S1x4096 .f32) (p : Fin 64) (q : Fin 1024) :
    Gen.k0_pay17 (F := Ideal) v1 v3 v5 v7 v11 v13 v15 v17 v21 (ix2 p q) = Ideal.tanh (Gen.k0_pay11 (F := Ideal) v1 v3 v5 v7 v11 v13 v15 v17 v21 (ix2 p (col 2 q))) := by
  unfold Gen.k0_pay17
  exact congrArg Ideal.tanh (slice2_apply _ p q)

theorem pay18_apply (v30 : FVec Ideal S64x4096 .f32) (p : Fin 64) (q : Fin 1024) :
    Gen.k0_pay18 (F := Ideal) v30 (ix2 p q) = Ideal.logistic (v30 (ix2 p (col 3 q))) := by
  unfold Gen.k0_pay18
  exact congrArg Ideal.logistic (slice3_apply v30 p q)

theorem pay19_apply (v1 v3 v5 v7 : FVec Ideal S64x1024 .bf16) (v11 v13 v15 v17 : FVec Ideal S1024x4096 .bf16) (v21 : FVec Ideal S1x4096 .f32) (p : Fin 64) (q : Fin 1024) :
    Gen.k0_pay19 (F := Ideal) v1 v3 v5 v7 v11 v13 v15 v17 v21 (ix2 p q) = Ideal.logistic (Gen.k0_pay11 (F := Ideal) v1 v3 v5 v7 v11 v13 v15 v17 v21 (ix2 p (col 3 q))) := by
  unfold Gen.k0_pay19
  exact congrArg Ideal.logistic (slice3_apply _ p q)

/-! ## The cell arithmetic over the gates -/

/-- The new cell state's real part, over any twelve blocks. -/
theorem pay20_raw (v1 v3 v5 v7 : FVec Ideal S64x1024 .bf16) (v8 v9 : Vec Ideal S64x1024 .f32) (v11 v13 v15 v17 : FVec Ideal S1024x4096 .bf16) (v21 : FVec Ideal S1x4096 .f32) (v30 : FVec Ideal S64x4096 .f32) (p : Fin 64) (q : Fin 1024) :
    Gen.k0_pay20 (F := Ideal) v1 v3 v5 v7 v8 v9 v11 v13 v15 v17 v21 v30 (ix2 p q)
      = Cert.CellSpec.cellRe (fun g => v30 (ix2 p (col g q))) (fun g => Gen.k0_pay11 (F := Ideal) v1 v3 v5 v7 v11 v13 v15 v17 v21 (ix2 p (col g q)))
          (v8 (ix2 p q)) (v9 (ix2 p q)) := by
  unfold Gen.k0_pay20 Cert.CellSpec.cellRe
  rw [addf_apply, subf_apply, subf_apply, mulf_apply, mulf_apply, mulf_apply, mulf_apply,
    pay12_apply, pay13_apply, pay14_apply, pay15_apply, pay16_apply, pay17_apply]

/-- The new cell state's imaginary part. -/
theorem pay21_raw (v1 v3 v5 v7 : FVec Ideal S64x1024 .bf16) (v8 v9 : Vec Ideal S64x1024 .f32) (v11 v13 v15 v17 : FVec Ideal S1024x4096 .bf16) (v21 : FVec Ideal S1x4096 .f32) (v30 : FVec Ideal S64x4096 .f32) (p : Fin 64) (q : Fin 1024) :
    Gen.k0_pay21 (F := Ideal) v1 v3 v5 v7 v8 v9 v11 v13 v15 v17 v21 v30 (ix2 p q)
      = Cert.CellSpec.cellIm (fun g => v30 (ix2 p (col g q))) (fun g => Gen.k0_pay11 (F := Ideal) v1 v3 v5 v7 v11 v13 v15 v17 v21 (ix2 p (col g q)))
          (v8 (ix2 p q)) (v9 (ix2 p q)) := by
  unfold Gen.k0_pay21 Cert.CellSpec.cellIm
  rw [addf_apply, addf_apply, addf_apply, mulf_apply, mulf_apply, mulf_apply, mulf_apply,
    pay12_apply, pay13_apply, pay14_apply, pay15_apply, pay16_apply, pay17_apply]

theorem pay22_raw (v1 v3 v5 v7 : FVec Ideal S64x1024 .bf16) (v8 v9 : Vec Ideal S64x1024 .f32) (v11 v13 v15 v17 : FVec Ideal S1024x4096 .bf16) (v21 : FVec Ideal S1x4096 .f32) (v30 : FVec Ideal S64x4096 .f32) (p : Fin 64) (q : Fin 1024) :
    Gen.k0_pay22 (F := Ideal) v1 v3 v5 v7 v8 v9 v11 v13 v15 v17 v21 v30 (ix2 p q)
      = Ideal.tanh (Cert.CellSpec.cellRe (fun g => v30 (ix2 p (col g q))) (fun g => Gen.k0_pay11 (F := Ideal) v1 v3 v5 v7 v11 v13 v15 v17 v21 (ix2 p (col g q)))
          (v8 (ix2 p q)) (v9 (ix2 p q))) := by
  unfold Gen.k0_pay22
  exact congrArg Ideal.tanh (pay20_raw v1 v3 v5 v7 v8 v9 v11 v13 v15 v17 v21 v30 p q)

theorem pay23_raw (v1 v3 v5 v7 : FVec Ideal S64x1024 .bf16) (v8 v9 : Vec Ideal S64x1024 .f32) (v11 v13 v15 v17 : FVec Ideal S1024x4096 .bf16) (v21 : FVec Ideal S1x4096 .f32) (v30 : FVec Ideal S64x4096 .f32) (p : Fin 64) (q : Fin 1024) :
    Gen.k0_pay23 (F := Ideal) v1 v3 v5 v7 v8 v9 v11 v13 v15 v17 v21 v30 (ix2 p q)
      = Ideal.tanh (Cert.CellSpec.cellIm (fun g => v30 (ix2 p (col g q))) (fun g => Gen.k0_pay11 (F := Ideal) v1 v3 v5 v7 v11 v13 v15 v17 v21 (ix2 p (col g q)))
          (v8 (ix2 p q)) (v9 (ix2 p q))) := by
  unfold Gen.k0_pay23
  exact congrArg Ideal.tanh (pay21_raw v1 v3 v5 v7 v8 v9 v11 v13 v15 v17 v21 v30 p q)

/-- The new hidden state's real part. -/
theorem pay24_raw (v1 v3 v5 v7 : FVec Ideal S64x1024 .bf16) (v8 v9 : Vec Ideal S64x1024 .f32) (v11 v13 v15 v17 : FVec Ideal S1024x4096 .bf16) (v21 : FVec Ideal S1x4096 .f32) (v30 : FVec Ideal S64x4096 .f32) (p : Fin 64) (q : Fin 1024) :
    Gen.k0_pay24 (F := Ideal) v1 v3 v5 v7 v8 v9 v11 v13 v15 v17 v21 v30 (ix2 p q)
      = Cert.CellSpec.hidRe (fun g => v30 (ix2 p (col g q))) (fun g => Gen.k0_pay11 (F := Ideal) v1 v3 v5 v7 v11 v13 v15 v17 v21 (ix2 p (col g q)))
          (v8 (ix2 p q)) (v9 (ix2 p q)) := by
  unfold Gen.k0_pay24 Cert.CellSpec.hidRe
  rw [subf_apply, mulf_apply, mulf_apply, pay18_apply, pay19_apply, pay22_raw, pay23_raw]

/-- The new hidden state's imaginary part. -/
theorem pay25_raw (v1 v3 v5 v7 : FVec Ideal S64x1024 .bf16) (v8 v9 : Vec Ideal S64x1024 .f32) (v11 v13 v15 v17 : FVec Ideal S1024x4096 .bf16) (v21 : FVec Ideal S1x4096 .f32) (v30 : FVec Ideal S64x4096 .f32) (p : Fin 64) (q : Fin 1024) :
    Gen.k0_pay25 (F := Ideal) v1 v3 v5 v7 v8 v9 v11 v13 v15 v17 v21 v30 (ix2 p q)
      = Cert.CellSpec.hidIm (fun g => v30 (ix2 p (col g q))) (fun g => Gen.k0_pay11 (F := Ideal) v1 v3 v5 v7 v11 v13 v15 v17 v21 (ix2 p (col g q)))
          (v8 (ix2 p q)) (v9 (ix2 p q)) := by
  unfold Gen.k0_pay25 Cert.CellSpec.hidIm
  rw [addf_apply, mulf_apply, mulf_apply, pay18_apply, pay19_apply, pay22_raw, pay23_raw]

/-! ## The four stored blocks, from the twelve loaded ones -/

/-- The real pre-activations of the four gates at `(p, q)`, as the stacked real pre-activation read there. -/
theorem gatesRe_eq (x0 x1 x2 x3 : Vec Ideal S64x1024 .f32) (w6 w7 w8 w9 : Vec Ideal S1024x4096 .bf16) (b10 : Vec Ideal S1x4096 .f32) (p : Fin 64) (q : Fin 1024) :
    (fun g : Fin 4 => Gen.k0_pay10 (F := Ideal) x0 x1 x2 x3 w6 w7 w8 w9 b10 (ix2 p (col g q)))
      = fun g => zRe x0 x1 x2 x3 w6 w7 w8 w9 b10 p (col g q) :=
  funext fun g => pay10_apply x0 x1 x2 x3 w6 w7 w8 w9 b10 p (col g q)

/-- The imaginary pre-activations of the four gates at `(p, q)`. -/
theorem gatesIm_eq (x0 x1 x2 x3 : Vec Ideal S64x1024 .f32) (w6 w7 w8 w9 : Vec Ideal S1024x4096 .bf16) (b11 : Vec Ideal S1x4096 .f32) (p : Fin 64) (q : Fin 1024) :
    (fun g : Fin 4 => Gen.k0_pay11 (F := Ideal) (Gen.k0_pay1 x0) (Gen.k0_pay2 x1) (Gen.k0_pay3 x2) (Gen.k0_pay4 x3)
        (Gen.k0_pay5 w6) (Gen.k0_pay6 w7) (Gen.k0_pay7 w8) (Gen.k0_pay8 w9) (Gen.k0_pay9 b11) (ix2 p (col g q)))
      = fun g => zIm x0 x1 x2 x3 w6 w7 w8 w9 b11 p (col g q) :=
  funext fun g => pay11_apply x0 x1 x2 x3 w6 w7 w8 w9 b11 p (col g q)

/-- The stored new hidden state, real half, at `(p, q)`: the cell's arithmetic on the eight pre-activations and the old cell state there. -/
theorem pay24_apply (x0 x1 x2 x3 : Vec Ideal S64x1024 .f32) (x4 x5 : Vec Ideal S64x1024 .f32) (w6 w7 w8 w9 : Vec Ideal S1024x4096 .bf16) (b10 b11 : Vec Ideal S1x4096 .f32) (p : Fin 64) (q : Fin 1024) :
    Gen.k0_pay24 (F := Ideal) (Gen.k0_pay1 x0) (Gen.k0_pay2 x1) (Gen.k0_pay3 x2) (Gen.k0_pay4 x3) x4 x5 (Gen.k0_pay5 w6) (Gen.k0_pay6 w7) (Gen.k0_pay7 w8) (Gen.k0_pay8 w9) (Gen.k0_pay9 b11) (Gen.k0_pay10 x0 x1 x2 x3 w6 w7 w8 w9 b10) (ix2 p q)
      = Cert.CellSpec.hidRe (fun g => zRe x0 x1 x2 x3 w6 w7 w8 w9 b10 p (col g q)) (fun g => zIm x0 x1 x2 x3 w6 w7 w8 w9 b11 p (col g q)) (x4 (ix2 p q)) (x5 (ix2 p q)) := by
  rw [pay24_raw, gatesRe_eq, gatesIm_eq]

/-- The stored new hidden state, imaginary half, at `(p, q)`: the cell's arithmetic on the eight pre-activations and the old cell state there. -/
theorem pay25_apply (x0 x1 x2 x3 : Vec Ideal S64x1024 .f32) (x4 x5 : Vec Ideal S64x1024 .f32) (w6 w7 w8 w9 : Vec Ideal S1024x4096 .bf16) (b10 b11 : Vec Ideal S1x4096 .f32) (p : Fin 64) (q : Fin 1024) :
    Gen.k0_pay25 (F := Ideal) (Gen.k0_pay1 x0) (Gen.k0_pay2 x1) (Gen.k0_pay3 x2) (Gen.k0_pay4 x3) x4 x5 (Gen.k0_pay5 w6) (Gen.k0_pay6 w7) (Gen.k0_pay7 w8) (Gen.k0_pay8 w9) (Gen.k0_pay9 b11) (Gen.k0_pay10 x0 x1 x2 x3 w6 w7 w8 w9 b10) (ix2 p q)
      = Cert.CellSpec.hidIm (fun g => zRe x0 x1 x2 x3 w6 w7 w8 w9 b10 p (col g q)) (fun g => zIm x0 x1 x2 x3 w6 w7 w8 w9 b11 p (col g q)) (x4 (ix2 p q)) (x5 (ix2 p q)) := by
  rw [pay25_raw, gatesRe_eq, gatesIm_eq]

/-- The stored new cell state, real half, at `(p, q)`: the cell's arithmetic on the eight pre-activations and the old cell state there. -/
theorem pay20_apply (x0 x1 x2 x3 : Vec Ideal S64x1024 .f32) (x4 x5 : Vec Ideal S64x1024 .f32) (w6 w7 w8 w9 : Vec Ideal S1024x4096 .bf16) (b10 b11 : Vec Ideal S1x4096 .f32) (p : Fin 64) (q : Fin 1024) :
    Gen.k0_pay20 (F := Ideal) (Gen.k0_pay1 x0) (Gen.k0_pay2 x1) (Gen.k0_pay3 x2) (Gen.k0_pay4 x3) x4 x5 (Gen.k0_pay5 w6) (Gen.k0_pay6 w7) (Gen.k0_pay7 w8) (Gen.k0_pay8 w9) (Gen.k0_pay9 b11) (Gen.k0_pay10 x0 x1 x2 x3 w6 w7 w8 w9 b10) (ix2 p q)
      = Cert.CellSpec.cellRe (fun g => zRe x0 x1 x2 x3 w6 w7 w8 w9 b10 p (col g q)) (fun g => zIm x0 x1 x2 x3 w6 w7 w8 w9 b11 p (col g q)) (x4 (ix2 p q)) (x5 (ix2 p q)) := by
  rw [pay20_raw, gatesRe_eq, gatesIm_eq]

/-- The stored new cell state, imaginary half, at `(p, q)`: the cell's arithmetic on the eight pre-activations and the old cell state there. -/
theorem pay21_apply (x0 x1 x2 x3 : Vec Ideal S64x1024 .f32) (x4 x5 : Vec Ideal S64x1024 .f32) (w6 w7 w8 w9 : Vec Ideal S1024x4096 .bf16) (b10 b11 : Vec Ideal S1x4096 .f32) (p : Fin 64) (q : Fin 1024) :
    Gen.k0_pay21 (F := Ideal) (Gen.k0_pay1 x0) (Gen.k0_pay2 x1) (Gen.k0_pay3 x2) (Gen.k0_pay4 x3) x4 x5 (Gen.k0_pay5 w6) (Gen.k0_pay6 w7) (Gen.k0_pay7 w8) (Gen.k0_pay8 w9) (Gen.k0_pay9 b11) (Gen.k0_pay10 x0 x1 x2 x3 w6 w7 w8 w9 b10) (ix2 p q)
      = Cert.CellSpec.cellIm (fun g => zRe x0 x1 x2 x3 w6 w7 w8 w9 b10 p (col g q)) (fun g => zIm x0 x1 x2 x3 w6 w7 w8 w9 b11 p (col g q)) (x4 (ix2 p q)) (x5 (ix2 p q)) := by
  rw [pay21_raw, gatesRe_eq, gatesIm_eq]

end Cert.KernelIdeal.Arith

end
-- ==== Proof.KernelHostPrefix.lean ====
/-
  The arrays the sixteen host operations write before the kernel is launched, read at an index on the extended reals.

  Each of the four weight arrays `(gate, output, input)` is transposed to `(input, gate, output)`, flattened to
  `input × (gate · 1024 + output)` and narrowed (the identity on the extended reals): the stacked array at `(k, j)` is the
  weight array at `(j / 1024, j % 1024, k)`. The two bias pairs `(gate, output)` are added and flattened to one row of
  4096: the row at `j` is the sum of the pair at `(j / 1024, j % 1024)`. A flattening keeps the row-major position, which
  is all the arithmetic there is.
-/
import proofs.«173032_j43224550867775_2_alg».proof.Proof.Gen.KernelIdeal.Launch
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.HostPrefix

open Cert.KernelIdeal Cert.KernelIdeal.Gen Idealize.ShloMosaic Idealize.ShloMosaic.TcCoe Idealize.ShloMosaic.ValueIdx
open Idealize.SL.Sem

/-! ## The stacked weight and bias terms, read at an index -/

/-- A weight array `(gate, output, input)` with the input coordinate moved to the front, flattened to
    `input × (gate · 1024 + output)` and narrowed: at `(k, j)` it is the array at `(j / 1024, j % 1024, k)`. -/
theorem stackedWeight_apply (A : S4x1024x1024.Idx → EReal) (k : Fin 1024) (j : Fin 4096) :
    (truncf (F := Ideal) .bf16 (fun i => shapeCast S1024x4096 (transpose S1024x4x1024 [2, 0, 1] A transposes_S4x1024x1024_S1024x4x1024_2_0_1) shapeCasts_S1024x4x1024_S1024x4096 i) bitsLt_bf16_f32
        : S1024x4096.Idx → EReal) (ix2 k j)
      = A (ix3 ⟨j.val / 1024, by omega⟩ ⟨j.val % 1024, by omega⟩ k) := by
  show shapeCast S1024x4096 (transpose S1024x4x1024 [2, 0, 1] A transposes_S4x1024x1024_S1024x4x1024_2_0_1) shapeCasts_S1024x4x1024_S1024x4096 (ix2 k j) = _
  refine (shapeCast_apply _ shapeCasts_S1024x4x1024_S1024x4096 (ix2 k j) (ix3 k ⟨j.val / 1024, by omega⟩ ⟨j.val % 1024, by omega⟩) (by
    rw [Shape.rowMajor_val_three, Shape.rowMajor_val_two]
    show (k.val * 4 + j.val / 1024) * 1024 + j.val % 1024 = k.val * 4096 + j.val
    omega)).trans ?_
  exact transpose_apply [2, 0, 1] A transposes_S4x1024x1024_S1024x4x1024_2_0_1 (ix3 k ⟨j.val / 1024, by omega⟩ ⟨j.val % 1024, by omega⟩)
    (ix3 ⟨j.val / 1024, by omega⟩ ⟨j.val % 1024, by omega⟩ k) (fun b => match b with | ⟨0, _⟩ => rfl | ⟨1, _⟩ => rfl | ⟨2, _⟩ => rfl)

/-- Two bias arrays `(gate, output)` added and flattened to one row: at `(0, j)` the sum of the two at `(j / 1024, j % 1024)`. -/
theorem stackedBias_apply (B C : S4x1024.Idx → EReal) (j : Fin 4096) :
    ((fun i => shapeCast S1x4096 (addf (F := Ideal) (φ := .f32) B C) shapeCasts_S4x1024_S1x4096 i) : S1x4096.Idx → EReal) (ix2 0 j)
      = B (ix2 ⟨j.val / 1024, by omega⟩ ⟨j.val % 1024, by omega⟩) + C (ix2 ⟨j.val / 1024, by omega⟩ ⟨j.val % 1024, by omega⟩) := by
  show shapeCast S1x4096 (addf (F := Ideal) (φ := .f32) B C) shapeCasts_S4x1024_S1x4096 (ix2 0 j) = _
  exact shapeCast_apply _ shapeCasts_S4x1024_S1x4096 (ix2 0 j) (ix2 ⟨j.val / 1024, by omega⟩ ⟨j.val % 1024, by omega⟩) (by
    rw [Shape.rowMajor_val_two, Shape.rowMajor_val_two]
    show j.val / 1024 * 1024 + j.val % 1024 = 0 * 4096 + j.val
    omega)

/-! ## What the region finds in the six arrays the host operations wrote -/

variable (m : (ℓ : Loc nD τ sig) → Buf (Elt Ideal) ℓ)

/-- Core `c`'s buffers after the sixteen host operations, from the launch contents `m`. -/
abbrev Vc (c : Dev nD) (b : Ref sig .tc) : Buf (Elt Ideal) ((c : Thread nD τ).loc b) :=
  StableHlo.after (Gen.hostOps0 (F := Ideal)) (fun b => m (c, b)) b

theorem weight_v2 (c : Dev nD) (k : Fin 1024) (j : Fin 4096) :
    (Vc m c main_v2 : S1024x4096.Idx → EReal) (ix2 k j)
      = (m ((c : Thread nD τ).loc main_arg3) : S4x1024x1024.Idx → EReal) (ix3 ⟨j.val / 1024, by omega⟩ ⟨j.val % 1024, by omega⟩ k) := by
  have e : (Vc m c main_v2 : S1024x4096.Idx → EReal)
      = truncf (F := Ideal) .bf16 (fun i => shapeCast S1024x4096 (transpose S1024x4x1024 [2, 0, 1]
          (m ((c : Thread nD τ).loc main_arg3) : S4x1024x1024.Idx → EReal) transposes_S4x1024x1024_S1024x4x1024_2_0_1) shapeCasts_S1024x4x1024_S1024x4096 i) bitsLt_bf16_f32 := by
    dsimp only [Vc, Gen.hostOps0]; after_results; rfl
  rw [e]
  exact stackedWeight_apply _ k j

theorem weight_v5 (c : Dev nD) (k : Fin 1024) (j : Fin 4096) :
    (Vc m c main_v5 : S1024x4096.Idx → EReal) (ix2 k j)
      = (m ((c : Thread nD τ).loc main_arg4) : S4x1024x1024.Idx → EReal) (ix3 ⟨j.val / 1024, by omega⟩ ⟨j.val % 1024, by omega⟩ k) := by
  have e : (Vc m c main_v5 : S1024x4096.Idx → EReal)
      = truncf (F := Ideal) .bf16 (fun i => shapeCast S1024x4096 (transpose S1024x4x1024 [2, 0, 1]
          (m ((c : Thread nD τ).loc main_arg4) : S4x1024x1024.Idx → EReal) transposes_S4x1024x1024_S1024x4x1024_2_0_1) shapeCasts_S1024x4x1024_S1024x4096 i) bitsLt_bf16_f32 := by
    dsimp only [Vc, Gen.hostOps0]; after_results; rfl
  rw [e]
  exact stackedWeight_apply _ k j

theorem weight_v8 (c : Dev nD) (k : Fin 1024) (j : Fin 4096) :
    (Vc m c main_v8 : S1024x4096.Idx → EReal) (ix2 k j)
      = (m ((c : Thread nD τ).loc main_arg7) : S4x1024x1024.Idx → EReal) (ix3 ⟨j.val / 1024, by omega⟩ ⟨j.val % 1024, by omega⟩ k) := by
  have e : (Vc m c main_v8 : S1024x4096.Idx → EReal)
      = truncf (F := Ideal) .bf16 (fun i => shapeCast S1024x4096 (transpose S1024x4x1024 [2, 0, 1]
          (m ((c : Thread nD τ).loc main_arg7) : S4x1024x1024.Idx → EReal) transposes_S4x1024x1024_S1024x4x1024_2_0_1) shapeCasts_S1024x4x1024_S1024x4096 i) bitsLt_bf16_f32 := by
    dsimp only [Vc, Gen.hostOps0]; after_results; rfl
  rw [e]
  exact stackedWeight_apply _ k j

theorem weight_v11 (c : Dev nD) (k : Fin 1024) (j : Fin 4096) :
    (Vc m c main_v11 : S1024x4096.Idx → EReal) (ix2 k j)
      = (m ((c : Thread nD τ).loc main_arg8) : S4x1024x1024.Idx → EReal) (ix3 ⟨j.val / 1024, by omega⟩ ⟨j.val % 1024, by omega⟩ k) := by
  have e : (Vc m c main_v11 : S1024x4096.Idx → EReal)
      = truncf (F := Ideal) .bf16 (fun i => shapeCast S1024x4096 (transpose S1024x4x1024 [2, 0, 1]
          (m ((c : Thread nD τ).loc main_arg8) : S4x1024x1024.Idx → EReal) transposes_S4x1024x1024_S1024x4x1024_2_0_1) shapeCasts_S1024x4x1024_S1024x4096 i) bitsLt_bf16_f32 := by
    dsimp only [Vc, Gen.hostOps0]; after_results; rfl
  rw [e]
  exact stackedWeight_apply _ k j

theorem bias_v13 (c : Dev nD) (j : Fin 4096) :
    (Vc m c main_v13 : S1x4096.Idx → EReal) (ix2 0 j)
      = HAdd.hAdd (α := EReal) (β := EReal) (γ := EReal)
          ((m ((c : Thread nD τ).loc main_arg5) : S4x1024.Idx → EReal) (ix2 ⟨j.val / 1024, by omega⟩ ⟨j.val % 1024, by omega⟩))
          ((m ((c : Thread nD τ).loc main_arg9) : S4x1024.Idx → EReal) (ix2 ⟨j.val / 1024, by omega⟩ ⟨j.val % 1024, by omega⟩)) := by
  have e : (Vc m c main_v13 : S1x4096.Idx → EReal)
      = fun i => shapeCast S1x4096 (addf (F := Ideal) (φ := .f32) (m ((c : Thread nD τ).loc main_arg5) : S4x1024.Idx → EReal)
          (m ((c : Thread nD τ).loc main_arg9) : S4x1024.Idx → EReal)) shapeCasts_S4x1024_S1x4096 i := by
    dsimp only [Vc, Gen.hostOps0]; after_results; rfl
  rw [e]
  exact stackedBias_apply _ _ j

theorem bias_v15 (c : Dev nD) (j : Fin 4096) :
    (Vc m c main_v15 : S1x4096.Idx → EReal) (ix2 0 j)
      = HAdd.hAdd (α := EReal) (β := EReal) (γ := EReal)
          ((m ((c : Thread nD τ).loc main_arg6) : S4x1024.Idx → EReal) (ix2 ⟨j.val / 1024, by omega⟩ ⟨j.val % 1024, by omega⟩))
          ((m ((c : Thread nD τ).loc main_arg10) : S4x1024.Idx → EReal) (ix2 ⟨j.val / 1024, by omega⟩ ⟨j.val % 1024, by omega⟩)) := by
  have e : (Vc m c main_v15 : S1x4096.Idx → EReal)
      = fun i => shapeCast S1x4096 (addf (F := Ideal) (φ := .f32) (m ((c : Thread nD τ).loc main_arg6) : S4x1024.Idx → EReal)
          (m ((c : Thread nD τ).loc main_arg10) : S4x1024.Idx → EReal)) shapeCasts_S4x1024_S1x4096 i := by
    dsimp only [Vc, Gen.hostOps0]; after_results; rfl
  rw [e]
  exact stackedBias_apply _ _ j

end Cert.KernelIdeal.HostPrefix

end
-- ==== Proof.KernelIdealInputs.lean ====
/-
  The twelve input blocks of a grid point, read at an index, and the stacked pre-activations joined to the specification.

  Grid point `t` works on rows `64 t … 64 t + 63`. Its six activation blocks are those rows of the real half (columns
  0 … 1023) and of the imaginary half (columns 1024 … 2047) of the input, the hidden state and the cell state; its four
  weight blocks and two bias blocks are the whole stacked arrays the host operations wrote, whose entry at stacked column
  `gate · 1024 + output` is the weight at `(gate, output, input)`, respectively the sum of the two biases at
  `(gate, output)`. A block's element sits in its array at block index × block size + the coordinate inside the block; the
  block indices are decided once over the 64 points.

  With those reads under the four sums, the kernel's stacked pre-activation at row `p`, stacked column `col g q` is
  the specification's pre-activation of row `64 t + p`, gate `g`, output `q` in its flat grouping, hence in the
  grouping by projection.
-/
import proofs.«173032_j43224550867775_2_alg».proof.Proof.KernelIdealEntry
import proofs.«173032_j43224550867775_2_alg».proof.Proof.KernelIdealRows
import proofs.«173032_j43224550867775_2_alg».proof.Proof.KernelArith
import proofs.«173032_j43224550867775_2_alg».proof.Proof.KernelHostPrefix
import proofs.«173032_j43224550867775_2_alg».proof.Proof.CellSpec
import Idealize.ShloMosaic.Lib.Pipeline.Value
import Idealize.ShloMosaic.Lib.ValueIdx

set_option maxRecDepth 16384

noncomputable section

open scoped BigOperators

namespace Cert.KernelIdeal.Inputs

open Idealize.ShloMosaic Idealize.ShloMosaic.TcCoe Idealize.ShloMosaic.ValueIdx Idealize.SL.Sem
open Cert.KernelIdeal Cert.KernelIdeal.Gen Cert.KernelIdeal.Entry Cert.KernelIdeal.Rows Cert.KernelIdeal.Arith Cert.CellSpec

/-! ## The index maps, decided over the 64 grid points -/

/-- Activation windows: block row `t`; the real half is block column 0, the imaginary half block column 1. -/
theorem idx_act : ∀ t : Fin cfg0.N,
    (win0_0.index t (0 : Fin 2) = t.val ∧ win0_0.index t (1 : Fin 2) = 0)
    ∧ (win0_1.index t (0 : Fin 2) = t.val ∧ win0_1.index t (1 : Fin 2) = 1)
    ∧ (win0_2.index t (0 : Fin 2) = t.val ∧ win0_2.index t (1 : Fin 2) = 0)
    ∧ (win0_3.index t (0 : Fin 2) = t.val ∧ win0_3.index t (1 : Fin 2) = 1)
    ∧ (win0_4.index t (0 : Fin 2) = t.val ∧ win0_4.index t (1 : Fin 2) = 0)
    ∧ (win0_5.index t (0 : Fin 2) = t.val ∧ win0_5.index t (1 : Fin 2) = 1) :=
  (by decide +kernel : ∀ t : Fin grid0.N, _)

/-- Weight and bias windows: the one block, at every point. -/
theorem idx_whole : ∀ t : Fin cfg0.N,
    (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0) :=
  (by decide +kernel : ∀ t : Fin grid0.N, _)

/-! ## Where a block's element sits in its array -/

theorem emb0 (t : Fin cfg0.N) (p : Fin 64) (k : Fin 1024) :
    (((cfg0.win 0).blk t).view.emb (ix2 p k) : S4096x2048.Idx) = ix2 (row t p) (reCol k) := by
  obtain ⟨⟨e0, e1⟩, _, _, _, _, _⟩ := idx_act t
  funext a; apply Fin.ext
  match a with
  | ⟨0, _⟩ => show win0_0.index t (0 : Fin 2) * 64 + 1 * p.val = t.val * 64 + p.val; omega
  | ⟨1, _⟩ => show win0_0.index t (1 : Fin 2) * 1024 + 1 * k.val = k.val; omega

theorem emb1 (t : Fin cfg0.N) (p : Fin 64) (k : Fin 1024) :
    (((cfg0.win 1).blk t).view.emb (ix2 p k) : S4096x2048.Idx) = ix2 (row t p) (imCol k) := by
  obtain ⟨_, ⟨e0, e1⟩, _, _, _, _⟩ := idx_act t
  funext a; apply Fin.ext
  match a with
  | ⟨0, _⟩ => show win0_1.index t (0 : Fin 2) * 64 + 1 * p.val = t.val * 64 + p.val; omega
  | ⟨1, _⟩ => show win0_1.index t (1 : Fin 2) * 1024 + 1 * k.val = k.val + 1024; omega

theorem emb2 (t : Fin cfg0.N) (p : Fin 64) (k : Fin 1024) :
    (((cfg0.win 2).blk t).view.emb (ix2 p k) : S4096x2048.Idx) = ix2 (row t p) (reCol k) := by
  obtain ⟨_, _, ⟨e0, e1⟩, _, _, _⟩ := idx_act t
  funext a; apply Fin.ext
  match a with
  | ⟨0, _⟩ => show win0_2.index t (0 : Fin 2) * 64 + 1 * p.val = t.val * 64 + p.val; omega
  | ⟨1, _⟩ => show win0_2.index t (1 : Fin 2) * 1024 + 1 * k.val = k.val; omega

theorem emb3 (t : Fin cfg0.N) (p : Fin 64) (k : Fin 1024) :
    (((cfg0.win 3).blk t).view.emb (ix2 p k) : S4096x2048.Idx) = ix2 (row t p) (imCol k) := by
  obtain ⟨_, _, _, ⟨e0, e1⟩, _, _⟩ := idx_act t
  funext a; apply Fin.ext
  match a with
  | ⟨0, _⟩ => show win0_3.index t (0 : Fin 2) * 64 + 1 * p.val = t.val * 64 + p.val; omega
  | ⟨1, _⟩ => show win0_3.index t (1 : Fin 2) * 1024 + 1 * k.val = k.val + 1024; omega

theorem emb4 (t : Fin cfg0.N) (p : Fin 64) (k : Fin 1024) :
    (((cfg0.win 4).blk t).view.emb (ix2 p k) : S4096x2048.Idx) = ix2 (row t p) (reCol k) := by
  obtain ⟨_, _, _, _, ⟨e0, e1⟩, _⟩ := idx_act t
  funext a; apply Fin.ext
  match a with
  | ⟨0, _⟩ => show win0_4.index t (0 : Fin 2) * 64 + 1 * p.val = t.val * 64 + p.val; omega
  | ⟨1, _⟩ => show win0_4.index t (1 : Fin 2) * 1024 + 1 * k.val = k.val; omega

theorem emb5 (t : Fin cfg0.N) (p : Fin 64) (k : Fin 1024) :
    (((cfg0.win 5).blk t).view.emb (ix2 p k) : S4096x2048.Idx) = ix2 (row t p) (imCol k) := by
  obtain ⟨_, _, _, _, _, ⟨e0, e1⟩⟩ := idx_act t
  funext a; apply Fin.ext
  match a with
  | ⟨0, _⟩ => show win0_5.index t (0 : Fin 2) * 64 + 1 * p.val = t.val * 64 + p.val; omega
  | ⟨1, _⟩ => show win0_5.index t (1 : Fin 2) * 1024 + 1 * k.val = k.val + 1024; omega

theorem emb6 (t : Fin cfg0.N) (k : Fin 1024) (j : Fin 4096) :
    (((cfg0.win 6).blk t).view.emb (ix2 k j) : S1024x4096.Idx) = ix2 k j := by
  obtain ⟨⟨e0, e1⟩, _, _, _, _, _⟩ := idx_whole t
  funext a; apply Fin.ext
  match a with
  | ⟨0, _⟩ => show win0_6.index t (0 : Fin 2) * 1024 + 1 * k.val = k.val; omega
  | ⟨1, _⟩ => show win0_6.index t (1 : Fin 2) * 4096 + 1 * j.val = j.val; omega

theorem emb7 (t : Fin cfg0.N) (k : Fin 1024) (j : Fin 4096) :
    (((cfg0.win 7).blk t).view.emb (ix2 k j) : S1024x4096.Idx) = ix2 k j := by
  obtain ⟨_, ⟨e0, e1⟩, _, _, _, _⟩ := idx_whole t
  funext a; apply Fin.ext
  match a with
  | ⟨0, _⟩ => show win0_7.index t (0 : Fin 2) * 1024 + 1 * k.val = k.val; omega
  | ⟨1, _⟩ => show win0_7.index t (1 : Fin 2) * 4096 + 1 * j.val = j.val; omega

theorem emb8 (t : Fin cfg0.N) (k : Fin 1024) (j : Fin 4096) :
    (((cfg0.win 8).blk t).view.emb (ix2 k j) : S1024x4096.Idx) = ix2 k j := by
  obtain ⟨_, _, ⟨e0, e1⟩, _, _, _⟩ := idx_whole t
  funext a; apply Fin.ext
  match a with
  | ⟨0, _⟩ => show win0_8.index t (0 : Fin 2) * 1024 + 1 * k.val = k.val; omega
  | ⟨1, _⟩ => show win0_8.index t (1 : Fin 2) * 4096 + 1 * j.val = j.val; omega

theorem emb9 (t : Fin cfg0.N) (k : Fin 1024) (j : Fin 4096) :
    (((cfg0.win 9).blk t).view.emb (ix2 k j) : S1024x4096.Idx) = ix2 k j := by
  obtain ⟨_, _, _, ⟨e0, e1⟩, _, _⟩ := idx_whole t
  funext a; apply Fin.ext
  match a with
  | ⟨0, _⟩ => show win0_9.index t (0 : Fin 2) * 1024 + 1 * k.val = k.val; omega
  | ⟨1, _⟩ => show win0_9.index t (1 : Fin 2) * 4096 + 1 * j.val = j.val; omega

theorem emb10 (t : Fin cfg0.N) (j : Fin 4096) :
    (((cfg0.win 10).blk t).view.emb (ix2 (0 : Fin 1) j) : S1x4096.Idx) = ix2 0 j := by
  obtain ⟨_, _, _, _, ⟨e0, e1⟩, _⟩ := idx_whole t
  funext a; apply Fin.ext
  match a with
  | ⟨0, _⟩ => show win0_10.index t (0 : Fin 2) * 1 + 1 * 0 = 0; omega
  | ⟨1, _⟩ => show win0_10.index t (1 : Fin 2) * 4096 + 1 * j.val = j.val; omega

theorem emb11 (t : Fin cfg0.N) (j : Fin 4096) :
    (((cfg0.win 11).blk t).view.emb (ix2 (0 : Fin 1) j) : S1x4096.Idx) = ix2 0 j := by
  obtain ⟨_, _, _, _, _, ⟨e0, e1⟩⟩ := idx_whole t
  funext a; apply Fin.ext
  match a with
  | ⟨0, _⟩ => show win0_11.index t (0 : Fin 2) * 1 + 1 * 0 = 0; omega
  | ⟨1, _⟩ => show win0_11.index t (1 : Fin 2) * 4096 + 1 * j.val = j.val; omega

/-- Stacked column `col g q` splits back into gate and output. -/
theorem col_div (g : Fin 4) (q : Fin 1024) (h : (col g q).val / 1024 < 4) : (⟨(col g q).val / 1024, h⟩ : Fin 4) = g :=
  Fin.ext (by show (g.val * 1024 + q.val) / 1024 = g.val; omega)
theorem col_mod (g : Fin 4) (q : Fin 1024) (h : (col g q).val % 1024 < 1024) : (⟨(col g q).val % 1024, h⟩ : Fin 1024) = q :=
  Fin.ext (by show (g.val * 1024 + q.val) % 1024 = q.val; omega)

/-! ## The twelve input blocks of a grid point, read at an index -/

variable (m : (ℓ : Loc nD τ sig) → Buf (Elt Ideal) ℓ)

theorem act0 (c : Dev nD) (t : Fin cfg0.N) (p : Fin 64) (k : Fin 1024) :
    iblk m c 0 t (ix2 p k) = (args m c).x (ix2 (row t p) (reCol k)) := by
  show V m c main_arg0 (((cfg0.win 0).blk t).view.emb (ix2 p k)) = _
  rw [emb0, V_main_arg0]
  rfl

theorem act1 (c : Dev nD) (t : Fin cfg0.N) (p : Fin 64) (k : Fin 1024) :
    iblk m c 1 t (ix2 p k) = (args m c).x (ix2 (row t p) (imCol k)) := by
  show V m c main_arg0 (((cfg0.win 1).blk t).view.emb (ix2 p k)) = _
  rw [emb1, V_main_arg0]
  rfl

theorem act2 (c : Dev nD) (t : Fin cfg0.N) (p : Fin 64) (k : Fin 1024) :
    iblk m c 2 t (ix2 p k) = (args m c).h (ix2 (row t p) (reCol k)) := by
  show V m c main_arg1 (((cfg0.win 2).blk t).view.emb (ix2 p k)) = _
  rw [emb2, V_main_arg1]
  rfl

theorem act3 (c : Dev nD) (t : Fin cfg0.N) (p : Fin 64) (k : Fin 1024) :
    iblk m c 3 t (ix2 p k) = (args m c).h (ix2 (row t p) (imCol k)) := by
  show V m c main_arg1 (((cfg0.win 3).blk t).view.emb (ix2 p k)) = _
  rw [emb3, V_main_arg1]
  rfl

theorem act4 (c : Dev nD) (t : Fin cfg0.N) (p : Fin 64) (k : Fin 1024) :
    iblk m c 4 t (ix2 p k) = (args m c).c (ix2 (row t p) (reCol k)) := by
  show V m c main_arg2 (((cfg0.win 4).blk t).view.emb (ix2 p k)) = _
  rw [emb4, V_main_arg2]
  rfl

theorem act5 (c : Dev nD) (t : Fin cfg0.N) (p : Fin 64) (k : Fin 1024) :
    iblk m c 5 t (ix2 p k) = (args m c).c (ix2 (row t p) (imCol k)) := by
  show V m c main_arg2 (((cfg0.win 5).blk t).view.emb (ix2 p k)) = _
  rw [emb5, V_main_arg2]
  rfl

theorem wt6 (c : Dev nD) (t : Fin cfg0.N) (k : Fin 1024) (g : Fin 4) (q : Fin 1024) :
    iblk m c 6 t (ix2 k (col g q)) = (args m c).Uwr (ix3 g q k) := by
  show V m c main_v2 (((cfg0.win 6).blk t).view.emb (ix2 k (col g q))) = _
  rw [emb6]
  refine (HostPrefix.weight_v2 m c k (col g q)).trans ?_
  rw [col_div, col_mod]
  rfl

theorem wt7 (c : Dev nD) (t : Fin cfg0.N) (k : Fin 1024) (g : Fin 4) (q : Fin 1024) :
    iblk m c 7 t (ix2 k (col g q)) = (args m c).Uwi (ix3 g q k) := by
  show V m c main_v5 (((cfg0.win 7).blk t).view.emb (ix2 k (col g q))) = _
  rw [emb7]
  refine (HostPrefix.weight_v5 m c k (col g q)).trans ?_
  rw [col_div, col_mod]
  rfl

theorem wt8 (c : Dev nD) (t : Fin cfg0.N) (k : Fin 1024) (g : Fin 4) (q : Fin 1024) :
    iblk m c 8 t (ix2 k (col g q)) = (args m c).Wwr (ix3 g q k) := by
  show V m c main_v8 (((cfg0.win 8).blk t).view.emb (ix2 k (col g q))) = _
  rw [emb8]
  refine (HostPrefix.weight_v8 m c k (col g q)).trans ?_
  rw [col_div, col_mod]
  rfl

theorem wt9 (c : Dev nD) (t : Fin cfg0.N) (k : Fin 1024) (g : Fin 4) (q : Fin 1024) :
    iblk m c 9 t (ix2 k (col g q)) = (args m c).Wwi (ix3 g q k) := by
  show V m c main_v11 (((cfg0.win 9).blk t).view.emb (ix2 k (col g q))) = _
  rw [emb9]
  refine (HostPrefix.weight_v11 m c k (col g q)).trans ?_
  rw [col_div, col_mod]
  rfl

theorem bias10 (c : Dev nD) (t : Fin cfg0.N) (g : Fin 4) (q : Fin 1024) :
    iblk m c 10 t (ix2 0 (col g q)) = (args m c).Ubr (ix2 g q) + (args m c).Wbr (ix2 g q) := by
  show V m c main_v13 (((cfg0.win 10).blk t).view.emb (ix2 (0 : Fin 1) (col g q))) = _
  rw [emb10]
  refine (HostPrefix.bias_v13 m c (col g q)).trans ?_
  rw [col_div, col_mod]
  rfl

theorem bias11 (c : Dev nD) (t : Fin cfg0.N) (g : Fin 4) (q : Fin 1024) :
    iblk m c 11 t (ix2 0 (col g q)) = (args m c).Ubi (ix2 g q) + (args m c).Wbi (ix2 g q) := by
  show V m c main_v15 (((cfg0.win 11).blk t).view.emb (ix2 (0 : Fin 1) (col g q))) = _
  rw [emb11]
  refine (HostPrefix.bias_v15 m c (col g q)).trans ?_
  rw [col_div, col_mod]
  rfl

/-! ## The stacked pre-activations of a grid point are the specification's -/

/-- Over any blocks that read the argument arrays as the twelve windows do, the real stacked pre-activation at
    gate `g`, output `q` is the specification's, flat grouping. -/
theorem zRe_of (a : Args) (b : Fin 4096) (p : Fin 64) (g : Fin 4) (q : Fin 1024)
    (x0 x1 x2 x3 : S64x1024.Idx → EReal) (w6 w7 w8 w9 : S1024x4096.Idx → EReal) (b10 : S1x4096.Idx → EReal)
    (h0 : ∀ k, x0 (ix2 p k) = a.x (ix2 b (reCol k))) (h1 : ∀ k, x1 (ix2 p k) = a.x (ix2 b (imCol k)))
    (h2 : ∀ k, x2 (ix2 p k) = a.h (ix2 b (reCol k))) (h3 : ∀ k, x3 (ix2 p k) = a.h (ix2 b (imCol k)))
    (h6 : ∀ k, w6 (ix2 k (col g q)) = a.Uwr (ix3 g q k)) (h7 : ∀ k, w7 (ix2 k (col g q)) = a.Uwi (ix3 g q k))
    (h8 : ∀ k, w8 (ix2 k (col g q)) = a.Wwr (ix3 g q k)) (h9 : ∀ k, w9 (ix2 k (col g q)) = a.Wwi (ix3 g q k))
    (h10 : b10 (ix2 0 (col g q)) = a.Ubr (ix2 g q) + a.Wbr (ix2 g q)) :
    zRe x0 x1 x2 x3 w6 w7 w8 w9 b10 p (col g q) = preRe a b g q := by
  rw [← preReFlat_eq]
  unfold zRe preReFlat proj
  simp only [h0, h1, h2, h3, h6, h7, h8, h9, h10]

theorem zIm_of (a : Args) (b : Fin 4096) (p : Fin 64) (g : Fin 4) (q : Fin 1024)
    (x0 x1 x2 x3 : S64x1024.Idx → EReal) (w6 w7 w8 w9 : S1024x4096.Idx → EReal) (b11 : S1x4096.Idx → EReal)
    (h0 : ∀ k, x0 (ix2 p k) = a.x (ix2 b (reCol k))) (h1 : ∀ k, x1 (ix2 p k) = a.x (ix2 b (imCol k)))
    (h2 : ∀ k, x2 (ix2 p k) = a.h (ix2 b (reCol k))) (h3 : ∀ k, x3 (ix2 p k) = a.h (ix2 b (imCol k)))
    (h6 : ∀ k, w6 (ix2 k (col g q)) = a.Uwr (ix3 g q k)) (h7 : ∀ k, w7 (ix2 k (col g q)) = a.Uwi (ix3 g q k))
    (h8 : ∀ k, w8 (ix2 k (col g q)) = a.Wwr (ix3 g q k)) (h9 : ∀ k, w9 (ix2 k (col g q)) = a.Wwi (ix3 g q k))
    (h11 : b11 (ix2 0 (col g q)) = a.Ubi (ix2 g q) + a.Wbi (ix2 g q)) :
    zIm x0 x1 x2 x3 w6 w7 w8 w9 b11 p (col g q) = preIm a b g q := by
  rw [← preImFlat_eq]
  unfold zIm preImFlat proj
  simp only [h0, h1, h2, h3, h6, h7, h8, h9, h11]

theorem zRe_eq (c : Dev nD) (t : Fin cfg0.N) (p : Fin 64) (g : Fin 4) (q : Fin 1024) :
    zRe (iblk m c 0 t) (iblk m c 1 t) (iblk m c 2 t) (iblk m c 3 t) (iblk m c 6 t) (iblk m c 7 t) (iblk m c 8 t) (iblk m c 9 t)
        (iblk m c 10 t) p (col g q)
      = preRe (args m c) (row t p) g q :=
  zRe_of (args m c) (row t p) p g q _ _ _ _ _ _ _ _ _
    (fun k => act0 m c t p k) (fun k => act1 m c t p k) (fun k => act2 m c t p k) (fun k => act3 m c t p k)
    (fun k => wt6 m c t k g q) (fun k => wt7 m c t k g q) (fun k => wt8 m c t k g q) (fun k => wt9 m c t k g q)
    (bias10 m c t g q)

theorem zIm_eq (c : Dev nD) (t : Fin cfg0.N) (p : Fin 64) (g : Fin 4) (q : Fin 1024) :
    zIm (iblk m c 0 t) (iblk m c 1 t) (iblk m c 2 t) (iblk m c 3 t) (iblk m c 6 t) (iblk m c 7 t) (iblk m c 8 t) (iblk m c 9 t)
        (iblk m c 11 t) p (col g q)
      = preIm (args m c) (row t p) g q :=
  zIm_of (args m c) (row t p) p g q _ _ _ _ _ _ _ _ _
    (fun k => act0 m c t p k) (fun k => act1 m c t p k) (fun k => act2 m c t p k) (fun k => act3 m c t p k)
    (fun k => wt6 m c t k g q) (fun k => wt7 m c t k g q) (fun k => wt8 m c t k g q) (fun k => wt9 m c t k g q)
    (bias11 m c t g q)

end Cert.KernelIdeal.Inputs

end
-- ==== Proof.KernelIdealCover.lean ====
/-
  The two output windows of the kernel tile their arrays by blocks of 64 whole rows.

  Both result arrays have 4096 rows and 2048 columns; the grid has 64 points, and at point `t` each output window's block
  index is `(t, 0)` with block shape 64 × 2048. So the block of point `t` is rows `64 t … 64 t + 63` and every column:
  entry `(p, j)` of the block is entry `(64 t + p, j)` of the array, an index lies in the block exactly when its row
  does, and every index lies in the block of the point `row / 64`, which writes its block back.
-/
import proofs.«173032_j43224550867775_2_alg».proof.Proof.Gen.KernelIdeal.Launch
import proofs.«173032_j43224550867775_2_alg».proof.Proof.Gen.KernelIdeal.Points
import proofs.«173032_j43224550867775_2_alg».proof.Proof.KernelIdealRows
import Idealize.ShloMosaic.Lib.Pipeline.Value
import Idealize.ShloMosaic.Lib.ValueIdx

noncomputable section

namespace Cert.KernelIdeal.Cover

open Cert.KernelIdeal Cert.KernelIdeal.Gen Idealize.ShloMosaic Idealize.ShloMosaic.TcCoe Idealize.SL.Sem
open Idealize.ShloMosaic.ValueIdx

/-- The block index of both output windows at grid point `t` is `(t, 0)`: decided over the 64 points. -/
theorem idx_out : ∀ t : Fin cfg0.N, win0_12.index t (0 : Fin 2) = t.val ∧ win0_12.index t (1 : Fin 2) = 0
    ∧ win0_13.index t (0 : Fin 2) = t.val ∧ win0_13.index t (1 : Fin 2) = 0 :=
  (by decide +kernel : ∀ t : Fin grid0.N, _)

/-! ## An entry of a block is an entry of the array -/

/-- Entry `(p, j)` of the first result's block at point `t` is entry `(64 t + p, j)` of the array. -/
theorem out_emb12 (t : Fin cfg0.N) (p : Fin 64) (j : Fin 2048) :
    (((cfg0.win 12).blk t).view.emb (ix2 p j) : S4096x2048.Idx) = ix2 (Rows.row t p) j := by
  obtain ⟨e0, e1, -, -⟩ := idx_out t
  funext a; apply Fin.ext
  match a with
  | ⟨0, _⟩ => show win0_12.index t (0 : Fin 2) * 64 + 1 * p.val = t.val * 64 + p.val; omega
  | ⟨1, _⟩ => show win0_12.index t (1 : Fin 2) * 2048 + 1 * j.val = j.val; omega

/-- Entry `(p, j)` of the second result's block at point `t` is entry `(64 t + p, j)` of the array. -/
theorem out_emb13 (t : Fin cfg0.N) (p : Fin 64) (j : Fin 2048) :
    (((cfg0.win 13).blk t).view.emb (ix2 p j) : S4096x2048.Idx) = ix2 (Rows.row t p) j := by
  obtain ⟨-, -, e0, e1⟩ := idx_out t
  funext a; apply Fin.ext
  match a with
  | ⟨0, _⟩ => show win0_13.index t (0 : Fin 2) * 64 + 1 * p.val = t.val * 64 + p.val; omega
  | ⟨1, _⟩ => show win0_13.index t (1 : Fin 2) * 2048 + 1 * j.val = j.val; omega

/-! ## Which indices a block holds -/

/-- An index of the first result is in point `t`'s block iff each coordinate is in the block's range on its axis. -/
theorem mem_blk12 (t : Fin cfg0.N) (i : S4096x2048.Idx) :
    i ∈ ((cfg0.win 12).blk t).view.set ↔ ∀ a : Fin 2, win0_12.index t a * S64x2048.size a ≤ (i a).val
      ∧ (i a).val < win0_12.index t a * S64x2048.size a + S64x2048.size a := by
  show i ∈ ((View.whole main_v16_0).slice (win0_12.rect t)).set ↔ _
  rw [View.set_slice_whole, Rect.mem_set_unit]
  exact Iff.rfl

/-- An index of the second result is in point `t`'s block iff each coordinate is in the block's range on its axis. -/
theorem mem_blk13 (t : Fin cfg0.N) (i : S4096x2048.Idx) :
    i ∈ ((cfg0.win 13).blk t).view.set ↔ ∀ a : Fin 2, win0_13.index t a * S64x2048.size a ≤ (i a).val
      ∧ (i a).val < win0_13.index t a * S64x2048.size a + S64x2048.size a := by
  show i ∈ ((View.whole main_v16_1).slice (win0_13.rect t)).set ↔ _
  rw [View.set_slice_whole, Rect.mem_set_unit]
  exact Iff.rfl

/-! ## The blocks cover the arrays -/

/-- Every index of the first result is in the block of a point that writes its block back: the point `row / 64`. -/
theorem cover12 : ∀ i : S4096x2048.Idx, ∃ t : Fin cfg0.N, (cfg0.win 12).flush t = true ∧ i ∈ ((cfg0.win 12).blk t).view.set := by
  intro i
  have hi0 : (i 0).val < 4096 := (i 0).isLt
  have hi1 : (i 1).val < 2048 := (i 1).isLt
  obtain ⟨t, ht⟩ : ∃ t : Fin cfg0.N, t.val = (i 0).val / 64 :=
    ⟨⟨(i 0).val / 64, lt_of_lt_of_eq (by omega : (i 0).val / 64 < 64) N_0.symm⟩, rfl⟩
  obtain ⟨e0, e1, -, -⟩ := idx_out t
  refine ⟨t, flush0_12 t, ?_⟩
  rw [mem_blk12]
  intro a
  match a with
  | ⟨0, _⟩ =>
    show win0_12.index t (0 : Fin 2) * 64 ≤ (i 0).val ∧ (i 0).val < win0_12.index t (0 : Fin 2) * 64 + 64
    omega
  | ⟨1, _⟩ =>
    show win0_12.index t (1 : Fin 2) * 2048 ≤ (i 1).val ∧ (i 1).val < win0_12.index t (1 : Fin 2) * 2048 + 2048
    omega

/-- Every index of the second result is in the block of a point that writes its block back: the point `row / 64`. -/
theorem cover13 : ∀ i : S4096x2048.Idx, ∃ t : Fin cfg0.N, (cfg0.win 13).flush t = true ∧ i ∈ ((cfg0.win 13).blk t).view.set := by
  intro i
  have hi0 : (i 0).val < 4096 := (i 0).isLt
  have hi1 : (i 1).val < 2048 := (i 1).isLt
  obtain ⟨t, ht⟩ : ∃ t : Fin cfg0.N, t.val = (i 0).val / 64 :=
    ⟨⟨(i 0).val / 64, lt_of_lt_of_eq (by omega : (i 0).val / 64 < 64) N_0.symm⟩, rfl⟩
  obtain ⟨-, -, e0, e1⟩ := idx_out t
  refine ⟨t, flush0_13 t, ?_⟩
  rw [mem_blk13]
  intro a
  match a with
  | ⟨0, _⟩ =>
    show win0_13.index t (0 : Fin 2) * 64 ≤ (i 0).val ∧ (i 0).val < win0_13.index t (0 : Fin 2) * 64 + 64
    omega
  | ⟨1, _⟩ =>
    show win0_13.index t (1 : Fin 2) * 2048 ≤ (i 1).val ∧ (i 1).val < win0_13.index t (1 : Fin 2) * 2048 + 2048
    omega

end Cert.KernelIdeal.Cover

end
-- ==== Proof.KernelIdealValue.lean ====
/-
  What the kernel's two result arrays hold after the run. Grid point `t` writes back the 64 rows `64 t … 64 t + 63` of
  each result; the sixty-four row blocks tile the arrays, so each result array is determined entry by entry. An entry
  of a written-back block is one of the body's two stored values at that row and column; that value is the cell
  arithmetic applied to the point's pre-activations and old cell state; the point's input blocks are rows of the
  argument arrays, its weight blocks the stacked weights, its bias rows the summed biases; and the pre-activation,
  grouped flat as the body computes it, is the pre-activation grouped by projection. So the results are the spec's
  `hOut` and `cOut` of the eleven arguments.
-/
import proofs.«173032_j43224550867775_2_alg».proof.Proof.KernelIdealRun
import proofs.«173032_j43224550867775_2_alg».proof.Proof.KernelIdealBlockAt
import proofs.«173032_j43224550867775_2_alg».proof.Proof.KernelIdealInputs
import proofs.«173032_j43224550867775_2_alg».proof.Proof.KernelIdealCover
import proofs.«173032_j43224550867775_2_alg».proof.Proof.CellSpec
import Idealize.ShloMosaic.Lib.Pipeline.Value
import Idealize.ShloMosaic.Lib.ValueIdx

set_option maxRecDepth 16384

noncomputable section

namespace Cert.KernelIdeal.KValue

open Idealize.ShloMosaic Idealize.ShloMosaic.TcCoe
open Idealize.SL Idealize.SL.Sem
open Idealize.ShloMosaic.Pipeline (Dat Cfg Window)
open Cert.KernelIdeal Cert.KernelIdeal.Gen
open Cert.KernelIdeal.Entry Cert.KernelIdeal.Body Cert.KernelIdeal.Run Cert.KernelIdeal.BlockAt Cert.KernelIdeal.Arith
open Cert.KernelIdeal.Inputs Cert.KernelIdeal.Cover Cert.KernelIdeal.Rows
open Idealize.ShloMosaic.ValueIdx Cert.CellSpec

variable (m : (ℓ : Loc nD τ sig) → Buf (Elt Ideal) ℓ) (ρ : Dev nD → PrngReg)

/-! ## The result arrays by halves -/

theorem lo_lcol (q : Fin 1024) : lo (lcol q) = q := Fin.ext (Nat.mod_eq_of_lt q.isLt)
theorem lo_rcol (q : Fin 1024) : lo (rcol q) = q := Fin.ext (by show (q.val + 1024) % 1024 = q.val; have := q.isLt; omega)

theorem hOut_lcol (a : Args) (b : Fin 4096) (q : Fin 1024) : hOut a (ix2 b (lcol q)) = hRe a b q := by
  unfold hOut
  rw [if_pos (show ((ix2 b (lcol q) : Act.Idx) 1).val < 1024 from q.isLt)]
  show hRe a b (lo (lcol q)) = _
  rw [lo_lcol]
theorem hOut_rcol (a : Args) (b : Fin 4096) (q : Fin 1024) : hOut a (ix2 b (rcol q)) = hIm a b q := by
  unfold hOut
  rw [if_neg (show ¬ ((ix2 b (rcol q) : Act.Idx) 1).val < 1024 from by show ¬ (q.val + 1024 < 1024); omega)]
  show hIm a b (lo (rcol q)) = _
  rw [lo_rcol]
theorem cOut_lcol (a : Args) (b : Fin 4096) (q : Fin 1024) : cOut a (ix2 b (lcol q)) = cRe a b q := by
  unfold cOut
  rw [if_pos (show ((ix2 b (lcol q) : Act.Idx) 1).val < 1024 from q.isLt)]
  show cRe a b (lo (lcol q)) = _
  rw [lo_lcol]
theorem cOut_rcol (a : Args) (b : Fin 4096) (q : Fin 1024) : cOut a (ix2 b (rcol q)) = cIm a b q := by
  unfold cOut
  rw [if_neg (show ¬ ((ix2 b (rcol q) : Act.Idx) 1).val < 1024 from by show ¬ (q.val + 1024 < 1024); omega)]
  show cIm a b (lo (rcol q)) = _
  rw [lo_rcol]

/-- A column of a 2048-wide row is a column of the left half or of the right half. -/
theorem col_cases (j : Fin 2048) : (∃ q : Fin 1024, j = lcol q) ∨ (∃ q : Fin 1024, j = rcol q) := by
  by_cases hj : j.val < 1024
  · exact .inl ⟨⟨j.val, hj⟩, Fin.ext rfl⟩
  · exact .inr ⟨⟨j.val - 1024, by have := j.isLt; omega⟩, Fin.ext (by show j.val = j.val - 1024 + 1024; omega)⟩

/-! ## One written-back block -/

/-- Point `t`'s block of the new hidden state, at row `p` and column `j`, is the spec's entry at row `64 t + p`. -/
theorem hid_at (c : Dev nD) (t : Fin cfg0.N) (p : Fin 64) (j : Fin 2048) :
    hidBlock (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 p j) = hOut (args m c) (ix2 (row t p) j) := by
  rcases col_cases j with ⟨q, rfl⟩ | ⟨q, rfl⟩
  · refine (hidBlock_left (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p q).trans ((pay24_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p q).trans ?_)
    rw [hOut_lcol]; unfold hRe
    simp only [zRe_eq m c t p, zIm_eq m c t p, act4 m c t p q, act5 m c t p q]
  · refine (hidBlock_right (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p q).trans ((pay25_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p q).trans ?_)
    rw [hOut_rcol]; unfold hIm
    simp only [zRe_eq m c t p, zIm_eq m c t p, act4 m c t p q, act5 m c t p q]

/-- The same for the new cell state. -/
theorem cell_at (c : Dev nD) (t : Fin cfg0.N) (p : Fin 64) (j : Fin 2048) :
    cellBlock (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 p j) = cOut (args m c) (ix2 (row t p) j) := by
  rcases col_cases j with ⟨q, rfl⟩ | ⟨q, rfl⟩
  · refine (cellBlock_left (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p q).trans ((pay20_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p q).trans ?_)
    rw [cOut_lcol]; unfold cRe
    simp only [zRe_eq m c t p, zIm_eq m c t p, act4 m c t p q, act5 m c t p q]
  · refine (cellBlock_right (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p q).trans ((pay21_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p q).trans ?_)
    rw [cOut_rcol]; unfold cIm
    simp only [zRe_eq m c t p, zIm_eq m c t p, act4 m c t p q, act5 m c t p q]

/-- What point `t` writes back of the new hidden state is block `t` of the spec's array. -/
theorem flushed12_eq (c : Dev nD) (t : Fin cfg0.N) :
    (dats m 0 c).flushed 12 t = ((cfg0.win 12).blk t).view.read (Elt Ideal) (hOut (args m c)) := by
  show (cfg0.win 12).cut (grid0.coords t) ((dats m 0 c).after 12 t) = _
  rw [after12]
  funext y
  obtain ⟨p, j, rfl⟩ : ∃ (p : Fin 64) (j : Fin 2048), y = ix2 p j := ⟨y 0, y 1, eq_ix2 (n0 := 64) (n1 := 2048) y⟩
  show hidBlock (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 p j) = hOut (args m c) (((cfg0.win 12).blk t).view.emb (ix2 p j))
  rw [out_emb12]
  exact hid_at m c t p j

theorem flushed13_eq (c : Dev nD) (t : Fin cfg0.N) :
    (dats m 0 c).flushed 13 t = ((cfg0.win 13).blk t).view.read (Elt Ideal) (cOut (args m c)) := by
  show (cfg0.win 13).cut (grid0.coords t) ((dats m 0 c).after 13 t) = _
  rw [after13]
  funext y
  obtain ⟨p, j, rfl⟩ : ∃ (p : Fin 64) (j : Fin 2048), y = ix2 p j := ⟨y 0, y 1, eq_ix2 (n0 := 64) (n1 := 2048) y⟩
  show cellBlock (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 p j) = cOut (args m c) (((cfg0.win 13).blk t).view.emb (ix2 p j))
  rw [out_emb13]
  exact cell_at m c t p j

/-! ## The whole arrays -/

/-- The sixty-four blocks tile the array: after the run it is the spec's new hidden state. -/
theorem final12 (c : Dev nD) : (dats m 0 c).arrAt 12 cfg0.N = hOut (args m c) :=
  (dats m 0 c).arrAt_eq_of_cover 12 (hOut (args m c)) (fun t _ => flushed12_eq m c t) cover12

theorem final13 (c : Dev nD) : (dats m 0 c).arrAt 13 cfg0.N = cOut (args m c) :=
  (dats m 0 c).arrAt_eq_of_cover 13 (cOut (args m c)) (fun t _ => flushed13_eq m c t) cover13

/-- Every weakly fair execution of the idealized kernel terminates without a fault, with its two results at the spec's
    new hidden state and new cell state of the arguments, and the arguments unchanged. -/
theorem run : θ_run defs (onTc (τ := τ) (main (F := Ideal))) ⟨m, fun _ => 0, ρ⟩ (fun r => ∀ c : Dev nD,
      r.2.mem ((c.tc : Thread nD τ).loc main_v16_0) = hOut (args m c)
      ∧ r.2.mem ((c.tc : Thread nD τ).loc main_v16_1) = cOut (args m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨((h c).1 12).trans (final12 m c), ((h c).1 13).trans (final13 m c),
      kept_arg0 m r h c, kept_arg1 m r h c, kept_arg2 m r h c, kept_arg3 m r h c, kept_arg4 m r h c, kept_arg5 m r h c, kept_arg6 m r h c, kept_arg7 m r h c, kept_arg8 m r h c, kept_arg9 m r h c, kept_arg10 m r h c⟩) (run_main m ρ)

end Cert.KernelIdeal.KValue

end
-- ==== Proof.ReferencePre.lean ====
/-
  The pre-activations of the reference program, read at an index.

  The reference forms, for the input side and for the hidden side, the four matrix products of the two halves of an
  activation array with a real and an imaginary weight array, combines them into the real part `Ar Wr − Ai Wi` and the
  imaginary part `Ar Wi + Ai Wr`, adds the bias broadcast over the rows, and adds the two sides. At row `b`, gate `g`,
  output `o` that is the specification's `preRe` / `preIm`, term for term: the only work is reading each slice,
  broadcast and contraction at the index.
-/
import proofs.«173032_j43224550867775_2_alg».proof.Proof.Gen.ReferenceIdeal.Read
import proofs.«173032_j43224550867775_2_alg».proof.Proof.CellSpec

noncomputable section

open scoped BigOperators

namespace Cert.ReferenceIdeal.RefValue

open Cert.ReferenceIdeal Cert.ReferenceIdeal.Gen Cert.ReferenceIdeal.Read Idealize.ShloMosaic Idealize.ShloMosaic.ValueIdx
open Cert.CellSpec

/-- The contraction of the left (real) half of an activation array with a weight array, at `(b, g, o)`. -/
theorem dot_re (A : Act.Idx → EReal) (W : Wt.Idx → EReal) (b : Fin 4096) (g : Fin 4) (o : Fin 1024) :
    val_main_v6 (F := Ideal) A W (ix3 b g o) = proj A reCol W b g o := by
  rw [val_main_v6_apply]
  unfold proj
  refine Finset.sum_congr rfl fun k _ => ?_
  rw [val_main_v0_apply]
  have e1 : idx_main_v0 (lidx_main_v6 (ix3 b g o) k) = ix2 b (reCol k) :=
    funext fun a => by match a with | ⟨0, _⟩ => rfl | ⟨1, _⟩ => rfl
  have e2 : ridx_main_v6 (ix3 b g o) k = ix3 g o k :=
    funext fun a => by match a with | ⟨0, _⟩ => rfl | ⟨1, _⟩ => rfl | ⟨2, _⟩ => rfl
  rw [e1, e2]

/-- The contraction of the right (imaginary) half of an activation array with a weight array, at `(b, g, o)`. -/
theorem dot_im (A : Act.Idx → EReal) (W : Wt.Idx → EReal) (b : Fin 4096) (g : Fin 4) (o : Fin 1024) :
    val_main_v7 (F := Ideal) A W (ix3 b g o) = proj A imCol W b g o := by
  rw [val_main_v7_apply]
  unfold proj
  refine Finset.sum_congr rfl fun k _ => ?_
  rw [val_main_v1_apply]
  have e1 : idx_main_v1 (lidx_main_v7 (ix3 b g o) k) = ix2 b (imCol k) :=
    funext fun a => by
      match a with
      | ⟨0, _⟩ => rfl
      | ⟨1, _⟩ => exact Fin.ext (Nat.add_comm 1024 k.val)
  have e2 : ridx_main_v7 (ix3 b g o) k = ix3 g o k :=
    funext fun a => by match a with | ⟨0, _⟩ => rfl | ⟨1, _⟩ => rfl | ⟨2, _⟩ => rfl
  rw [e1, e2]

/-- A bias array broadcast over the rows, at `(b, g, o)`. -/
theorem bias_at (B : Bs.Idx → EReal) (b : Fin 4096) (g : Fin 4) (o : Fin 1024) :
    val_main_v10 (F := Ideal) B (ix3 b g o) = B (ix2 g o) := by
  rw [val_main_v10_apply, val_main_v9_apply]
  exact congrArg B (funext fun a => by match a with | ⟨0, _⟩ => rfl | ⟨1, _⟩ => rfl)

/-- The other contractions of the program are the same two functions of their operands. -/
theorem v12_eq (A : Act.Idx → EReal) (W : Wt.Idx → EReal) : val_main_v12 (F := Ideal) A W = val_main_v6 (F := Ideal) A W := rfl
theorem v18_eq (A : Act.Idx → EReal) (W : Wt.Idx → EReal) : val_main_v18 (F := Ideal) A W = val_main_v6 (F := Ideal) A W := rfl
theorem v24_eq (A : Act.Idx → EReal) (W : Wt.Idx → EReal) : val_main_v24 (F := Ideal) A W = val_main_v6 (F := Ideal) A W := rfl
theorem v13_eq (A : Act.Idx → EReal) (W : Wt.Idx → EReal) : val_main_v13 (F := Ideal) A W = val_main_v7 (F := Ideal) A W := rfl
theorem v19_eq (A : Act.Idx → EReal) (W : Wt.Idx → EReal) : val_main_v19 (F := Ideal) A W = val_main_v7 (F := Ideal) A W := rfl
theorem v25_eq (A : Act.Idx → EReal) (W : Wt.Idx → EReal) : val_main_v25 (F := Ideal) A W = val_main_v7 (F := Ideal) A W := rfl
/-- … and the other broadcast biases the same function of the bias array. -/
theorem v16_eq (B : Bs.Idx → EReal) : val_main_v16 (F := Ideal) B = val_main_v10 (F := Ideal) B := rfl
theorem v22_eq (B : Bs.Idx → EReal) : val_main_v22 (F := Ideal) B = val_main_v10 (F := Ideal) B := rfl
theorem v28_eq (B : Bs.Idx → EReal) : val_main_v28 (F := Ideal) B = val_main_v10 (F := Ideal) B := rfl

/-- The real part of the reference's pre-activation array at `(b, g, o)`. -/
theorem pre_re (a : Args) (b : Fin 4096) (g : Fin 4) (o : Fin 1024) :
    val_main_v30 (F := Ideal) a.x a.h a.Uwr a.Uwi a.Ubr a.Wwr a.Wwi a.Wbr (ix3 b g o) = preRe a b g o := by
  rw [val_main_v30_apply, val_main_v11_apply, val_main_v8_apply, val_main_v23_apply, val_main_v20_apply,
    v18_eq, v19_eq, v22_eq, dot_re, dot_im, dot_re, dot_im, bias_at, bias_at]
  rfl

/-- The imaginary part of the reference's pre-activation array at `(b, g, o)`. -/
theorem pre_im (a : Args) (b : Fin 4096) (g : Fin 4) (o : Fin 1024) :
    val_main_v31 (F := Ideal) a.x a.h a.Uwr a.Uwi a.Ubi a.Wwr a.Wwi a.Wbi (ix3 b g o) = preIm a b g o := by
  rw [val_main_v31_apply, val_main_v17_apply, val_main_v14_apply, val_main_v29_apply, val_main_v26_apply,
    v12_eq, v13_eq, v16_eq, v24_eq, v25_eq, v28_eq, dot_re, dot_im, dot_re, dot_im, bias_at, bias_at]
  rfl

end Cert.ReferenceIdeal.RefValue

end
-- ==== Proof.ReferenceGates.lean ====
/-
  The eight gate values of the reference program, read at an index.

  From each of the two pre-activation arrays (real and imaginary parts, shape 4096 × 4 × 1024) the reference cuts the four
  gate planes `[:, g, :]`, drops the unit axis, and applies the logistic function (gates 0, 1, 3: spelt
  `1 / (1 + exp (−z))`) or tanh (gate 2). At row `b`, output `o` the result is that function of the specification's
  pre-activation at `(b, g, o)`.
-/
import proofs.«173032_j43224550867775_2_alg».proof.Proof.ReferencePre
import Idealize.ShloMosaic.Lib.IdealHost

noncomputable section

namespace Cert.ReferenceIdeal.RefValue

open Cert.ReferenceIdeal Cert.ReferenceIdeal.Gen Cert.ReferenceIdeal.Read Idealize.ShloMosaic Idealize.ShloMosaic.ValueIdx
open Cert.CellSpec

/-- The reference's spelling of the logistic function — the constant one divided by one plus the exponential of the
    negative — is the logistic function: the constant's pattern denotes the real 1. -/
theorem logistic_spelt (z : EReal) :
    FloatOps.hostDivf (F := Ideal) (φ := .f32) (FloatOps.ofBits .f32 0x3F800000#32)
      (FloatOps.addf (FloatOps.ofBits .f32 0x3F800000#32) (FloatOps.hostUnary .exp (FloatOps.hostNegf z)))
    = Ideal.logistic z := by
  simp only [Ideal.ofBits_def, Ideal.ofBits_one_f32, Ideal.hostDivf_def, Ideal.addf_def, Ideal.hostUnary_exp_def,
    Ideal.hostNegf_def, Ideal.negf_def, Ideal.logistic]

/-! ## Gate 0 (forget): logistic -/

theorem sig_re0 (a : Args) (b : Fin 4096) (o : Fin 1024) :
    val_main_v39 (F := Ideal) a.x a.h a.Uwr a.Uwi a.Ubr a.Wwr a.Wwi a.Wbr (ix2 b o) = Ideal.logistic (preRe a b 0 o) := by
  have hb := b.isLt; have ho := o.isLt
  have e : idx_main_v32 (idx_main_v33 (ix2 b o)) = ix3 b (0 : Fin 4) o :=
    funext fun c => by
      match c with
      | ⟨0, _⟩ => exact Fin.ext (by show (b.val * 1024 + o.val) / 1024 = b.val; omega)
      | ⟨1, _⟩ => rfl
      | ⟨2, _⟩ => exact Fin.ext (by show (b.val * 1024 + o.val) % 1024 = o.val; omega)
  rw [val_main_v39_apply, val_main_v38_apply, val_main_cst_0_apply, val_main_v37_apply, val_main_v36_apply,
    val_main_cst_apply, val_main_v35_apply, val_main_v34_apply, val_main_v33_apply, val_main_v32_apply, e, pre_re]
  exact logistic_spelt _

theorem sig_im0 (a : Args) (b : Fin 4096) (o : Fin 1024) :
    val_main_v47 (F := Ideal) a.x a.h a.Uwr a.Uwi a.Ubi a.Wwr a.Wwi a.Wbi (ix2 b o) = Ideal.logistic (preIm a b 0 o) := by
  have hb := b.isLt; have ho := o.isLt
  have e : idx_main_v40 (idx_main_v41 (ix2 b o)) = ix3 b (0 : Fin 4) o :=
    funext fun c => by
      match c with
      | ⟨0, _⟩ => exact Fin.ext (by show (b.val * 1024 + o.val) / 1024 = b.val; omega)
      | ⟨1, _⟩ => rfl
      | ⟨2, _⟩ => exact Fin.ext (by show (b.val * 1024 + o.val) % 1024 = o.val; omega)
  rw [val_main_v47_apply, val_main_v46_apply, val_main_cst_2_apply, val_main_v45_apply, val_main_v44_apply,
    val_main_cst_1_apply, val_main_v43_apply, val_main_v42_apply, val_main_v41_apply, val_main_v40_apply, e, pre_im]
  exact logistic_spelt _

/-! ## Gate 1 (input): logistic -/

theorem sig_re1 (a : Args) (b : Fin 4096) (o : Fin 1024) :
    val_main_v55 (F := Ideal) a.x a.h a.Uwr a.Uwi a.Ubr a.Wwr a.Wwi a.Wbr (ix2 b o) = Ideal.logistic (preRe a b 1 o) := by
  have hb := b.isLt; have ho := o.isLt
  have e : idx_main_v48 (idx_main_v49 (ix2 b o)) = ix3 b (1 : Fin 4) o :=
    funext fun c => by
      match c with
      | ⟨0, _⟩ => exact Fin.ext (by show (b.val * 1024 + o.val) / 1024 = b.val; omega)
      | ⟨1, _⟩ => rfl
      | ⟨2, _⟩ => exact Fin.ext (by show (b.val * 1024 + o.val) % 1024 = o.val; omega)
  rw [val_main_v55_apply, val_main_v54_apply, val_main_cst_4_apply, val_main_v53_apply, val_main_v52_apply,
    val_main_cst_3_apply, val_main_v51_apply, val_main_v50_apply, val_main_v49_apply, val_main_v48_apply, e, pre_re]
  exact logistic_spelt _

theorem sig_im1 (a : Args) (b : Fin 4096) (o : Fin 1024) :
    val_main_v63 (F := Ideal) a.x a.h a.Uwr a.Uwi a.Ubi a.Wwr a.Wwi a.Wbi (ix2 b o) = Ideal.logistic (preIm a b 1 o) := by
  have hb := b.isLt; have ho := o.isLt
  have e : idx_main_v56 (idx_main_v57 (ix2 b o)) = ix3 b (1 : Fin 4) o :=
    funext fun c => by
      match c with
      | ⟨0, _⟩ => exact Fin.ext (by show (b.val * 1024 + o.val) / 1024 = b.val; omega)
      | ⟨1, _⟩ => rfl
      | ⟨2, _⟩ => exact Fin.ext (by show (b.val * 1024 + o.val) % 1024 = o.val; omega)
  rw [val_main_v63_apply, val_main_v62_apply, val_main_cst_6_apply, val_main_v61_apply, val_main_v60_apply,
    val_main_cst_5_apply, val_main_v59_apply, val_main_v58_apply, val_main_v57_apply, val_main_v56_apply, e, pre_im]
  exact logistic_spelt _

/-! ## Gate 2 (candidate): tanh -/

theorem tanh_re2 (a : Args) (b : Fin 4096) (o : Fin 1024) :
    val_main_v66 (F := Ideal) a.x a.h a.Uwr a.Uwi a.Ubr a.Wwr a.Wwi a.Wbr (ix2 b o) = Ideal.tanh (preRe a b 2 o) := by
  have hb := b.isLt; have ho := o.isLt
  have e : idx_main_v64 (idx_main_v65 (ix2 b o)) = ix3 b (2 : Fin 4) o :=
    funext fun c => by
      match c with
      | ⟨0, _⟩ => exact Fin.ext (by show (b.val * 1024 + o.val) / 1024 = b.val; omega)
      | ⟨1, _⟩ => rfl
      | ⟨2, _⟩ => exact Fin.ext (by show (b.val * 1024 + o.val) % 1024 = o.val; omega)
  rw [val_main_v66_apply, val_main_v65_apply, val_main_v64_apply, e, pre_re]
  rfl

theorem tanh_im2 (a : Args) (b : Fin 4096) (o : Fin 1024) :
    val_main_v69 (F := Ideal) a.x a.h a.Uwr a.Uwi a.Ubi a.Wwr a.Wwi a.Wbi (ix2 b o) = Ideal.tanh (preIm a b 2 o) := by
  have hb := b.isLt; have ho := o.isLt
  have e : idx_main_v67 (idx_main_v68 (ix2 b o)) = ix3 b (2 : Fin 4) o :=
    funext fun c => by
      match c with
      | ⟨0, _⟩ => exact Fin.ext (by show (b.val * 1024 + o.val) / 1024 = b.val; omega)
      | ⟨1, _⟩ => rfl
      | ⟨2, _⟩ => exact Fin.ext (by show (b.val * 1024 + o.val) % 1024 = o.val; omega)
  rw [val_main_v69_apply, val_main_v68_apply, val_main_v67_apply, e, pre_im]
  rfl

/-! ## Gate 3 (output): logistic -/

theorem sig_re3 (a : Args) (b : Fin 4096) (o : Fin 1024) :
    val_main_v77 (F := Ideal) a.x a.h a.Uwr a.Uwi a.Ubr a.Wwr a.Wwi a.Wbr (ix2 b o) = Ideal.logistic (preRe a b 3 o) := by
  have hb := b.isLt; have ho := o.isLt
  have e : idx_main_v70 (idx_main_v71 (ix2 b o)) = ix3 b (3 : Fin 4) o :=
    funext fun c => by
      match c with
      | ⟨0, _⟩ => exact Fin.ext (by show (b.val * 1024 + o.val) / 1024 = b.val; omega)
      | ⟨1, _⟩ => rfl
      | ⟨2, _⟩ => exact Fin.ext (by show (b.val * 1024 + o.val) % 1024 = o.val; omega)
  rw [val_main_v77_apply, val_main_v76_apply, val_main_cst_8_apply, val_main_v75_apply, val_main_v74_apply,
    val_main_cst_7_apply, val_main_v73_apply, val_main_v72_apply, val_main_v71_apply, val_main_v70_apply, e, pre_re]
  exact logistic_spelt _

theorem sig_im3 (a : Args) (b : Fin 4096) (o : Fin 1024) :
    val_main_v85 (F := Ideal) a.x a.h a.Uwr a.Uwi a.Ubi a.Wwr a.Wwi a.Wbi (ix2 b o) = Ideal.logistic (preIm a b 3 o) := by
  have hb := b.isLt; have ho := o.isLt
  have e : idx_main_v78 (idx_main_v79 (ix2 b o)) = ix3 b (3 : Fin 4) o :=
    funext fun c => by
      match c with
      | ⟨0, _⟩ => exact Fin.ext (by show (b.val * 1024 + o.val) / 1024 = b.val; omega)
      | ⟨1, _⟩ => rfl
      | ⟨2, _⟩ => exact Fin.ext (by show (b.val * 1024 + o.val) % 1024 = o.val; omega)
  rw [val_main_v85_apply, val_main_v84_apply, val_main_cst_10_apply, val_main_v83_apply, val_main_v82_apply,
    val_main_cst_9_apply, val_main_v81_apply, val_main_v80_apply, val_main_v79_apply, val_main_v78_apply, e, pre_im]
  exact logistic_spelt _

end Cert.ReferenceIdeal.RefValue

end
-- ==== Proof.ReferenceCell.lean ====
/-
  The new cell state and the new hidden state of the reference program, read at an index.

  With the gate values `f, i, out` (logistic) and `a` (tanh), real and imaginary parts apart, the reference forms the
  complex products `c · f` and `a · i`, their sum `c'`, and `out · tanh c'` (tanh on each part). At row `b`, entry `o` these
  are the specification's `cRe`, `cIm`, `hRe`, `hIm`: the same operations in the same order.
-/
import proofs.«173032_j43224550867775_2_alg».proof.Proof.ReferenceGates

noncomputable section

namespace Cert.ReferenceIdeal.RefValue

open Cert.ReferenceIdeal Cert.ReferenceIdeal.Gen Cert.ReferenceIdeal.Read Idealize.ShloMosaic Idealize.ShloMosaic.ValueIdx
open Cert.CellSpec

/-- The real half of the old cell state at `(b, o)`. -/
theorem c_re_at (C : Act.Idx → EReal) (b : Fin 4096) (o : Fin 1024) :
    val_main_v4 (F := Ideal) C (ix2 b o) = C (ix2 b (reCol o)) := by
  rw [val_main_v4_apply]
  exact congrArg C (funext fun c => by match c with | ⟨0, _⟩ => rfl | ⟨1, _⟩ => rfl)

/-- The imaginary half of the old cell state at `(b, o)`. -/
theorem c_im_at (C : Act.Idx → EReal) (b : Fin 4096) (o : Fin 1024) :
    val_main_v5 (F := Ideal) C (ix2 b o) = C (ix2 b (imCol o)) := by
  rw [val_main_v5_apply]
  exact congrArg C (funext fun c => by
    match c with
    | ⟨0, _⟩ => rfl
    | ⟨1, _⟩ => exact Fin.ext (Nat.add_comm 1024 o.val))

/-- The real part of the new cell state. -/
theorem cell_re (a : Args) (b : Fin 4096) (o : Fin 1024) :
    val_main_v98 (F := Ideal) a.x a.h a.c a.Uwr a.Uwi a.Ubr a.Ubi a.Wwr a.Wwi a.Wbr a.Wbi (ix2 b o) = cRe a b o := by
  rw [val_main_v98_apply, val_main_v88_apply, val_main_v86_apply, val_main_v87_apply, val_main_v94_apply,
    val_main_v92_apply, val_main_v93_apply, c_re_at, c_im_at, sig_re0, sig_im0, sig_re1, sig_im1, tanh_re2, tanh_im2]
  rfl

/-- The imaginary part of the new cell state. -/
theorem cell_im (a : Args) (b : Fin 4096) (o : Fin 1024) :
    val_main_v99 (F := Ideal) a.x a.h a.c a.Uwr a.Uwi a.Ubr a.Ubi a.Wwr a.Wwi a.Wbr a.Wbi (ix2 b o) = cIm a b o := by
  rw [val_main_v99_apply, val_main_v91_apply, val_main_v89_apply, val_main_v90_apply, val_main_v97_apply,
    val_main_v95_apply, val_main_v96_apply, c_re_at, c_im_at, sig_re0, sig_im0, sig_re1, sig_im1, tanh_re2, tanh_im2]
  rfl

/-- The real part of the new hidden state. -/
theorem hid_re (a : Args) (b : Fin 4096) (o : Fin 1024) :
    val_main_v104 (F := Ideal) a.x a.h a.c a.Uwr a.Uwi a.Ubr a.Ubi a.Wwr a.Wwi a.Wbr a.Wbi (ix2 b o) = hRe a b o := by
  rw [val_main_v104_apply, val_main_v102_apply, val_main_v103_apply, val_main_v100_apply, val_main_v101_apply,
    cell_re, cell_im, sig_re3, sig_im3]
  rfl

/-- The imaginary part of the new hidden state. -/
theorem hid_im (a : Args) (b : Fin 4096) (o : Fin 1024) :
    val_main_v107 (F := Ideal) a.x a.h a.c a.Uwr a.Uwi a.Ubr a.Ubi a.Wwr a.Wwi a.Wbr a.Wbi (ix2 b o) = hIm a b o := by
  rw [val_main_v107_apply, val_main_v105_apply, val_main_v106_apply, val_main_v100_apply, val_main_v101_apply,
    cell_re, cell_im, sig_re3, sig_im3]
  rfl

end Cert.ReferenceIdeal.RefValue

end
-- ==== Proof.ReferenceValue.lean ====
/-
  The value of the reference program: on every device its two result arrays are the specification's new hidden state
  and new cell state of the argument arrays, and the arguments are unchanged.

  Each result is the concatenation, along the columns, of a real-part array and an imaginary-part array of 1024 columns
  each; a column `j` below 1024 reads the first at `j`, a column from 1024 on reads the second at `j − 1024`, which is the
  specification's layout.
-/
import proofs.«173032_j43224550867775_2_alg».proof.Proof.ReferenceCell

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx
open Cert.CellSpec

/-! ## Two arrays of 1024 columns laid side by side -/

/-- The concatenation of two 4096 × 1024 arrays along the columns, at `(b, j)`. -/
theorem concat_halves (X Y : S4096x1024.Idx → EReal) (b : Fin 4096) (j : Fin 2048) :
    concatenate S4096x2048 1 [⟨S4096x1024, X⟩, ⟨S4096x1024, Y⟩] concatenates_S4096x1024_S4096x1024_S4096x2048_d1 (ix2 b j)
      = if h : j.val < 1024 then X (ix2 b ⟨j.val, h⟩)
        else Y (ix2 b ⟨j.val - 1024, by have := j.isLt; omega⟩) := by
  have hj := j.isLt
  split
  · next h =>
    exact concatenate_pair_apply_left (1 : Fin S4096x2048.rank) X Y _ (ix2 b j) rfl (ix2 b ⟨j.val, h⟩)
      (fun c => by match c with | ⟨0, _⟩ => rfl | ⟨1, _⟩ => rfl)
  · next h =>
    exact concatenate_pair_apply_right (1 : Fin S4096x2048.rank) X Y _ (ix2 b j) rfl rfl
      (ix2 b ⟨j.val - 1024, by omega⟩)
      (fun c hc => by match c with | ⟨0, _⟩ => rfl | ⟨1, _⟩ => exact absurd rfl hc)
      (by show j.val - 1024 + 1024 = j.val; omega)

/-- The specification's hidden-state array in its left half … -/
theorem hOut_left (a : Args) (b : Fin 4096) (j : Fin 2048) (hj : j.val < 1024) :
    hOut a (ix2 b j) = hRe a b ⟨j.val, hj⟩ := by
  have e : lo j = ⟨j.val, hj⟩ := Fin.ext (Nat.mod_eq_of_lt hj)
  show (if j.val < 1024 then hRe a b (lo j) else hIm a b (lo j)) = _
  rw [if_pos hj, e]

/-- … and in its right half. -/
theorem hOut_right (a : Args) (b : Fin 4096) (j : Fin 2048) (hj : ¬ j.val < 1024) :
    hOut a (ix2 b j) = hIm a b ⟨j.val - 1024, by have := j.isLt; omega⟩ := by
  have e : lo j = ⟨j.val - 1024, by have := j.isLt; omega⟩ :=
    Fin.ext (by show j.val % 1024 = j.val - 1024; have := j.isLt; omega)
  show (if j.val < 1024 then hRe a b (lo j) else hIm a b (lo j)) = _
  rw [if_neg hj, e]

/-- The specification's cell-state array in its left half … -/
theorem cOut_left (a : Args) (b : Fin 4096) (j : Fin 2048) (hj : j.val < 1024) :
    cOut a (ix2 b j) = cRe a b ⟨j.val, hj⟩ := by
  have e : lo j = ⟨j.val, hj⟩ := Fin.ext (Nat.mod_eq_of_lt hj)
  show (if j.val < 1024 then cRe a b (lo j) else cIm a b (lo j)) = _
  rw [if_pos hj, e]

/-- … and in its right half. -/
theorem cOut_right (a : Args) (b : Fin 4096) (j : Fin 2048) (hj : ¬ j.val < 1024) :
    cOut a (ix2 b j) = cIm a b ⟨j.val - 1024, by have := j.isLt; omega⟩ := by
  have e : lo j = ⟨j.val - 1024, by have := j.isLt; omega⟩ :=
    Fin.ext (by show j.val % 1024 = j.val - 1024; have := j.isLt; omega)
  show (if j.val < 1024 then cRe a b (lo j) else cIm a b (lo j)) = _
  rw [if_neg hj, e]

/-! ## The two results as functions of the argument arrays -/

/-- The reference's first result is the specification's new hidden state. -/
theorem result_h (a : Args) : val_main_v108 (F := Ideal) a.x a.h a.c a.Uwr a.Uwi a.Ubr a.Ubi a.Wwr a.Wwi a.Wbr a.Wbi = hOut a := by
  funext i
  obtain ⟨b, j, rfl⟩ : ∃ (b : Fin 4096) (j : Fin 2048), i = ix2 b j := ⟨i 0, i 1, eq_ix2 i⟩
  unfold val_main_v108
  rw [concat_halves]
  by_cases hj : j.val < 1024
  · rw [dif_pos hj, hid_re, hOut_left a b j hj]
  · rw [dif_neg hj, hid_im, hOut_right a b j hj]

/-- The reference's second result is the specification's new cell state. -/
theorem result_c (a : Args) : val_main_v109 (F := Ideal) a.x a.h a.c a.Uwr a.Uwi a.Ubr a.Ubi a.Wwr a.Wwi a.Wbr a.Wbi = cOut a := by
  funext i
  obtain ⟨b, j, rfl⟩ : ∃ (b : Fin 4096) (j : Fin 2048), i = ix2 b j := ⟨i 0, i 1, eq_ix2 i⟩
  unfold val_main_v109
  rw [concat_halves]
  by_cases hj : j.val < 1024
  · rw [dif_pos hj, cell_re, cOut_left a b j hj]
  · rw [dif_neg hj, cell_im, cOut_right a b j hj]

/-! ## The run -/

/-- The eleven argument arrays a device holds at launch. -/
def args (m : (ℓ : Loc nD τ sig) → Buf (Elt Ideal) ℓ) (c : Dev nD) : Cert.CellSpec.Args :=
  ⟨m ((c.tc : Thread nD τ).loc main_arg0), m ((c.tc : Thread nD τ).loc main_arg1), m ((c.tc : Thread nD τ).loc main_arg2),
    m ((c.tc : Thread nD τ).loc main_arg3), m ((c.tc : Thread nD τ).loc main_arg4), m ((c.tc : Thread nD τ).loc main_arg5),
    m ((c.tc : Thread nD τ).loc main_arg6), m ((c.tc : Thread nD τ).loc main_arg7), m ((c.tc : Thread nD τ).loc main_arg8),
    m ((c.tc : Thread nD τ).loc main_arg9), m ((c.tc : Thread nD τ).loc main_arg10)⟩

/-- On every device, from any memory with zero counters, every weakly fair execution of the reference terminates with
    the first result the specification's new hidden state and the second its new cell state, of the arrays the device
    held at launch, and with those arrays unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v108) = hOut (args m c)
      ∧ r.2.mem ((c.tc : Thread nD τ).loc main_v109) = cOut (args m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c =>
      ⟨(h c).1.trans ((val_main_v108_eq m c).trans (result_h (args m c))),
        (h c).2.1.trans ((val_main_v109_eq m c).trans (result_c (args m c))), (h c).2.2⟩)
    (Cert.ReferenceIdeal.Value.run (F := Ideal) m ρ)

/-- The same run with the results dropped: the arguments are unchanged. -/
theorem frame (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => (h c).2.2) (Cert.ReferenceIdeal.Value.run (F := Ideal) m ρ)

end Cert.ReferenceIdeal.RefValue

end
-- ==== Proof.lean ====
/-
  One step of a complex-valued LSTM cell, computed two ways.

  The kernel runs a grid of 64 points over the batch, 64 rows a point. Each point multiplies its rows of the input and
  of the hidden state — real and imaginary halves read as separate blocks of the same arrays — against four weight
  matrices stacked over the four gates (prepared once, before the grid: transposed so that column `gate · 1024 +
  output` is a gate's output row), adds the two bias arrays' sum, applies the logistic function and tanh gate by gate,
  and forms the new cell state and hidden state by complex products. The reference slices the halves, contracts against
  the weights as given, adds each projection's own bias, and does the same gate arithmetic on whole arrays.

  Read on the extended reals with every operation exact, both compute the function of Proof/CellSpec.lean: the kernel's
  matrix product against a stacked weight matrix is the reference's contraction, gate by gate; the logistic function
  is `1 / (1 + exp (−x))` on both sides; and the one place where the two differ, the grouping of the six terms of a
  pre-activation, is commutativity and associativity of addition, which hold at the infinities too — so the finiteness
  of the inputs is never used.

  The frames: each program terminates without a fault and leaves its arguments unchanged. The kernel reads each of the
  input, hidden-state and cell-state arrays through two windows, so the run holds each of them by two halves of its full
  share; the stacked weights and summed biases stay resident after the first point; the two results are written back
  block by block, the blocks tiling the arrays. The idealization pass rewrote nothing, so `preserves` has no conjunct.
-/
import proofs.«173032_j43224550867775_2_alg».proof.Defs
import proofs.«173032_j43224550867775_2_alg».proof.Proof.Gen.Kernel
import proofs.«173032_j43224550867775_2_alg».proof.Proof.Gen.KernelIdeal
import proofs.«173032_j43224550867775_2_alg».proof.Proof.Gen.ReferenceIdeal
import proofs.«173032_j43224550867775_2_alg».proof.Proof.Gen.ReferenceIdeal.Run
import proofs.«173032_j43224550867775_2_alg».proof.Proof.Gen.ReferenceIdeal.Read
import proofs.«173032_j43224550867775_2_alg».proof.Proof.Gen.Pre_finite_inputs
import proofs.«173032_j43224550867775_2_alg».proof.Proof.CellSpec
import proofs.«173032_j43224550867775_2_alg».proof.Proof.KernelRun
import proofs.«173032_j43224550867775_2_alg».proof.Proof.KernelIdealValue
import proofs.«173032_j43224550867775_2_alg».proof.Proof.ReferenceValue
import Idealize.ShloMosaic.Adequacy
import Idealize.ShloMosaic.Init

noncomputable section

namespace Cert.Proof

open Idealize.ShloMosaic Idealize.SL.Sem

/-- The word-level kernel runs to the end and leaves its arguments unchanged. -/
theorem frame_kernel : Cert.frame_Kernel := fun m ρ _ => Cert.Kernel.Run.frame m ρ

/-- So does the idealized kernel. -/
theorem frame_kernelIdeal : Cert.frame_KernelIdeal := fun m ρ _ => Cert.KernelIdeal.Run.frame m ρ

/-- So does the idealized reference. -/
theorem frame_referenceIdeal : Cert.frame_ReferenceIdeal := fun m ρ _ => Cert.ReferenceIdeal.RefValue.frame m ρ

/-- The idealization rewrote nothing. -/
theorem preserves : Cert.preserves_Kernel_KernelIdeal := trivial

/-- From memories that agree on the arguments, both idealized programs end with the spec's new hidden state and new
    cell state of those arguments. -/
theorem algebraic : Cert.algebraic_KernelIdeal_ReferenceIdeal := by
  intro m ρ m' ρ' _ hagree
  have hargs : ∀ c : Dev Cert.KernelIdeal.nD, Cert.ReferenceIdeal.RefValue.args m' c = Cert.KernelIdeal.Rows.args m c := fun c => by
    obtain ⟨h0, h1, h2, h3, h4, h5, h6, h7, h8, h9, h10⟩ := hagree c
    unfold Cert.ReferenceIdeal.RefValue.args Cert.KernelIdeal.Rows.args
    rw [h0, h1, h2, h3, h4, h5, h6, h7, h8, h9, h10]
  refine ⟨fun c => Cert.CellSpec.hOut (Cert.KernelIdeal.Rows.args m c), fun c => Cert.CellSpec.cOut (Cert.KernelIdeal.Rows.args m c),
    Cert.KernelIdeal.KValue.run m ρ, ?_⟩
  refine (θ_run Cert.ReferenceIdeal.defs _ _).mono (fun r h c => ?_) (Cert.ReferenceIdeal.RefValue.run m' ρ')
  have hc := h c
  rw [hargs c] at hc
  exact hc

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
